-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v134)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v134) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v179) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S3x3x64x64 : Shape := ⟨4, ![3, 3, 64, 64]⟩
abbrev S3x64 : Shape := ⟨2, ![3, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S3x3x64x64 : S_.BroadcastsInDim S3x3x64x64 (![] : Fin 0 → Fin S3x3x64x64.rank)
  reducesTo_S3x3x64x64_S_d0_1_2_3 : S3x3x64x64.ReducesTo [0, 1, 2, 3] S_
  bcast_S_S3x64 : S_.BroadcastsInDim S3x64 (![] : Fin 0 → Fin S3x64.rank)
  reducesTo_S3x64_S_d0_1 : S3x64.ReducesTo [0, 1] S_

variable [Facts]

def fn {F : FTy → Type} [FloatOps F] (main_arg0 : FVec F S100000x64 .f32) (main_arg1 : IVec S2x1200000 32) (main_arg2 : FVec F S3x3x64x64 .f32) (main_arg3 : FVec F S3x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S3x3x64x64 .f32 := Host.absf main_arg2
  let main_cst_0 : FVec F S_ .f32 := constant S_ .f32 0x7F800000#32
  let main_v5 : FVec F S3x3x64x64 .f32 := broadcastInDim S3x3x64x64 ![] bcast_S_S3x3x64x64 main_cst_0
  let main_v6 : IVec S3x3x64x64 1 := cmpf .olt main_v4 main_v5
  let main_c_1 : IVec S_ 1 := constantI S_ 1 1#1
  let main_v7 : IVec S_ 1 := (fun x v => Host.reduce IntOp.andi x v reducesTo_S3x3x64x64_S_d0_1_2_3 h_S_) main_v6 main_c_1
  let main_v8 : IVec S_ 1 := andi main_v3 main_v7
  let main_v9 : FVec F S3x64 .f32 := Host.absf main_arg3
  let main_cst_2 : FVec F S_ .f32 := constant S_ .f32 0x7F800000#32
  let main_v10 : FVec F S3x64 .f32 := broadcastInDim S3x64 ![] bcast_S_S3x64 main_cst_2
  let main_v11 : IVec S3x64 1 := cmpf .olt main_v9 main_v10
  let main_c_3 : IVec S_ 1 := constantI S_ 1 1#1
  let main_v12 : IVec S_ 1 := (fun x v => Host.reduce IntOp.andi x v reducesTo_S3x64_S_d0_1 h_S_) main_v11 main_c_3
  let main_v13 : IVec S_ 1 := andi main_v8 main_v12
  main_v13
-- ==== Kernel.lean ====
abbrev S100000x64 : Shape := ⟨2, ![100000, 64]⟩
abbrev S2x1200000 : Shape := ⟨2, ![2, 1200000]⟩
abbrev S3x3x64x64 : Shape := ⟨4, ![3, 3, 64, 64]⟩
abbrev S3x64 : Shape := ⟨2, ![3, 64]⟩
abbrev S1x1200000 : Shape := ⟨2, ![1, 1200000]⟩
abbrev S1200000 : Shape := ⟨1, ![1200000]⟩
abbrev S_ : Shape := ⟨0, ![]⟩
abbrev S100000 : Shape := ⟨1, ![100000]⟩
abbrev S1200000x1 : Shape := ⟨2, ![1200000, 1]⟩
abbrev S1200000x64 : Shape := ⟨2, ![1200000, 64]⟩
abbrev S1x3x64x64 : Shape := ⟨4, ![1, 3, 64, 64]⟩
abbrev S3x64x64 : Shape := ⟨3, ![3, 64, 64]⟩
abbrev S1x64 : Shape := ⟨2, ![1, 64]⟩
abbrev S64 : Shape := ⟨1, ![64]⟩
abbrev S2000x64 : Shape := ⟨2, ![2000, 64]⟩
abbrev S1x64x64 : Shape := ⟨3, ![1, 64, 64]⟩
abbrev S64x64 : Shape := ⟨2, ![64, 64]⟩

abbrev nBuf : Space → Nat
  | .hbm => 171
  | .vmem => 30
  | .smem => 0
  | _ => 0

abbrev hbmTy0_0 (i : Nat) : BufTy := match i % 128 with
  | 0 => ⟨S100000x64, .f32⟩
  | 1 => ⟨S2x1200000, .i32⟩
  | 2 => ⟨S3x3x64x64, .f32⟩
  | 3 => ⟨S3x64, .f32⟩
  | 4 => ⟨S1x1200000, .i32⟩
  | 5 => ⟨S1200000, .i32⟩
  | 6 => ⟨S1x1200000, .i32⟩
  | 7 => ⟨S1200000, .i32⟩
  | 8 => ⟨S_, .f32⟩
  | 9 => ⟨S1200000, .f32⟩
  | 10 => ⟨S_, .f32⟩
  | 11 => ⟨S100000, .f32⟩
  | 12 => ⟨S1200000x1, .i32⟩
  | 13 => ⟨S100000, .f32⟩
  | 14 => ⟨S_, .f32⟩
  | 15 => ⟨S100000, .f32⟩
  | 16 => ⟨S100000, .i1⟩
  | 17 => ⟨S_, .f32⟩
  | 18 => ⟨S100000, .f32⟩
  | 19 => ⟨S100000, .f32⟩
  | 20 => ⟨S100000, .f32⟩
  | 21 => ⟨S_, .f32⟩
  | 22 => ⟨S_, .f32⟩
  | 23 => ⟨S100000, .f32⟩
  | 24 => ⟨S100000, .f32⟩
  | 25 => ⟨S_, .i32⟩
  | 26 => ⟨S1200000, .i32⟩
  | 27 => ⟨S1200000, .i1⟩
  | 28 => ⟨S_, .i32⟩
  | 29 => ⟨S1200000, .i32⟩
  | 30 => ⟨S1200000, .i32⟩
  | 31 => ⟨S1200000, .i32⟩
  | 32 => ⟨S1200000x1, .i32⟩
  | 33 => ⟨S1200000, .f32⟩
  | 34 => ⟨S1200000, .f32⟩
  | 35 => ⟨S_, .i32⟩
  | 36 => ⟨S1200000, .i32⟩
  | 37 => ⟨S1200000, .i1⟩
  | 38 => ⟨S_, .i32⟩
  | 39 => ⟨S1200000, .i32⟩
  | 40 => ⟨S1200000, .i32⟩
  | 41 => ⟨S1200000, .i32⟩
  | 42 => ⟨S1200000x1, .i32⟩
  | 43 => ⟨S1200000, .f32⟩
  | 44 => ⟨S1200000, .f32⟩
  | 45 => ⟨S1200000x1, .f32⟩
  | 46 => ⟨S_, .i32⟩
  | 47 => ⟨S1200000, .i32⟩
  | 48 => ⟨S1200000, .i1⟩
  | 49 => ⟨S_, .i32⟩
  | 50 => ⟨S1200000, .i32⟩
  | 51 => ⟨S1200000, .i32⟩
  | 52 => ⟨S1200000, .i32⟩
  | 53 => ⟨S1200000x1, .i32⟩
  | 54 => ⟨S1200000x64, .f32⟩
  | 55 => ⟨S1200000x64, .f32⟩
  | 56 => ⟨S1200000x64, .f32⟩
  | 57 => ⟨S_, .f32⟩
  | 58 => ⟨S100000x64, .f32⟩
  | 59 => ⟨S1200000x1, .i32⟩
  | 60 => ⟨S100000x64, .f32⟩
  | 61 => ⟨S1200000x1, .f32⟩
  | 62 => ⟨S_, .i32⟩
  | 63 => ⟨S1200000, .i32⟩
  | 64 => ⟨S1200000, .i1⟩
  | 65 => ⟨S_, .i32⟩
  | 66 => ⟨S1200000, .i32⟩
  | 67 => ⟨S1200000, .i32⟩
  | 68 => ⟨S1200000, .i32⟩
  | 69 => ⟨S1200000x1, .i32⟩
  | 70 => ⟨S1200000x64, .f32⟩
  | 71 => ⟨S1200000x64, .f32⟩
  | 72 => ⟨S1200000x64, .f32⟩
  | 73 => ⟨S_, .f32⟩
  | 74 => ⟨S100000x64, .f32⟩
  | 75 => ⟨S1200000x1, .i32⟩
  | 76 => ⟨S100000x64, .f32⟩
  | 77 => ⟨S_, .f32⟩
  | 78 => ⟨S100000x64, .f32⟩
  | 79 => ⟨S100000x64, .f32⟩
  | 80 => ⟨S100000x64, .f32⟩
  | 81 => ⟨S1x3x64x64, .f32⟩
  | 82 => ⟨S3x64x64, .f32⟩
  | 83 => ⟨S1x64, .f32⟩
  | 84 => ⟨S64, .f32⟩
  | 85 => ⟨S1x64, .f32⟩
  | 86 => ⟨S100000x64, .f32⟩
  | 87 => ⟨S1200000x1, .f32⟩
  | 88 => ⟨S_, .i32⟩
  | 89 => ⟨S1200000, .i32⟩
  | 90 => ⟨S1200000, .i1⟩
  | 91 => ⟨S_, .i32⟩
  | 92 => ⟨S1200000, .i32⟩
  | 93 => ⟨S1200000, .i32⟩
  | 94 => ⟨S1200000, .i32⟩
  | 95 => ⟨S1200000x1, .i32⟩
  | 96 => ⟨S1200000x64, .f32⟩
  | 97 => ⟨S1200000x64, .f32⟩
  | 98 => ⟨S1200000x64, .f32⟩
  | 99 => ⟨S_, .f32⟩
  | 100 => ⟨S100000x64, .f32⟩
  | 101 => ⟨S1200000x1, .i32⟩
  | 102 => ⟨S100000x64, .f32⟩
  | 103 => ⟨S1200000x1, .f32⟩
  | 104 => ⟨S_, .i32⟩
  | 105 => ⟨S1200000, .i32⟩
  | 106 => ⟨S1200000, .i1⟩
  | 107 => ⟨S_, .i32⟩
  | 108 => ⟨S1200000, .i32⟩
  | 109 => ⟨S1200000, .i32⟩
  | 110 => ⟨S1200000, .i32⟩
  | 111 => ⟨S1200000x1, .i32⟩
  | 112 => ⟨S1200000x64, .f32⟩
  | 113 => ⟨S1200000x64, .f32⟩
  | 114 => ⟨S1200000x64, .f32⟩
  | 115 => ⟨S_, .f32⟩
  | 116 => ⟨S100000x64, .f32⟩
  | 117 => ⟨S1200000x1, .i32⟩
  | 118 => ⟨S100000x64, .f32⟩
  | 119 => ⟨S_, .f32⟩
  | 120 => ⟨S100000x64, .f32⟩
  | 121 => ⟨S100000x64, .f32⟩
  | 122 => ⟨S100000x64, .f32⟩
  | 123 => ⟨S1x3x64x64, .f32⟩
  | 124 => ⟨S3x64x64, .f32⟩
  | 125 => ⟨S1x64, .f32⟩
  | 126 => ⟨S64, .f32⟩
  | 127 => ⟨S1x64, .f32⟩
  | _ => ⟨S100000x64, .f32⟩

abbrev hbmTy0_1 (i : Nat) : BufTy := match i % 128 with
  | 0 => ⟨S100000x64, .f32⟩
  | 1 => ⟨S1200000x1, .f32⟩
  | 2 => ⟨S_, .i32⟩
  | 3 => ⟨S1200000, .i32⟩
  | 4 => ⟨S1200000, .i1⟩
  | 5 => ⟨S_, .i32⟩
  | 6 => ⟨S1200000, .i32⟩
  | 7 => ⟨S1200000, .i32⟩
  | 8 => ⟨S1200000, .i32⟩
  | 9 => ⟨S1200000x1, .i32⟩
  | 10 => ⟨S1200000x64, .f32⟩
  | 11 => ⟨S1200000x64, .f32⟩
  | 12 => ⟨S1200000x64, .f32⟩
  | 13 => ⟨S_, .f32⟩
  | 14 => ⟨S100000x64, .f32⟩
  | 15 => ⟨S1200000x1, .i32⟩
  | 16 => ⟨S100000x64, .f32⟩
  | 17 => ⟨S1200000x1, .f32⟩
  | 18 => ⟨S_, .i32⟩
  | 19 => ⟨S1200000, .i32⟩
  | 20 => ⟨S1200000, .i1⟩
  | 21 => ⟨S_, .i32⟩
  | 22 => ⟨S1200000, .i32⟩
  | 23 => ⟨S1200000, .i32⟩
  | 24 => ⟨S1200000, .i32⟩
  | 25 => ⟨S1200000x1, .i32⟩
  | 26 => ⟨S1200000x64, .f32⟩
  | 27 => ⟨S1200000x64, .f32⟩
  | 28 => ⟨S1200000x64, .f32⟩
  | 29 => ⟨S_, .f32⟩
  | 30 => ⟨S100000x64, .f32⟩
  | 31 => ⟨S1200000x1, .i32⟩
  | 32 => ⟨S100000x64, .f32⟩
  | 33 => ⟨S_, .f32⟩
  | 34 => ⟨S100000x64, .f32⟩
  | 35 => ⟨S100000x64, .f32⟩
  | 36 => ⟨S100000x64, .f32⟩
  | 37 => ⟨S1x3x64x64, .f32⟩
  | 38 => ⟨S3x64x64, .f32⟩
  | 39 => ⟨S1x64, .f32⟩
  | 40 => ⟨S64, .f32⟩
  | 41 => ⟨S1x64, .f32⟩
  | 42 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S3x64x64, .f32⟩
  | .local _ .vmem, ⟨7, _⟩ => ⟨S1x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S3x64x64, .f32⟩
  | .local _ .vmem, ⟨17, _⟩ => ⟨S1x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x64, .f32⟩
  | .local _ .vmem, ⟨24, _⟩ => ⟨S2000x64, .f32⟩
  | .local _ .vmem, ⟨25, _⟩ => ⟨S2000x64, .f32⟩
  | .local _ .vmem, ⟨26, _⟩ => ⟨S3x64x64, .f32⟩
  | .local _ .vmem, ⟨27, _⟩ => ⟨S1x64, .f32⟩
  | .local _ .vmem, ⟨28, _⟩ => ⟨S2000x64, .f32⟩
  | .local _ .vmem, ⟨29, _⟩ => ⟨S2000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_call0_v0 : Ref sig .tc := ⟨.hbm, 22, rfl⟩
abbrev main_call0_v1 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_5 : Ref sig .tc := ⟨.hbm, 35, rfl⟩
abbrev main_v22 : Ref sig .tc := ⟨.hbm, 36, rfl⟩
abbrev main_v23 : Ref sig .tc := ⟨.hbm, 37, rfl⟩
abbrev main_c_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_7 : Ref sig .tc := ⟨.hbm, 46, rfl⟩
abbrev main_v31 : Ref sig .tc := ⟨.hbm, 47, rfl⟩
abbrev main_v32 : Ref sig .tc := ⟨.hbm, 48, rfl⟩
abbrev main_c_8 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_10 : Ref sig .tc := ⟨.hbm, 62, rfl⟩
abbrev main_v44 : Ref sig .tc := ⟨.hbm, 63, rfl⟩
abbrev main_v45 : Ref sig .tc := ⟨.hbm, 64, rfl⟩
abbrev main_c_11 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_12 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_13 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_c_14 : Ref sig .tc := ⟨.hbm, 88, rfl⟩
abbrev main_v66 : Ref sig .tc := ⟨.hbm, 89, rfl⟩
abbrev main_v67 : Ref sig .tc := ⟨.hbm, 90, rfl⟩
abbrev main_c_15 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_16 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_c_17 : Ref sig .tc := ⟨.hbm, 104, rfl⟩
abbrev main_v79 : Ref sig .tc := ⟨.hbm, 105, rfl⟩
abbrev main_v80 : Ref sig .tc := ⟨.hbm, 106, rfl⟩
abbrev main_c_18 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_cst_19 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_cst_20 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_c_21 : Ref sig .tc := ⟨.hbm, 130, rfl⟩
abbrev main_v101 : Ref sig .tc := ⟨.hbm, 131, rfl⟩
abbrev main_v102 : Ref sig .tc := ⟨.hbm, 132, rfl⟩
abbrev main_c_22 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_cst_23 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_c_24 : Ref sig .tc := ⟨.hbm, 146, rfl⟩
abbrev main_v114 : Ref sig .tc := ⟨.hbm, 147, rfl⟩
abbrev main_v115 : Ref sig .tc := ⟨.hbm, 148, rfl⟩
abbrev main_c_25 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_cst_26 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_cst_27 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem4_0 : DmaSem sig := 27
abbrev cc2_sem5_0 : DmaSem sig := 28
abbrev cc2_sem5_1 : DmaSem sig := 29

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S3x64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S3x64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  slices_S3x3x64x64_S1x3x64x64_0_0_0_0 : S3x3x64x64.Slices ![0, 0, 0, 0] S1x3x64x64
  shapeCasts_S1x3x64x64_S3x64x64 : S1x3x64x64.ShapeCasts S3x64x64
  slices_S3x64_S1x64_0_0 : S3x64.Slices ![0, 0] S1x64
  shapeCasts_S1x64_S64 : S1x64.ShapeCasts S64
  shapeCasts_S64_S1x64 : S64.ShapeCasts S1x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  bitsLt_bf16_f32 : FTy.bits .bf16 < FTy.bits .f32
  inb_S3x64x64_S1x64x64_0_0_0 : ∀ a, (![0, 0, 0] : Fin 3 → Nat) a + S1x64x64.size a ≤ S3x64x64.size a
  h_S1x64x64 : 0 < S1x64x64.numel
  shapeCasts_S1x64x64_S64x64 : S1x64x64.ShapeCasts S64x64
  inb_S3x64x64_S1x64x64_1_0_0 : ∀ a, (![1, 0, 0] : Fin 3 → Nat) a + S1x64x64.size a ≤ S3x64x64.size a
  inb_S3x64x64_S1x64x64_2_0_0 : ∀ a, (![2, 0, 0] : Fin 3 → Nat) a + S1x64x64.size a ≤ S3x64x64.size a
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  slices_S3x3x64x64_S1x3x64x64_1_0_0_0 : S3x3x64x64.Slices ![1, 0, 0, 0] S1x3x64x64
  slices_S3x64_S1x64_1_0 : S3x64.Slices ![1, 0] S1x64
  slices_S3x3x64x64_S1x3x64x64_2_0_0_0 : S3x3x64x64.Slices ![2, 0, 0, 0] S1x3x64x64
  slices_S3x64_S1x64_2_0 : S3x64.Slices ![2, 0] S1x64
  scatter_S100000_S1200000x1_S1200000_n_0_0_1_wf : ScatterDims.WF S100000 S1200000x1 S1200000 [] [0] [0] 1
  gather_S100000_S1200000x1_S1200000_n_0_n_n_0_1_1_wf : GatherDims.WF S100000 S1200000x1 S1200000 [] [0] [] [0] [] 1 ![1]
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S2000x64_S64x64_S2000x64_1_0_0_1_n_n_wf : DotDims.WF S2000x64 S64x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S100000x64.size a
  hwx0_1 : ∀ i : grid0.Coords, EltTy.bits .f32 = 32 ∨ (Rect.block (s := S100000x64) S2000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x64x64.size a ≤ S3x64x64.size a
  hwx0_3 : ∀ i : grid0.Coords, EltTy.bits .f32 = 32 ∨ (Rect.block (s := S3x64x64) S3x64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x64.size a ≤ S100000x64.size a
  hwx0_5 : ∀ i : grid0.Coords, EltTy.bits .f32 = 32 ∨ (Rect.block (s := S100000x64) S2000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S100000x64.size a
  hwx1_1 : ∀ i : grid1.Coords, EltTy.bits .f32 = 32 ∨ (Rect.block (s := S100000x64) S2000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S100000x64.size a
  hwx1_2 : ∀ i : grid1.Coords, EltTy.bits .f32 = 32 ∨ (Rect.block (s := S100000x64) S2000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3x64x64.size a ≤ S3x64x64.size a
  hwx1_3 : ∀ i : grid1.Coords, EltTy.bits .f32 = 32 ∨ (Rect.block (s := S3x64x64) S3x64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S100000x64.size a
  hwx1_5 : ∀ i : grid1.Coords, EltTy.bits .f32 = 32 ∨ (Rect.block (s := S100000x64) S2000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S100000x64.size a
  hwx2_1 : ∀ i : grid2.Coords, EltTy.bits .f32 = 32 ∨ (Rect.block (s := S100000x64) S2000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S100000x64.size a
  hwx2_2 : ∀ i : grid2.Coords, EltTy.bits .f32 = 32 ∨ (Rect.block (s := S100000x64) S2000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S3x64x64.size a ≤ S3x64x64.size a
  hwx2_3 : ∀ i : grid2.Coords, EltTy.bits .f32 = 32 ∨ (Rect.block (s := S3x64x64) S3x64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x64.size a ≤ S100000x64.size a
  hwx2_5 : ∀ i : grid2.Coords, EltTy.bits .f32 = 32 ∨ (Rect.block (s := S100000x64) S2000x64.size (cc2_transform_5 i) (hinb2_5 i)).WholeWords (EltTy.packing .f32)

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000_S1200000x1_S1200000_n_0_n_n_0_1_1 : GatherDims S100000 S1200000x1 S1200000 where
  offsetDims := []
  collapsedSliceDims := [0]
  operandBatchingDims := []
  startIndicesBatchingDims := []
  startIndexMap := [0]
  indexVectorDim := 1
  sliceSizes := ![1]
  wf := gather_S100000_S1200000x1_S1200000_n_0_n_n_0_1_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v42) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v58) S2000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v60) S3x64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v63) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v64) S2000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v64) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v77) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v93) S2000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v95) S3x64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v98) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v99) S2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v99) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v112) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v128) S2000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v130) S3x64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v133) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v134) S2000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S3x3x64x64 : Shape := ⟨4, ![3, 3, 64, 64]⟩
abbrev S3x64 : Shape := ⟨2, ![3, 64]⟩
abbrev S1x1200000 : Shape := ⟨2, ![1, 1200000]⟩
abbrev S1200000 : Shape := ⟨1, ![1200000]⟩
abbrev S_ : Shape := ⟨0, ![]⟩
abbrev S100000 : Shape := ⟨1, ![100000]⟩
abbrev S1200000x1 : Shape := ⟨2, ![1200000, 1]⟩
abbrev S1x3x64x64 : Shape := ⟨4, ![1, 3, 64, 64]⟩
abbrev S3x64x64 : Shape := ⟨3, ![3, 64, 64]⟩
abbrev S1x64 : Shape := ⟨2, ![1, 64]⟩
abbrev S64 : Shape := ⟨1, ![64]⟩
abbrev S1x64x64 : Shape := ⟨3, ![1, 64, 64]⟩
abbrev S64x64 : Shape := ⟨2, ![64, 64]⟩
abbrev S1200000x64 : Shape := ⟨2, ![1200000, 64]⟩

abbrev nBuf : Space → Nat
  | .hbm => 222
  | .vmem => 0
  | .smem => 0
  | _ => 0

abbrev hbmTy0_0 (i : Nat) : BufTy := match i % 128 with
  | 0 => ⟨S100000x64, .f32⟩
  | 1 => ⟨S2x1200000, .i32⟩
  | 2 => ⟨S3x3x64x64, .f32⟩
  | 3 => ⟨S3x64, .f32⟩
  | 4 => ⟨S1x1200000, .i32⟩
  | 5 => ⟨S1200000, .i32⟩
  | 6 => ⟨S1x1200000, .i32⟩
  | 7 => ⟨S1200000, .i32⟩
  | 8 => ⟨S1x1200000, .i32⟩
  | 9 => ⟨S1200000, .i32⟩
  | 10 => ⟨S1x1200000, .i32⟩
  | 11 => ⟨S1200000, .i32⟩
  | 12 => ⟨S_, .f32⟩
  | 13 => ⟨S1200000, .f32⟩
  | 14 => ⟨S_, .f32⟩
  | 15 => ⟨S100000, .f32⟩
  | 16 => ⟨S1200000x1, .i32⟩
  | 17 => ⟨S100000, .f32⟩
  | 18 => ⟨S_, .f32⟩
  | 19 => ⟨S100000, .f32⟩
  | 20 => ⟨S100000, .i1⟩
  | 21 => ⟨S_, .f32⟩
  | 22 => ⟨S100000, .f32⟩
  | 23 => ⟨S100000, .f32⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1200000, .i32⟩
  | 31 => ⟨S1200000, .i1⟩
  | 32 => ⟨S_, .i32⟩
  | 33 => ⟨S1200000, .i32⟩
  | 34 => ⟨S1200000, .i32⟩
  | 35 => ⟨S1200000, .i32⟩
  | 36 => ⟨S1200000x1, .i32⟩
  | 37 => ⟨S1200000, .f32⟩
  | 38 => ⟨S1200000, .f32⟩
  | 39 => ⟨S_, .i32⟩
  | 40 => ⟨S1200000, .i32⟩
  | 41 => ⟨S1200000, .i1⟩
  | 42 => ⟨S_, .i32⟩
  | 43 => ⟨S1200000, .i32⟩
  | 44 => ⟨S1200000, .i32⟩
  | 45 => ⟨S1200000, .i32⟩
  | 46 => ⟨S1200000x1, .i32⟩
  | 47 => ⟨S1200000, .f32⟩
  | 48 => ⟨S1200000, .f32⟩
  | 49 => ⟨S1x3x64x64, .f32⟩
  | 50 => ⟨S3x64x64, .f32⟩
  | 51 => ⟨S1x64, .f32⟩
  | 52 => ⟨S64, .f32⟩
  | 53 => ⟨S1x64x64, .f32⟩
  | 54 => ⟨S64x64, .f32⟩
  | 55 => ⟨S100000x64, .f32⟩
  | 56 => ⟨S1200000x1, .f32⟩
  | 57 => ⟨S_, .i32⟩
  | 58 => ⟨S1200000, .i32⟩
  | 59 => ⟨S1200000, .i1⟩
  | 60 => ⟨S_, .i32⟩
  | 61 => ⟨S1200000, .i32⟩
  | 62 => ⟨S1200000, .i32⟩
  | 63 => ⟨S1200000, .i32⟩
  | 64 => ⟨S1200000x1, .i32⟩
  | 65 => ⟨S1200000x64, .f32⟩
  | 66 => ⟨S1200000x64, .f32⟩
  | 67 => ⟨S1200000x64, .f32⟩
  | 68 => ⟨S_, .f32⟩
  | 69 => ⟨S100000x64, .f32⟩
  | 70 => ⟨S1200000x1, .i32⟩
  | 71 => ⟨S100000x64, .f32⟩
  | 72 => ⟨S1x64x64, .f32⟩
  | 73 => ⟨S64x64, .f32⟩
  | 74 => ⟨S100000x64, .f32⟩
  | 75 => ⟨S100000x64, .f32⟩
  | 76 => ⟨S1200000x1, .f32⟩
  | 77 => ⟨S_, .i32⟩
  | 78 => ⟨S1200000, .i32⟩
  | 79 => ⟨S1200000, .i1⟩
  | 80 => ⟨S_, .i32⟩
  | 81 => ⟨S1200000, .i32⟩
  | 82 => ⟨S1200000, .i32⟩
  | 83 => ⟨S1200000, .i32⟩
  | 84 => ⟨S1200000x1, .i32⟩
  | 85 => ⟨S1200000x64, .f32⟩
  | 86 => ⟨S1200000x64, .f32⟩
  | 87 => ⟨S1200000x64, .f32⟩
  | 88 => ⟨S_, .f32⟩
  | 89 => ⟨S100000x64, .f32⟩
  | 90 => ⟨S1200000x1, .i32⟩
  | 91 => ⟨S100000x64, .f32⟩
  | 92 => ⟨S_, .f32⟩
  | 93 => ⟨S100000x64, .f32⟩
  | 94 => ⟨S100000x64, .f32⟩
  | 95 => ⟨S100000x64, .f32⟩
  | 96 => ⟨S1x64x64, .f32⟩
  | 97 => ⟨S64x64, .f32⟩
  | 98 => ⟨S100000x64, .f32⟩
  | 99 => ⟨S100000x64, .f32⟩
  | 100 => ⟨S1x64, .f32⟩
  | 101 => ⟨S100000x64, .f32⟩
  | 102 => ⟨S100000x64, .f32⟩
  | 103 => ⟨S_, .f32⟩
  | 104 => ⟨S100000x64, .f32⟩
  | 105 => ⟨S100000x64, .f32⟩
  | 106 => ⟨S1x3x64x64, .f32⟩
  | 107 => ⟨S3x64x64, .f32⟩
  | 108 => ⟨S1x64, .f32⟩
  | 109 => ⟨S64, .f32⟩
  | 110 => ⟨S1x64x64, .f32⟩
  | 111 => ⟨S64x64, .f32⟩
  | 112 => ⟨S100000x64, .f32⟩
  | 113 => ⟨S1200000x1, .f32⟩
  | 114 => ⟨S_, .i32⟩
  | 115 => ⟨S1200000, .i32⟩
  | 116 => ⟨S1200000, .i1⟩
  | 117 => ⟨S_, .i32⟩
  | 118 => ⟨S1200000, .i32⟩
  | 119 => ⟨S1200000, .i32⟩
  | 120 => ⟨S1200000, .i32⟩
  | 121 => ⟨S1200000x1, .i32⟩
  | 122 => ⟨S1200000x64, .f32⟩
  | 123 => ⟨S1200000x64, .f32⟩
  | 124 => ⟨S1200000x64, .f32⟩
  | 125 => ⟨S_, .f32⟩
  | 126 => ⟨S100000x64, .f32⟩
  | 127 => ⟨S1200000x1, .i32⟩
  | _ => ⟨S100000x64, .f32⟩

abbrev hbmTy0_1 (i : Nat) : BufTy := match i % 128 with
  | 0 => ⟨S100000x64, .f32⟩
  | 1 => ⟨S1x64x64, .f32⟩
  | 2 => ⟨S64x64, .f32⟩
  | 3 => ⟨S100000x64, .f32⟩
  | 4 => ⟨S100000x64, .f32⟩
  | 5 => ⟨S1200000x1, .f32⟩
  | 6 => ⟨S_, .i32⟩
  | 7 => ⟨S1200000, .i32⟩
  | 8 => ⟨S1200000, .i1⟩
  | 9 => ⟨S_, .i32⟩
  | 10 => ⟨S1200000, .i32⟩
  | 11 => ⟨S1200000, .i32⟩
  | 12 => ⟨S1200000, .i32⟩
  | 13 => ⟨S1200000x1, .i32⟩
  | 14 => ⟨S1200000x64, .f32⟩
  | 15 => ⟨S1200000x64, .f32⟩
  | 16 => ⟨S1200000x64, .f32⟩
  | 17 => ⟨S_, .f32⟩
  | 18 => ⟨S100000x64, .f32⟩
  | 19 => ⟨S1200000x1, .i32⟩
  | 20 => ⟨S100000x64, .f32⟩
  | 21 => ⟨S_, .f32⟩
  | 22 => ⟨S100000x64, .f32⟩
  | 23 => ⟨S100000x64, .f32⟩
  | 24 => ⟨S100000x64, .f32⟩
  | 25 => ⟨S1x64x64, .f32⟩
  | 26 => ⟨S64x64, .f32⟩
  | 27 => ⟨S100000x64, .f32⟩
  | 28 => ⟨S100000x64, .f32⟩
  | 29 => ⟨S1x64, .f32⟩
  | 30 => ⟨S100000x64, .f32⟩
  | 31 => ⟨S100000x64, .f32⟩
  | 32 => ⟨S100000x64, .f32⟩
  | 33 => ⟨S_, .f32⟩
  | 34 => ⟨S100000x64, .f32⟩
  | 35 => ⟨S100000x64, .f32⟩
  | 36 => ⟨S1x3x64x64, .f32⟩
  | 37 => ⟨S3x64x64, .f32⟩
  | 38 => ⟨S1x64, .f32⟩
  | 39 => ⟨S64, .f32⟩
  | 40 => ⟨S1x64x64, .f32⟩
  | 41 => ⟨S64x64, .f32⟩
  | 42 => ⟨S100000x64, .f32⟩
  | 43 => ⟨S1200000x1, .f32⟩
  | 44 => ⟨S_, .i32⟩
  | 45 => ⟨S1200000, .i32⟩
  | 46 => ⟨S1200000, .i1⟩
  | 47 => ⟨S_, .i32⟩
  | 48 => ⟨S1200000, .i32⟩
  | 49 => ⟨S1200000, .i32⟩
  | 50 => ⟨S1200000, .i32⟩
  | 51 => ⟨S1200000x1, .i32⟩
  | 52 => ⟨S1200000x64, .f32⟩
  | 53 => ⟨S1200000x64, .f32⟩
  | 54 => ⟨S1200000x64, .f32⟩
  | 55 => ⟨S_, .f32⟩
  | 56 => ⟨S100000x64, .f32⟩
  | 57 => ⟨S1200000x1, .i32⟩
  | 58 => ⟨S100000x64, .f32⟩
  | 59 => ⟨S1x64x64, .f32⟩
  | 60 => ⟨S64x64, .f32⟩
  | 61 => ⟨S100000x64, .f32⟩
  | 62 => ⟨S100000x64, .f32⟩
  | 63 => ⟨S1200000x1, .f32⟩
  | 64 => ⟨S_, .i32⟩
  | 65 => ⟨S1200000, .i32⟩
  | 66 => ⟨S1200000, .i1⟩
  | 67 => ⟨S_, .i32⟩
  | 68 => ⟨S1200000, .i32⟩
  | 69 => ⟨S1200000, .i32⟩
  | 70 => ⟨S1200000, .i32⟩
  | 71 => ⟨S1200000x1, .i32⟩
  | 72 => ⟨S1200000x64, .f32⟩
  | 73 => ⟨S1200000x64, .f32⟩
  | 74 => ⟨S1200000x64, .f32⟩
  | 75 => ⟨S_, .f32⟩
  | 76 => ⟨S100000x64, .f32⟩
  | 77 => ⟨S1200000x1, .i32⟩
  | 78 => ⟨S100000x64, .f32⟩
  | 79 => ⟨S_, .f32⟩
  | 80 => ⟨S100000x64, .f32⟩
  | 81 => ⟨S100000x64, .f32⟩
  | 82 => ⟨S100000x64, .f32⟩
  | 83 => ⟨S1x64x64, .f32⟩
  | 84 => ⟨S64x64, .f32⟩
  | 85 => ⟨S100000x64, .f32⟩
  | 86 => ⟨S100000x64, .f32⟩
  | 87 => ⟨S1x64, .f32⟩
  | 88 => ⟨S100000x64, .f32⟩
  | 89 => ⟨S100000x64, .f32⟩
  | 90 => ⟨S100000x64, .f32⟩
  | 91 => ⟨S_, .f32⟩
  | 92 => ⟨S100000x64, .f32⟩
  | 93 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v17 : Ref sig .tc := ⟨.hbm, 28, rfl⟩
abbrev main_c : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_c_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_c_7 : Ref sig .tc := ⟨.hbm, 57, rfl⟩
abbrev main_v42 : Ref sig .tc := ⟨.hbm, 58, rfl⟩
abbrev main_v43 : Ref sig .tc := ⟨.hbm, 59, rfl⟩
abbrev main_c_8 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_9 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_c_10 : Ref sig .tc := ⟨.hbm, 77, rfl⟩
abbrev main_v59 : Ref sig .tc := ⟨.hbm, 78, rfl⟩
abbrev main_v60 : Ref sig .tc := ⟨.hbm, 79, rfl⟩
abbrev main_c_11 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_12 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_13 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_call1_cst : Ref sig .tc := ⟨.hbm, 103, rfl⟩
abbrev main_call1_v0 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_c_14 : Ref sig .tc := ⟨.hbm, 114, rfl⟩
abbrev main_v90 : Ref sig .tc := ⟨.hbm, 115, rfl⟩
abbrev main_v91 : Ref sig .tc := ⟨.hbm, 116, rfl⟩
abbrev main_c_15 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_cst_16 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_c_17 : Ref sig .tc := ⟨.hbm, 134, rfl⟩
abbrev main_v107 : Ref sig .tc := ⟨.hbm, 135, rfl⟩
abbrev main_v108 : Ref sig .tc := ⟨.hbm, 136, rfl⟩
abbrev main_c_18 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_cst_19 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_cst_20 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_call2_cst : Ref sig .tc := ⟨.hbm, 161, rfl⟩
abbrev main_call2_v0 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_c_21 : Ref sig .tc := ⟨.hbm, 172, rfl⟩
abbrev main_v139 : Ref sig .tc := ⟨.hbm, 173, rfl⟩
abbrev main_v140 : Ref sig .tc := ⟨.hbm, 174, rfl⟩
abbrev main_c_22 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_cst_23 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_c_24 : Ref sig .tc := ⟨.hbm, 192, rfl⟩
abbrev main_v156 : Ref sig .tc := ⟨.hbm, 193, rfl⟩
abbrev main_v157 : Ref sig .tc := ⟨.hbm, 194, rfl⟩
abbrev main_c_25 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_cst_26 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_cst_27 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩
abbrev main_v175 : Ref sig .tc := ⟨.hbm, 215, rfl⟩
abbrev main_v176 : Ref sig .tc := ⟨.hbm, 216, rfl⟩
abbrev main_v177 : Ref sig .tc := ⟨.hbm, 217, rfl⟩
abbrev main_v178 : Ref sig .tc := ⟨.hbm, 218, rfl⟩
abbrev main_call3_cst : Ref sig .tc := ⟨.hbm, 219, rfl⟩
abbrev main_call3_v0 : Ref sig .tc := ⟨.hbm, 220, rfl⟩
abbrev main_v179 : Ref sig .tc := ⟨.hbm, 221, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  slices_S3x3x64x64_S1x3x64x64_0_0_0_0 : S3x3x64x64.Slices ![0, 0, 0, 0] S1x3x64x64
  shapeCasts_S1x3x64x64_S3x64x64 : S1x3x64x64.ShapeCasts S3x64x64
  slices_S3x64_S1x64_0_0 : S3x64.Slices ![0, 0] S1x64
  shapeCasts_S1x64_S64 : S1x64.ShapeCasts S64
  slices_S3x64x64_S1x64x64_0_0_0 : S3x64x64.Slices ![0, 0, 0] S1x64x64
  shapeCasts_S1x64x64_S64x64 : S1x64x64.ShapeCasts S64x64
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  slices_S3x64x64_S1x64x64_1_0_0 : S3x64x64.Slices ![1, 0, 0] S1x64x64
  slices_S3x64x64_S1x64x64_2_0_0 : S3x64x64.Slices ![2, 0, 0] S1x64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S3x3x64x64_S1x3x64x64_1_0_0_0 : S3x3x64x64.Slices ![1, 0, 0, 0] S1x3x64x64
  slices_S3x64_S1x64_1_0 : S3x64.Slices ![1, 0] S1x64
  slices_S3x3x64x64_S1x3x64x64_2_0_0_0 : S3x3x64x64.Slices ![2, 0, 0, 0] S1x3x64x64
  slices_S3x64_S1x64_2_0 : S3x64.Slices ![2, 0] S1x64
  scatter_S100000_S1200000x1_S1200000_n_0_0_1_wf : ScatterDims.WF S100000 S1200000x1 S1200000 [] [0] [0] 1
  gather_S100000_S1200000x1_S1200000_n_0_n_n_0_1_1_wf : GatherDims.WF S100000 S1200000x1 S1200000 [] [0] [] [0] [] 1 ![1]
  dot_S100000x64_S64x64_S100000x64_1_0_0_1_n_n_wf : DotDims.WF S100000x64 S64x64 S100000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000_S1200000x1_S1200000_n_0_n_n_0_1_1 : GatherDims S100000 S1200000x1 S1200000 where
  offsetDims := []
  collapsedSliceDims := [0]
  operandBatchingDims := []
  startIndicesBatchingDims := []
  startIndexMap := [0]
  indexVectorDim := 1
  sliceSizes := ![1]
  wf := gather_S100000_S1200000x1_S1200000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf

class Facts : Prop extends Facts₀ where

variable [Facts]
-- ==== Proof.KernelRun.lean ====
/-
  The idealized kernel's run with its result named.

  @main is eight segments: three stretches of host operations, then three times a kernel region followed (but for
  the last) by a stretch of host operations.  Every weakly fair execution runs them in order and terminates; the
  buffers at each segment boundary are a fold from the launch memory (a stretch applies its operations, a region
  replaces its arrays by what its write-backs leave).  The final state therefore holds, in the result buffer, the
  last boundary's contents of that buffer, and the four argument arrays as launched.
-/
import proofs.«108330_j58488864637084_1_alg».proof.Proof.Gen.KernelIdeal.Frame

set_option maxRecDepth 16384

noncomputable section

namespace Cert.KernelIdeal.RunValue

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
-- the segments theorem's implicit arguments are found by unifying its conclusion with this statement, which takes
-- unfolding plain definitions in a metavariable's type
set_option backward.isDefEq.respectTransparency.types false in
/-- Every weakly fair execution of @main terminates, nothing faulting, with the result buffer at the last segment
    boundary's contents and the argument arrays as launched. -/
theorem run_result : θ_run defs (onTc (τ := τ) (main (F := F))) ⟨m, fun _ => 0, ρ⟩ (fun r => ∀ c : Dev nD,
      r.2.mem ((c.tc : Thread nD τ).loc main_v134) = W8 m ρ c (Proc.devRef .tc main_v134)
      ∧       r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v134 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c)⟩)

end Cert.KernelIdeal.RunValue

end
-- ==== Proof.ChebSpec.lean ====
/-
  The stacked polynomial graph convolution as whole-array functions, for any float type.

  From the edge list (two rows of node indices: sources and targets) one normalisation weight per edge is computed
  once: with deg the number of edges leaving each node and dis = (deg > 0 ? rsqrt (max (deg, 1)) : 0), the weight of
  edge e is  − dis[src e] · dis[dst e].  One propagation of a node array h gathers h's rows at the edges' sources, scales
  each by its edge's weight and adds it into the row of the edge's target, from zeros.  A layer takes T0 = h,
  T1 = the propagation of T0, T2 = 2 · (the propagation of T1) − T0, and returns
  max (T0·W0 + T1·W1 + T2·W2 + bias [+ T0], 0); three layers are stacked, the second and third with the residual term.
  Negative indices wrap once by the node count before a gather, as the host's indexing does.
-/
import proofs.«108330_j58488864637084_1_alg».proof.Proof.Gen.ReferenceIdeal

noncomputable section

namespace Cert.ReferenceIdeal.Cheb

open Cert.ReferenceIdeal Cert.ReferenceIdeal.Gen Idealize.ShloMosaic

variable {F : FTy → Type} [FloatOps F]

/-- Row r of the edge list as a vector of node indices. -/
def src (x1 : (⟨S2x1200000, .i32⟩ : BufTy).Contents (Elt F)) : (⟨S1200000, .i32⟩ : BufTy).Contents (Elt F) :=
  shapeCast _ (extractStridedSlice S1x1200000 ![0, 0] x1 slices_S2x1200000_S1x1200000_0_0) shapeCasts_S1x1200000_S1200000
def dst (x1 : (⟨S2x1200000, .i32⟩ : BufTy).Contents (Elt F)) : (⟨S1200000, .i32⟩ : BufTy).Contents (Elt F) :=
  shapeCast _ (extractStridedSlice S1x1200000 ![1, 0] x1 slices_S2x1200000_S1x1200000_1_0) shapeCasts_S1x1200000_S1200000

/-- An index vector as the index column of a gather: negative entries wrapped once by the node count. -/
def wrapCol (s : (⟨S1200000, .i32⟩ : BufTy).Contents (Elt F)) : (⟨S1200000x1, .i32⟩ : BufTy).Contents (Elt F) :=
  broadcastInDim S1200000x1 ![0] bcast_S1200000_S1200000x1_0
    (select (cmpi .slt s (broadcastInDim S1200000 ![] bcast_S_S1200000 (constantI S_ 32 0#32)))
      (addi s (broadcastInDim S1200000 ![] bcast_S_S1200000 (constantI S_ 32 100000#32))) s)

/-- The number of edges leaving each node. -/
def deg (x1 : (⟨S2x1200000, .i32⟩ : BufTy).Contents (Elt F)) : (⟨S100000, .f32⟩ : BufTy).Contents (Elt F) :=
  Host.scatterAdd scatter_S100000_S1200000x1_S1200000_n_0_0_1
    (broadcastInDim S100000 ![] bcast_S_S100000 (constant S_ .f32 0x00000000#32))
    (broadcastInDim S1200000x1 ![0] bcast_S1200000_S1200000x1_0 (src x1))
    (broadcastInDim S1200000 ![] bcast_S_S1200000 (constant S_ .f32 0x3F800000#32))

/-- deg > 0 ? rsqrt (max (deg, 1)) : 0, node by node. -/
def dis (x1 : (⟨S2x1200000, .i32⟩ : BufTy).Contents (Elt F)) : (⟨S100000, .f32⟩ : BufTy).Contents (Elt F) :=
  select (cmpf .ogt (deg x1) (broadcastInDim S100000 ![] bcast_S_S100000 (constant S_ .f32 0x00000000#32)))
    (Host.rsqrt (maximumf (deg x1) (broadcastInDim S100000 ![] bcast_S_S100000 (constant S_ .f32 0x3F800000#32))))
    (broadcastInDim S100000 ![] bcast_S_S100000 (id (constant S_ .f32 0x00000000#32)))

/-- The edges' weights: − dis[src e] · dis[dst e]. -/
def nrm (x1 : (⟨S2x1200000, .i32⟩ : BufTy).Contents (Elt F)) : (⟨S1200000, .f32⟩ : BufTy).Contents (Elt F) :=
  mulf (Host.negf (Host.gather gather_S100000_S1200000x1_S1200000_n_0_n_n_0_1_1 (dis x1) (wrapCol (src x1))))
    (Host.gather gather_S100000_S1200000x1_S1200000_n_0_n_n_0_1_1 (dis x1) (wrapCol (dst x1)))

/-- One propagation: rows gathered at the sources, scaled by the edges' weights, added into the targets' rows. -/
def prop (n : (⟨S1200000, .f32⟩ : BufTy).Contents (Elt F)) (s d : (⟨S1200000, .i32⟩ : BufTy).Contents (Elt F))
    (h : (⟨S100000x64, .f32⟩ : BufTy).Contents (Elt F)) : (⟨S100000x64, .f32⟩ : BufTy).Contents (Elt F) :=
  Host.scatterAdd scatter_S100000x64_S1200000x1_S1200000x64_1_0_0_1
    (broadcastInDim S100000x64 ![] bcast_S_S100000x64 (constant S_ .f32 0x00000000#32))
    (broadcastInDim S1200000x1 ![0] bcast_S1200000_S1200000x1_0 d)
    (mulf (broadcastInDim S1200000x64 ![0, 1] bcast_S1200000x1_S1200000x64_0_1 (broadcastInDim S1200000x1 ![0] bcast_S1200000_S1200000x1_0 n))
      (Host.gather gather_S100000x64_S1200000x1_S1200000x64_1_0_n_n_0_1_164 h (wrapCol s)))

/-- The third polynomial term: 2 · (the propagation of t1) − t0. -/
def cheb2 (n : (⟨S1200000, .f32⟩ : BufTy).Contents (Elt F)) (s d : (⟨S1200000, .i32⟩ : BufTy).Contents (Elt F))
    (t1 t0 : (⟨S100000x64, .f32⟩ : BufTy).Contents (Elt F)) : (⟨S100000x64, .f32⟩ : BufTy).Contents (Elt F) :=
  subf (mulf (broadcastInDim S100000x64 ![] bcast_S_S100000x64 (constant S_ .f32 0x40000000#32)) (prop n s d t1)) t0

/-- The bias vector of a [1, 64] slice of the bias stack. -/
def bvec (r : (⟨S1x64, .f32⟩ : BufTy).Contents (Elt F)) : (⟨S64, .f32⟩ : BufTy).Contents (Elt F) :=
  shapeCast _ r shapeCasts_S1x64_S64
/-- The weight stack [3, 64, 64] of a [1, 3, 64, 64] slice of the weights. -/
def wstack (r : (⟨S1x3x64x64, .f32⟩ : BufTy).Contents (Elt F)) : (⟨S3x64x64, .f32⟩ : BufTy).Contents (Elt F) :=
  shapeCast _ r shapeCasts_S1x3x64x64_S3x64x64

/-- T0·W0 + T1·W1 + T2·W2 + bias, the bias vector laid out as a row and stretched down the rows. -/
def affine (t0 t1 t2 : (⟨S100000x64, .f32⟩ : BufTy).Contents (Elt F)) (w3 : (⟨S3x64x64, .f32⟩ : BufTy).Contents (Elt F))
    (b : (⟨S64, .f32⟩ : BufTy).Contents (Elt F)) : (⟨S100000x64, .f32⟩ : BufTy).Contents (Elt F) :=
  addf (addf (addf
      (Host.dotGeneral dot_S100000x64_S64x64_S100000x64_1_0_0_1_n_n none t0
        (shapeCast _ (extractStridedSlice S1x64x64 ![0, 0, 0] w3 slices_S3x64x64_S1x64x64_0_0_0) shapeCasts_S1x64x64_S64x64))
      (Host.dotGeneral dot_S100000x64_S64x64_S100000x64_1_0_0_1_n_n none t1
        (shapeCast _ (extractStridedSlice S1x64x64 ![1, 0, 0] w3 slices_S3x64x64_S1x64x64_1_0_0) shapeCasts_S1x64x64_S64x64)))
      (Host.dotGeneral dot_S100000x64_S64x64_S100000x64_1_0_0_1_n_n none t2
        (shapeCast _ (extractStridedSlice S1x64x64 ![2, 0, 0] w3 slices_S3x64x64_S1x64x64_2_0_0) shapeCasts_S1x64x64_S64x64)))
    (broadcastInDim S100000x64 ![0, 1] bcast_S1x64_S100000x64_0_1 (broadcastInDim S1x64 ![1] bcast_S64_S1x64_1 b))

/-- max (v, 0), entry by entry. -/
def relu (v : (⟨S100000x64, .f32⟩ : BufTy).Contents (Elt F)) : (⟨S100000x64, .f32⟩ : BufTy).Contents (Elt F) :=
  maximumf v (broadcastInDim S100000x64 ![] bcast_S_S100000x64 (constant S_ .f32 0x00000000#32))

/-- The first layer from its input h: the three polynomial terms, the affine combination, the rectifier. -/
def layer0 (n : (⟨S1200000, .f32⟩ : BufTy).Contents (Elt F)) (s d : (⟨S1200000, .i32⟩ : BufTy).Contents (Elt F))
    (h : (⟨S100000x64, .f32⟩ : BufTy).Contents (Elt F)) (w3 : (⟨S3x64x64, .f32⟩ : BufTy).Contents (Elt F))
    (b : (⟨S64, .f32⟩ : BufTy).Contents (Elt F)) : (⟨S100000x64, .f32⟩ : BufTy).Contents (Elt F) :=
  relu (affine h (prop n s d h) (cheb2 n s d (prop n s d h) h) w3 b)
/-- A later layer: the input is added back before the rectifier. -/
def layerS (n : (⟨S1200000, .f32⟩ : BufTy).Contents (Elt F)) (s d : (⟨S1200000, .i32⟩ : BufTy).Contents (Elt F))
    (h : (⟨S100000x64, .f32⟩ : BufTy).Contents (Elt F)) (w3 : (⟨S3x64x64, .f32⟩ : BufTy).Contents (Elt F))
    (b : (⟨S64, .f32⟩ : BufTy).Contents (Elt F)) : (⟨S100000x64, .f32⟩ : BufTy).Contents (Elt F) :=
  relu (addf (affine h (prop n s d h) (cheb2 n s d (prop n s d h) h) w3 b) h)

/-- Layer l's weight stack and bias vector, cut out of the arguments. -/
def w0 (x2 : (⟨S3x3x64x64, .f32⟩ : BufTy).Contents (Elt F)) := wstack (extractStridedSlice S1x3x64x64 ![0, 0, 0, 0] x2 slices_S3x3x64x64_S1x3x64x64_0_0_0_0)
def w1 (x2 : (⟨S3x3x64x64, .f32⟩ : BufTy).Contents (Elt F)) := wstack (extractStridedSlice S1x3x64x64 ![1, 0, 0, 0] x2 slices_S3x3x64x64_S1x3x64x64_1_0_0_0)
def w2 (x2 : (⟨S3x3x64x64, .f32⟩ : BufTy).Contents (Elt F)) := wstack (extractStridedSlice S1x3x64x64 ![2, 0, 0, 0] x2 slices_S3x3x64x64_S1x3x64x64_2_0_0_0)
def b0 (x3 : (⟨S3x64, .f32⟩ : BufTy).Contents (Elt F)) := bvec (extractStridedSlice S1x64 ![0, 0] x3 slices_S3x64_S1x64_0_0)
def b1 (x3 : (⟨S3x64, .f32⟩ : BufTy).Contents (Elt F)) := bvec (extractStridedSlice S1x64 ![1, 0] x3 slices_S3x64_S1x64_1_0)
def b2 (x3 : (⟨S3x64, .f32⟩ : BufTy).Contents (Elt F)) := bvec (extractStridedSlice S1x64 ![2, 0] x3 slices_S3x64_S1x64_2_0)

/-- The three stacked layers. -/
def h1 (x0 : (⟨S100000x64, .f32⟩ : BufTy).Contents (Elt F)) (x1 : (⟨S2x1200000, .i32⟩ : BufTy).Contents (Elt F))
    (x2 : (⟨S3x3x64x64, .f32⟩ : BufTy).Contents (Elt F)) (x3 : (⟨S3x64, .f32⟩ : BufTy).Contents (Elt F)) :=
  layer0 (nrm x1) (src x1) (dst x1) x0 (w0 x2) (b0 x3)
def h2 (x0 : (⟨S100000x64, .f32⟩ : BufTy).Contents (Elt F)) (x1 : (⟨S2x1200000, .i32⟩ : BufTy).Contents (Elt F))
    (x2 : (⟨S3x3x64x64, .f32⟩ : BufTy).Contents (Elt F)) (x3 : (⟨S3x64, .f32⟩ : BufTy).Contents (Elt F)) :=
  layerS (nrm x1) (src x1) (dst x1) (h1 x0 x1 x2 x3) (w1 x2) (b1 x3)
def h3 (x0 : (⟨S100000x64, .f32⟩ : BufTy).Contents (Elt F)) (x1 : (⟨S2x1200000, .i32⟩ : BufTy).Contents (Elt F))
    (x2 : (⟨S3x3x64x64, .f32⟩ : BufTy).Contents (Elt F)) (x3 : (⟨S3x64, .f32⟩ : BufTy).Contents (Elt F)) :=
  layerS (nrm x1) (src x1) (dst x1) (h2 x0 x1 x2 x3) (w2 x2) (b2 x3)

end Cert.ReferenceIdeal.Cheb

end
-- ==== Proof.HostStretches.lean ====
/-
  The kernel program's three stretches of host operations, each from ANY buffer contents W, for any float type.

  The first stretch cuts the two index rows out of the edge list, computes the edges' weights, the first layer's two
  propagations of the input, and cuts the first layer's weight stack and bias row out of the arguments.  The second
  and third stretches compute the two propagations of the previous region's output with the same weights and
  index rows, and cut the next layer's weight stack and bias row.  Each buffer a stretch writes holds, afterwards,
  one of the specification's whole-array functions of what the stretch read; each buffer it does not write keeps
  its contents.  The two sides are the same operations on the same operands.
-/
import proofs.«108330_j58488864637084_1_alg».proof.Proof.Gen.KernelIdeal.Launch
import proofs.«108330_j58488864637084_1_alg».proof.Proof.ChebSpec
import Idealize.ShloMosaic.Lib.StableHlo.Run

set_option maxRecDepth 16384
set_option maxHeartbeats 4000000

noncomputable section

namespace Cert.KernelIdeal.Stretch

open Cert.KernelIdeal Cert.KernelIdeal.Gen Cert.ReferenceIdeal.Cheb
open Idealize.ShloMosaic Idealize.ShloMosaic.TcCoe Idealize.SL.Sem Idealize.ShloMosaic.StableHlo

variable {F : FTy → Type} [FloatOps F]

-- the scatters and gathers stay folded: the two sides agree on them operand by operand
attribute [local irreducible] Host.scatterAdd Host.gather

/-! ## Before the first region -/

/-- The buffers after the three parts of the first stretch. -/
abbrev afterA (W : Valuation τ sig (Elt F)) : Valuation τ sig (Elt F) :=
  after hostOps0_2 (after hostOps0_1 (after hostOps0 W))

theorem A_arg0 (W : Valuation τ sig (Elt F)) :
    afterA W (Proc.devRef .tc main_arg0) = (W (Proc.devRef .tc main_arg0)) := by
  dsimp only [afterA, hostOps0, hostOps0_1, hostOps0_2]
  after_results_simp

theorem A_arg2 (W : Valuation τ sig (Elt F)) :
    afterA W (Proc.devRef .tc main_arg2) = (W (Proc.devRef .tc main_arg2)) := by
  dsimp only [afterA, hostOps0, hostOps0_1, hostOps0_2]
  after_results_simp

theorem A_arg3 (W : Valuation τ sig (Elt F)) :
    afterA W (Proc.devRef .tc main_arg3) = (W (Proc.devRef .tc main_arg3)) := by
  dsimp only [afterA, hostOps0, hostOps0_1, hostOps0_2]
  after_results_simp

theorem A_src (W : Valuation τ sig (Elt F)) :
    afterA W (Proc.devRef .tc main_v1) = src (W (Proc.devRef .tc main_arg1)) := by
  unfold src
  dsimp only [afterA, hostOps0, hostOps0_1, hostOps0_2]
  after_results_simp
  rfl

theorem A_dst (W : Valuation τ sig (Elt F)) :
    afterA W (Proc.devRef .tc main_v3) = dst (W (Proc.devRef .tc main_arg1)) := by
  unfold dst
  dsimp only [afterA, hostOps0, hostOps0_1, hostOps0_2]
  after_results_simp
  rfl

theorem A_nrm (W : Valuation τ sig (Elt F)) :
    afterA W (Proc.devRef .tc main_v29) = nrm (W (Proc.devRef .tc main_arg1)) := by
  unfold nrm dis deg wrapCol src dst
  dsimp only [afterA, hostOps0, hostOps0_1, hostOps0_2]
  after_results_simp
  rfl

theorem A_t1 (W : Valuation τ sig (Elt F)) :
    afterA W (Proc.devRef .tc main_v42) = prop (nrm (W (Proc.devRef .tc main_arg1))) (src (W (Proc.devRef .tc main_arg1))) (dst (W (Proc.devRef .tc main_arg1))) (W (Proc.devRef .tc main_arg0)) := by
  unfold prop wrapCol nrm dis deg wrapCol src dst
  dsimp only [afterA, hostOps0, hostOps0_1, hostOps0_2]
  after_results_simp
  rfl

theorem A_t2 (W : Valuation τ sig (Elt F)) :
    afterA W (Proc.devRef .tc main_v58) = cheb2 (nrm (W (Proc.devRef .tc main_arg1))) (src (W (Proc.devRef .tc main_arg1))) (dst (W (Proc.devRef .tc main_arg1))) (prop (nrm (W (Proc.devRef .tc main_arg1))) (src (W (Proc.devRef .tc main_arg1))) (dst (W (Proc.devRef .tc main_arg1))) (W (Proc.devRef .tc main_arg0))) (W (Proc.devRef .tc main_arg0)) := by
  unfold cheb2 prop wrapCol nrm dis deg wrapCol src dst
  dsimp only [afterA, hostOps0, hostOps0_1, hostOps0_2]
  after_results_simp
  rfl

theorem A_w (W : Valuation τ sig (Elt F)) :
    afterA W (Proc.devRef .tc main_v60) = w0 (W (Proc.devRef .tc main_arg2)) := by
  unfold w0 wstack
  dsimp only [afterA, hostOps0, hostOps0_1, hostOps0_2]
  after_results_simp
  rfl

theorem A_b (W : Valuation τ sig (Elt F)) :
    afterA W (Proc.devRef .tc main_v63) = shapeCast S1x64 (b0 (W (Proc.devRef .tc main_arg3))) shapeCasts_S64_S1x64 := by
  unfold b0 bvec
  dsimp only [afterA, hostOps0, hostOps0_1, hostOps0_2]
  after_results_simp
  rfl

/-! ## Between the first and the second region -/

theorem B_src (W : Valuation τ sig (Elt F)) :
    after (hostOps1 (F := F)) W (Proc.devRef .tc main_v1) = (W (Proc.devRef .tc main_v1)) := by
  dsimp only [hostOps1]
  after_results_simp

theorem B_dst (W : Valuation τ sig (Elt F)) :
    after (hostOps1 (F := F)) W (Proc.devRef .tc main_v3) = (W (Proc.devRef .tc main_v3)) := by
  dsimp only [hostOps1]
  after_results_simp

theorem B_nrm (W : Valuation τ sig (Elt F)) :
    after (hostOps1 (F := F)) W (Proc.devRef .tc main_v29) = (W (Proc.devRef .tc main_v29)) := by
  dsimp only [hostOps1]
  after_results_simp

theorem B_arg2 (W : Valuation τ sig (Elt F)) :
    after (hostOps1 (F := F)) W (Proc.devRef .tc main_arg2) = (W (Proc.devRef .tc main_arg2)) := by
  dsimp only [hostOps1]
  after_results_simp

theorem B_arg3 (W : Valuation τ sig (Elt F)) :
    after (hostOps1 (F := F)) W (Proc.devRef .tc main_arg3) = (W (Proc.devRef .tc main_arg3)) := by
  dsimp only [hostOps1]
  after_results_simp

theorem B_h (W : Valuation τ sig (Elt F)) :
    after (hostOps1 (F := F)) W (Proc.devRef .tc main_v64) = (W (Proc.devRef .tc main_v64)) := by
  dsimp only [hostOps1]
  after_results_simp

theorem B_t1 (W : Valuation τ sig (Elt F)) :
    after (hostOps1 (F := F)) W (Proc.devRef .tc main_v77) = prop (W (Proc.devRef .tc main_v29)) (W (Proc.devRef .tc main_v1)) (W (Proc.devRef .tc main_v3)) (W (Proc.devRef .tc main_v64)) := by
  unfold prop wrapCol
  dsimp only [hostOps1]
  after_results_simp
  rfl

theorem B_t2 (W : Valuation τ sig (Elt F)) :
    after (hostOps1 (F := F)) W (Proc.devRef .tc main_v93) = cheb2 (W (Proc.devRef .tc main_v29)) (W (Proc.devRef .tc main_v1)) (W (Proc.devRef .tc main_v3)) (prop (W (Proc.devRef .tc main_v29)) (W (Proc.devRef .tc main_v1)) (W (Proc.devRef .tc main_v3)) (W (Proc.devRef .tc main_v64))) (W (Proc.devRef .tc main_v64)) := by
  unfold cheb2 prop wrapCol
  dsimp only [hostOps1]
  after_results_simp
  rfl

theorem B_w (W : Valuation τ sig (Elt F)) :
    after (hostOps1 (F := F)) W (Proc.devRef .tc main_v95) = w1 (W (Proc.devRef .tc main_arg2)) := by
  unfold w1 wstack
  dsimp only [hostOps1]
  after_results_simp
  rfl

theorem B_b (W : Valuation τ sig (Elt F)) :
    after (hostOps1 (F := F)) W (Proc.devRef .tc main_v98) = shapeCast S1x64 (b1 (W (Proc.devRef .tc main_arg3))) shapeCasts_S64_S1x64 := by
  unfold b1 bvec
  dsimp only [hostOps1]
  after_results_simp
  rfl

/-! ## Between the second and the third region -/

theorem C_src (W : Valuation τ sig (Elt F)) :
    after (hostOps2 (F := F)) W (Proc.devRef .tc main_v1) = (W (Proc.devRef .tc main_v1)) := by
  dsimp only [hostOps2]
  after_results_simp

theorem C_dst (W : Valuation τ sig (Elt F)) :
    after (hostOps2 (F := F)) W (Proc.devRef .tc main_v3) = (W (Proc.devRef .tc main_v3)) := by
  dsimp only [hostOps2]
  after_results_simp

theorem C_nrm (W : Valuation τ sig (Elt F)) :
    after (hostOps2 (F := F)) W (Proc.devRef .tc main_v29) = (W (Proc.devRef .tc main_v29)) := by
  dsimp only [hostOps2]
  after_results_simp

theorem C_arg2 (W : Valuation τ sig (Elt F)) :
    after (hostOps2 (F := F)) W (Proc.devRef .tc main_arg2) = (W (Proc.devRef .tc main_arg2)) := by
  dsimp only [hostOps2]
  after_results_simp

theorem C_arg3 (W : Valuation τ sig (Elt F)) :
    after (hostOps2 (F := F)) W (Proc.devRef .tc main_arg3) = (W (Proc.devRef .tc main_arg3)) := by
  dsimp only [hostOps2]
  after_results_simp

theorem C_h (W : Valuation τ sig (Elt F)) :
    after (hostOps2 (F := F)) W (Proc.devRef .tc main_v99) = (W (Proc.devRef .tc main_v99)) := by
  dsimp only [hostOps2]
  after_results_simp

theorem C_t1 (W : Valuation τ sig (Elt F)) :
    after (hostOps2 (F := F)) W (Proc.devRef .tc main_v112) = prop (W (Proc.devRef .tc main_v29)) (W (Proc.devRef .tc main_v1)) (W (Proc.devRef .tc main_v3)) (W (Proc.devRef .tc main_v99)) := by
  unfold prop wrapCol
  dsimp only [hostOps2]
  after_results_simp
  rfl

theorem C_t2 (W : Valuation τ sig (Elt F)) :
    after (hostOps2 (F := F)) W (Proc.devRef .tc main_v128) = cheb2 (W (Proc.devRef .tc main_v29)) (W (Proc.devRef .tc main_v1)) (W (Proc.devRef .tc main_v3)) (prop (W (Proc.devRef .tc main_v29)) (W (Proc.devRef .tc main_v1)) (W (Proc.devRef .tc main_v3)) (W (Proc.devRef .tc main_v99))) (W (Proc.devRef .tc main_v99)) := by
  unfold cheb2 prop wrapCol
  dsimp only [hostOps2]
  after_results_simp
  rfl

theorem C_w (W : Valuation τ sig (Elt F)) :
    after (hostOps2 (F := F)) W (Proc.devRef .tc main_v130) = w2 (W (Proc.devRef .tc main_arg2)) := by
  unfold w2 wstack
  dsimp only [hostOps2]
  after_results_simp
  rfl

theorem C_b (W : Valuation τ sig (Elt F)) :
    after (hostOps2 (F := F)) W (Proc.devRef .tc main_v133) = shapeCast S1x64 (b2 (W (Proc.devRef .tc main_arg3))) shapeCasts_S64_S1x64 := by
  unfold b2 bvec
  dsimp only [hostOps2]
  after_results_simp
  rfl

end Cert.KernelIdeal.Stretch

end
-- ==== Proof.LibPlainDot.lean ====
/-
  A plain matrix product read at an index, at the ideal values.

  For a left operand of shape [R, K] and a right operand of shape [K, C] contracted over the shared axis
  (no batch axis), the kernel's matrix product into a zero accumulator and the host's `dot_general` are both, at
  output index (r, c), the sum over k of left (r, k) times right (k, c).  The extents R, K, C are symbolic: the same
  lemmas serve a row block of the left operand and the whole array.
-/
import Idealize.ShloMosaic.PureOps.Ideal.Laws
import Idealize.ShloMosaic.Lib.ValueIdx

noncomputable section

namespace Cert.Lib.PlainDot

open Idealize.ShloMosaic Idealize.ShloMosaic.ValueIdx
open scoped BigOperators

variable {R K C : Nat}

/-- The left operand's index (r, k) for output index `j` = (r, c) and contraction position `k`. -/
abbrev rowIdx (j : (⟨2, ![R, C]⟩ : Shape).Idx) (k : Fin K) : (⟨2, ![R, K]⟩ : Shape).Idx := fun a => match a with
  | ⟨0, _⟩ => ⟨(j 0).val, (j 0).isLt⟩
  | ⟨1, _⟩ => ⟨k.val, k.isLt⟩
/-- The right operand's index (k, c) for output index `j` = (r, c) and contraction position `k`. -/
abbrev colIdx (j : (⟨2, ![R, C]⟩ : Shape).Idx) (k : Fin K) : (⟨2, ![K, C]⟩ : Shape).Idx := fun a => match a with
  | ⟨0, _⟩ => ⟨k.val, k.isLt⟩
  | ⟨1, _⟩ => ⟨(j 1).val, (j 1).isLt⟩

/-- The product of an [R, K] array and a [K, C] array as a function of the output index. -/
def mm (x : (⟨2, ![R, K]⟩ : Shape).Idx → EReal) (w : (⟨2, ![K, C]⟩ : Shape).Idx → EReal) :
    (⟨2, ![R, C]⟩ : Shape).Idx → EReal :=
  fun j => ∑ k : Fin K, x (rowIdx j k) * w (colIdx j k)

theorem lhs0 (j : (⟨2, ![R, C]⟩ : Shape).Idx) (q : (DotDims.plain R K C).contr.Idx) :
    ((DotDims.plain R K C).lhsIdx j q 0).val = (j 0).val := by
  unfold DotDims.lhsIdx
  rw [dif_neg (show ¬(0 : Fin 2) ∈ (DotDims.plain R K C).lhsBatch from List.not_mem_nil),
    dif_pos (show (0 : Fin 2) ∈ (DotDims.plain R K C).lhsNonContracting from List.mem_singleton.mpr rfl)]
  rfl
theorem lhs1 (j : (⟨2, ![R, C]⟩ : Shape).Idx) (q : (DotDims.plain R K C).contr.Idx) :
    ((DotDims.plain R K C).lhsIdx j q 1).val = (q ⟨0, (show 0 < (DotDims.plain R K C).contr.rank from Nat.one_pos)⟩).val :=
  (DotDims.plain R K C).lhsIdx_val_of_single rfl j q
theorem rhs0 (j : (⟨2, ![R, C]⟩ : Shape).Idx) (q : (DotDims.plain R K C).contr.Idx) :
    ((DotDims.plain R K C).rhsIdx j q 0).val = (q ⟨0, (show 0 < (DotDims.plain R K C).contr.rank from Nat.one_pos)⟩).val :=
  (DotDims.plain R K C).rhsIdx_val_of_single rfl j q
theorem rhs1 (j : (⟨2, ![R, C]⟩ : Shape).Idx) (q : (DotDims.plain R K C).contr.Idx) :
    ((DotDims.plain R K C).rhsIdx j q 1).val = (j 1).val := by
  unfold DotDims.rhsIdx
  rw [dif_neg (show ¬(1 : Fin 2) ∈ (DotDims.plain R K C).rhsBatch from List.not_mem_nil),
    dif_pos (show (1 : Fin 2) ∈ (DotDims.plain R K C).rhsNonContracting from List.mem_singleton.mpr rfl)]
  rfl

/-- The contraction's sum, re-indexed by the one contracted coordinate. -/
theorem sum_plain (x : (⟨2, ![R, K]⟩ : Shape).Idx → EReal) (w : (⟨2, ![K, C]⟩ : Shape).Idx → EReal)
    (j : (⟨2, ![R, C]⟩ : Shape).Idx) :
    ∑ q : (DotDims.plain R K C).contr.Idx, x ((DotDims.plain R K C).lhsIdx j q) * w ((DotDims.plain R K C).rhsIdx j q)
      = mm x w j := by
  unfold mm
  rw [← Equiv.sum_comp (contrEquiv1 (DotDims.plain R K C) K rfl rfl).symm]
  refine Finset.sum_congr rfl fun k _ => ?_
  have hk := contrEquiv1_symm_val (DotDims.plain R K C) K rfl rfl k
  have el : (DotDims.plain R K C).lhsIdx j ((contrEquiv1 (DotDims.plain R K C) K rfl rfl).symm k) = rowIdx j k :=
    funext fun a => Fin.ext (by
      match a with
      | ⟨0, _⟩ => exact lhs0 _ _
      | ⟨1, _⟩ => exact (lhs1 _ _).trans hk)
  have er : (DotDims.plain R K C).rhsIdx j ((contrEquiv1 (DotDims.plain R K C) K rfl rfl).symm k) = colIdx j k :=
    funext fun a => Fin.ext (by
      match a with
      | ⟨0, _⟩ => exact (rhs0 _ _).trans hk
      | ⟨1, _⟩ => exact rhs1 _ _)
  rw [el, er]

/-- The kernel's matrix product into the zero accumulator, at an index. -/
theorem matmul_zero_apply {φ₁ φ₂ : FTy} (d : DotDims ⟨2, ![R, K]⟩ ⟨2, ![K, C]⟩ ⟨2, ![R, C]⟩)
    (hd : d = DotDims.plain R K C) (prec : Option ContractPrecision)
    (x : FVec Ideal ⟨2, ![R, K]⟩ φ₁) (w : FVec Ideal ⟨2, ![K, C]⟩ φ₂) (j : (⟨2, ![R, C]⟩ : Shape).Idx) :
    FloatOps.matmul d prec x w (constant ⟨2, ![R, C]⟩ .f32 0x00000000#32) j = mm x w j := by
  subst hd
  rw [Ideal.matmul_constant_zero_apply]
  exact sum_plain x w j

/-- The host's `dot_general`, at an index. -/
theorem dotGeneral_apply {φ₁ φ₂ : FTy} (d : DotDims ⟨2, ![R, K]⟩ ⟨2, ![K, C]⟩ ⟨2, ![R, C]⟩)
    (hd : d = DotDims.plain R K C) (prec : Option ContractPrecision) (sched : HostSchedule)
    (x : FVec Ideal ⟨2, ![R, K]⟩ φ₁) (w : FVec Ideal ⟨2, ![K, C]⟩ φ₂) (j : (⟨2, ![R, C]⟩ : Shape).Idx) :
    FloatOps.dotGeneral d prec sched x w j = mm x w j := by
  subst hd
  rw [Ideal.dotGeneral_apply]
  exact sum_plain x w j

end Cert.Lib.PlainDot

end
-- ==== Proof.LibRowBlocks.lean ====
/-
  Row blocks of a dense layer, at the ideal values.

  A layer's output array is cut into blocks of R consecutive rows; the block that starts at row o of an [N, C] array
  is computed from the matching row block of the left operand and from whole small operands (a weight matrix, a
  one-row bias).  Each lemma says: the block computation, read at an entry y of the block, is the whole-array
  host computation read at the entry of the array where y sits.  The embeddings of block entries into array
  entries are abstract maps with the two or three index equations a row block satisfies.
-/
import Idealize.ShloMosaic.PureOps.Ideal.Laws
import Idealize.ShloMosaic.Lib.ValueIdx
import Idealize.ShloMosaic.Lib.Pipeline.Value
import proofs.«108330_j58488864637084_1_alg».proof.Proof.LibPlainDot

noncomputable section

namespace Cert.Bridge

open Idealize.ShloMosaic Idealize.ShloMosaic.ValueIdx Cert.Lib.PlainDot
open scoped BigOperators

variable {R N K C : Nat}

/-- Entry (0, c) of a one-row matrix, for the column c of the entry `j`. -/
abbrev rowZero {A : Nat} (j : (⟨2, ![A, C]⟩ : Shape).Idx) : (⟨2, ![1, C]⟩ : Shape).Idx := fun a => match a with
  | ⟨0, _⟩ => ⟨0, Nat.one_pos⟩
  | ⟨1, _⟩ => ⟨(j 1).val, (j 1).isLt⟩

/-- The product of a row block with the whole right factor is the row block of the product. -/
theorem mm_block (X : (⟨2, ![N, K]⟩ : Shape).Idx → EReal) (W : (⟨2, ![K, C]⟩ : Shape).Idx → EReal)
    (e0 : (⟨2, ![R, K]⟩ : Shape).Idx → (⟨2, ![N, K]⟩ : Shape).Idx)
    (e1 : (⟨2, ![K, C]⟩ : Shape).Idx → (⟨2, ![K, C]⟩ : Shape).Idx)
    (eo : (⟨2, ![R, C]⟩ : Shape).Idx → (⟨2, ![N, C]⟩ : Shape).Idx)
    (h0 : ∀ y k, e0 (rowIdx y k) = rowIdx (eo y) k) (h1 : ∀ y k, e1 (colIdx y k) = colIdx (eo y) k)
    (y : (⟨2, ![R, C]⟩ : Shape).Idx) :
    mm (fun j => X (e0 j)) (fun j => W (e1 j)) y = mm X W (eo y) := by
  unfold mm
  exact Finset.sum_congr rfl fun k _ => by dsimp only; rw [h0, h1]

/-- A one-row matrix stretched over R rows, read at an entry: the row's entry in that column. -/
theorem stretchRow_apply {φ : FTy} (v : FVec Ideal ⟨2, ![1, C]⟩ φ)
    (h : (⟨2, ![1, C]⟩ : Shape).Broadcasts ⟨2, ![R, C]⟩) (y : (⟨2, ![R, C]⟩ : Shape).Idx) :
    broadcastTo ⟨2, ![R, C]⟩ v h y = v (rowZero y) := by
  refine broadcastTo_apply v h y (rowZero y) (fun a => ?_)
  match a with
  | ⟨0, _⟩ => exact (if_pos rfl).symm
  | ⟨1, _⟩ =>
    show (y 1).val = if C = 1 then 0 else (y 1).val
    have hlt : (y 1).val < C := (y 1).isLt
    split_ifs with hC
    · omega
    · rfl

/-- The host's stretch of a one-row matrix over N rows, read at an entry. -/
theorem hostStretchRow_apply {φ : FTy} (v : FVec Ideal ⟨2, ![1, C]⟩ φ)
    (h : (⟨2, ![1, C]⟩ : Shape).BroadcastsInDim ⟨2, ![N, C]⟩ ![0, 1]) (i : (⟨2, ![N, C]⟩ : Shape).Idx) :
    broadcastInDim ⟨2, ![N, C]⟩ ![0, 1] h v i = v (rowZero i) := by
  refine broadcastInDim_apply ![0, 1] h v i (rowZero i) (fun a => ?_)
  match a with
  | ⟨0, _⟩ => exact (if_pos rfl).symm
  | ⟨1, _⟩ =>
    show (i 1).val = if C = 1 then 0 else (i 1).val
    have hlt : (i 1).val < C := (i 1).isLt
    split_ifs with hC
    · omega
    · rfl

/-- The host's stretch of a scalar over a matrix, read at an entry. -/
theorem hostSplat_apply {φ : FTy} (z : FVec Ideal ⟨0, ![]⟩ φ)
    (h : (⟨0, ![]⟩ : Shape).BroadcastsInDim ⟨2, ![N, C]⟩ ![]) (i : (⟨2, ![N, C]⟩ : Shape).Idx) :
    broadcastInDim ⟨2, ![N, C]⟩ ![] h z i = z ix0 :=
  broadcastInDim_apply ![] h z i ix0 (fun a => a.elim0)

/-- A vector laid out as a one-row matrix by a reshape is the vector laid out by adding a leading unit axis. -/
theorem reshapeRow_eq {φ : FTy} (v : FVec Ideal ⟨1, ![C]⟩ φ)
    (hs : (⟨1, ![C]⟩ : Shape).ShapeCasts ⟨2, ![1, C]⟩)
    (hb : (⟨1, ![C]⟩ : Shape).BroadcastsInDim ⟨2, ![1, C]⟩ ![1]) :
    shapeCast ⟨2, ![1, C]⟩ v hs = broadcastInDim ⟨2, ![1, C]⟩ ![1] hb v := by
  funext j
  have hj0 : (j 0).val = 0 := by have h : (j 0).val < 1 := (j 0).isLt; omega
  have e1 : shapeCast ⟨2, ![1, C]⟩ v hs j = v (ix1 (j 1)) :=
    shapeCast_apply v hs j (ix1 (j 1)) (by
      rw [Shape.rowMajor_val_one, Shape.rowMajor_val_two]
      show (j 1).val = (j 0).val * C + (j 1).val
      rw [hj0]; omega)
  have e2 : broadcastInDim ⟨2, ![1, C]⟩ ![1] hb v j = v (ix1 (j 1)) :=
    broadcastInDim_apply ![1] hb v j (ix1 (j 1)) (fun a => by
      match a with
      | ⟨0, _⟩ =>
        show (j 1).val = if C = 1 then 0 else (j 1).val
        have hlt : (j 1).val < C := (j 1).isLt
        split_ifs with hC
        · omega
        · rfl)
  rw [e1, e2]

/-- THE MATRIX PRODUCT of a row block, against the host's product of the whole arrays. -/
theorem dot_block {φ₁ φ₂ φ₃ φ₄ : FTy} (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (X : FVec Ideal ⟨2, ![N, K]⟩ φ₃) (W : FVec Ideal ⟨2, ![K, C]⟩ φ₄)
    (x0 : FVec Ideal ⟨2, ![R, K]⟩ φ₁) (x1 : FVec Ideal ⟨2, ![K, C]⟩ φ₂)
    (e0 : (⟨2, ![R, K]⟩ : Shape).Idx → (⟨2, ![N, K]⟩ : Shape).Idx)
    (e1 : (⟨2, ![K, C]⟩ : Shape).Idx → (⟨2, ![K, C]⟩ : Shape).Idx)
    (eo : (⟨2, ![R, C]⟩ : Shape).Idx → (⟨2, ![N, C]⟩ : Shape).Idx)
    (hx0 : ∀ j, x0 j = X (e0 j)) (hx1 : ∀ j, x1 j = W (e1 j))
    (h0 : ∀ y k, e0 (rowIdx y k) = rowIdx (eo y) k) (h1 : ∀ y k, e1 (colIdx y k) = colIdx (eo y) k)
    (y : (⟨2, ![R, C]⟩ : Shape).Idx) :
    matmul d prec x0 x1 (constant ⟨2, ![R, C]⟩ .f32 0x00000000#32) y = Host.dotGeneral D prec' X W (eo y) := by
  have ex0 : (x0 : (⟨2, ![R, K]⟩ : Shape).Idx → EReal) = fun j => X (e0 j) := funext hx0
  have ex1 : (x1 : (⟨2, ![K, C]⟩ : Shape).Idx → EReal) = fun j => W (e1 j) := funext hx1
  simp only [Host.dotGeneral, matmul]
  rw [Cert.Lib.PlainDot.matmul_zero_apply d hd, Cert.Lib.PlainDot.dotGeneral_apply D hD, ex0, ex1]
  exact mm_block X W e0 e1 eo h0 h1 y

/-- THE EMBEDDING LAYER of a row block: product, one-row bias stretched over the rows, maximum with a constant —
    against the same three host operations on the whole arrays. -/
theorem embed_block (φ₁ φ₂ : FTy) (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (X : FVec Ideal ⟨2, ![N, K]⟩ .f32) (W : FVec Ideal ⟨2, ![K, C]⟩ .f32) (B : FVec Ideal ⟨2, ![1, C]⟩ .f32)
    (x0 : FVec Ideal ⟨2, ![R, K]⟩ φ₁) (x1 : FVec Ideal ⟨2, ![K, C]⟩ φ₂) (x2 : FVec Ideal ⟨2, ![1, C]⟩ .f32)
    (e0 : (⟨2, ![R, K]⟩ : Shape).Idx → (⟨2, ![N, K]⟩ : Shape).Idx)
    (e1 : (⟨2, ![K, C]⟩ : Shape).Idx → (⟨2, ![K, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = X (e0 j)) (hx1 : ∀ j, x1 j = W (e1 j)) (hx2 : ∀ j, x2 j = B (e2 j))
    (h0 : ∀ y k, e0 (rowIdx y k) = rowIdx (eo y) k) (h1 : ∀ y k, e1 (colIdx y k) = colIdx (eo y) k)
    (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (hZ : (⟨0, ![]⟩ : Shape).BroadcastsInDim ⟨2, ![N, C]⟩ ![]) (z : BitVec 32)
    (y : (⟨2, ![R, C]⟩ : Shape).Idx) :
    maximumf (addf (matmul d prec x0 x1 (constant ⟨2, ![R, C]⟩ .f32 0x00000000#32)) (broadcastTo ⟨2, ![R, C]⟩ x2 hb))
        (broadcast ⟨2, ![R, C]⟩ (Scalar.ofBits (F := Ideal) .f32 z)) y
      = maximumf (addf (Host.dotGeneral D prec' X W) (broadcastInDim ⟨2, ![N, C]⟩ ![0, 1] hB B))
        (broadcastInDim ⟨2, ![N, C]⟩ ![] hZ (constant (F := Ideal) ⟨0, ![]⟩ .f32 z)) (eo y) := by
  rw [maximumf_apply, maximumf_apply, addf_apply, addf_apply,
    dot_block d hd D hD prec prec' X W x0 x1 e0 e1 eo hx0 hx1 h0 h1 y,
    stretchRow_apply, hostStretchRow_apply, hostSplat_apply, hx2, h2]
  rfl

/-- THE COMBINE STEP of a row block: two arrays added, one-row bias stretched over the rows, maximum with a
    constant — against the same host operations on the whole arrays. -/
theorem combine_block (A H : FVec Ideal ⟨2, ![N, C]⟩ .f32) (B : FVec Ideal ⟨2, ![1, C]⟩ .f32)
    (x0 x1 : FVec Ideal ⟨2, ![R, C]⟩ .f32) (x2 : FVec Ideal ⟨2, ![1, C]⟩ .f32)
    (e0 e1 : (⟨2, ![R, C]⟩ : Shape).Idx → (⟨2, ![N, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = A (e0 j)) (hx1 : ∀ j, x1 j = H (e1 j)) (hx2 : ∀ j, x2 j = B (e2 j))
    (h0 : ∀ y, e0 y = eo y) (h1 : ∀ y, e1 y = eo y) (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (hZ : (⟨0, ![]⟩ : Shape).BroadcastsInDim ⟨2, ![N, C]⟩ ![]) (z : BitVec 32)
    (y : (⟨2, ![R, C]⟩ : Shape).Idx) :
    maximumf (addf (addf x0 x1) (broadcastTo ⟨2, ![R, C]⟩ x2 hb))
        (broadcast ⟨2, ![R, C]⟩ (Scalar.ofBits (F := Ideal) .f32 z)) y
      = maximumf (addf (addf A H) (broadcastInDim ⟨2, ![N, C]⟩ ![0, 1] hB B))
        (broadcastInDim ⟨2, ![N, C]⟩ ![] hZ (constant (F := Ideal) ⟨0, ![]⟩ .f32 z)) (eo y) := by
  rw [maximumf_apply, maximumf_apply, addf_apply, addf_apply, addf_apply, addf_apply,
    stretchRow_apply, hostStretchRow_apply, hostSplat_apply, hx0, hx1, hx2, h0, h1, h2]
  rfl

/-- THE OUTPUT LAYER of a row block: product plus a one-row bias stretched over the rows. -/
theorem output_block (φ₁ φ₂ : FTy) (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (X : FVec Ideal ⟨2, ![N, K]⟩ .f32) (W : FVec Ideal ⟨2, ![K, C]⟩ .f32) (B : FVec Ideal ⟨2, ![1, C]⟩ .f32)
    (x0 : FVec Ideal ⟨2, ![R, K]⟩ φ₁) (x1 : FVec Ideal ⟨2, ![K, C]⟩ φ₂) (x2 : FVec Ideal ⟨2, ![1, C]⟩ .f32)
    (e0 : (⟨2, ![R, K]⟩ : Shape).Idx → (⟨2, ![N, K]⟩ : Shape).Idx)
    (e1 : (⟨2, ![K, C]⟩ : Shape).Idx → (⟨2, ![K, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = X (e0 j)) (hx1 : ∀ j, x1 j = W (e1 j)) (hx2 : ∀ j, x2 j = B (e2 j))
    (h0 : ∀ y k, e0 (rowIdx y k) = rowIdx (eo y) k) (h1 : ∀ y k, e1 (colIdx y k) = colIdx (eo y) k)
    (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (y : (⟨2, ![R, C]⟩ : Shape).Idx) :
    addf (matmul d prec x0 x1 (constant ⟨2, ![R, C]⟩ .f32 0x00000000#32)) (broadcastTo ⟨2, ![R, C]⟩ x2 hb) y
      = addf (Host.dotGeneral D prec' X W) (broadcastInDim ⟨2, ![N, C]⟩ ![0, 1] hB B) (eo y) := by
  rw [addf_apply, addf_apply,
    dot_block d hd D hD prec prec' X W x0 x1 e0 e1 eo hx0 hx1 h0 h1 y,
    stretchRow_apply, hostStretchRow_apply, hx2, h2]

end Cert.Bridge

end
-- ==== Proof.LibBlockOfWhole.lean ====
/-
  Row blocks of whole-array computations, at the ideal values.

  An [N, C] array is cut into blocks of R consecutive rows; the block that starts at row o holds rows o … o + R − 1.
  Every operation of a dense network acts on each row by itself, so computing on a block gives the block of the
  whole-array result: the product of a row block with a weight matrix is the row block of the product; a bias
  vector stretched down R rows is the row block of the vector stretched down N rows; a column stretched across the
  columns, a constant, a sum, a product, a maximum and the logistic function all commute with taking the block.
  The 0/1 mask of "this row's task is t", computed on a block by comparing the block's task column with t, is the
  block of column t of the one-hot array of all tasks.  The logistic function is the quotient 1 / (1 + exp (−z)) by
  definition, and the bit pattern of 1.0 denotes 1.
-/
import Idealize.ShloMosaic.PureOps.Ideal.Laws
import Idealize.ShloMosaic.Lib.ValueIdx
import Idealize.ShloMosaic.Lib.Pipeline.Value
import Idealize.ShloMosaic.Lib.KernelVsHost
import proofs.«108330_j58488864637084_1_alg».proof.Proof.LibRowBlocks

noncomputable section

namespace Cert.Blocks

open Idealize.ShloMosaic Idealize.ShloMosaic.ValueIdx Cert.Lib.PlainDot Cert.Bridge
open scoped BigOperators

variable {R N K C : Nat}

/-- Entry (p, c) of the block that starts at row o sits at entry (o + p, c) of the array. -/
def shiftRow (o : Nat) (h : o + R ≤ N) (y : (⟨2, ![R, C]⟩ : Shape).Idx) : (⟨2, ![N, C]⟩ : Shape).Idx := fun a => match a with
  | ⟨0, _⟩ => ⟨o + (y 0).val, Nat.lt_of_lt_of_le (Nat.add_lt_add_left (y 0).isLt o) h⟩
  | ⟨1, _⟩ => ⟨(y 1).val, (y 1).isLt⟩

/-- The block of R rows of an array that starts at row o. -/
def rowBlk {α : Type} (o : Nat) (h : o + R ≤ N) (A : (⟨2, ![N, C]⟩ : Shape).Idx → α) : (⟨2, ![R, C]⟩ : Shape).Idx → α :=
  fun y => A (shiftRow o h y)

theorem rowBlk_apply {α : Type} (o : Nat) (h : o + R ≤ N) (A : (⟨2, ![N, C]⟩ : Shape).Idx → α)
    (y : (⟨2, ![R, C]⟩ : Shape).Idx) : rowBlk o h A y = A (shiftRow o h y) := rfl

theorem shiftRow_rowIdx (o : Nat) (h : o + R ≤ N) (y : (⟨2, ![R, C]⟩ : Shape).Idx) (k : Fin K) :
    shiftRow o h (rowIdx y k) = rowIdx (shiftRow o h y) k :=
  funext fun a => Fin.ext (by match a with | ⟨0, _⟩ => rfl | ⟨1, _⟩ => rfl)

theorem shiftRow_colIdx (o : Nat) (h : o + R ≤ N) (y : (⟨2, ![R, C]⟩ : Shape).Idx) (k : Fin K) :
    (colIdx y k : (⟨2, ![K, C]⟩ : Shape).Idx) = colIdx (shiftRow o h y) k :=
  funext fun a => Fin.ext (by match a with | ⟨0, _⟩ => rfl | ⟨1, _⟩ => rfl)

theorem shiftRow_rowZero (o : Nat) (h : o + R ≤ N) (y : (⟨2, ![R, C]⟩ : Shape).Idx) :
    (rowZero y : (⟨2, ![1, C]⟩ : Shape).Idx) = rowZero (shiftRow o h y) :=
  funext fun a => Fin.ext (by match a with | ⟨0, _⟩ => rfl | ⟨1, _⟩ => rfl)

/-! ## Pointwise operations -/

/-- A change of float format is the identity on the extended reals. -/
theorem truncf_ideal {s : Shape} {φ ψ : FTy} (hψ : ψ.bits < φ.bits) (v : FVec Ideal s φ) :
    (truncf ψ v hψ : FVec Ideal s ψ) = v := rfl

theorem addf_rowBlk {φ : FTy} (o : Nat) (h : o + R ≤ N) (A B : FVec Ideal ⟨2, ![N, C]⟩ φ) :
    addf (rowBlk o h A) (rowBlk o h B) = rowBlk o h (addf A B) := rfl

theorem mulf_rowBlk {φ : FTy} (o : Nat) (h : o + R ≤ N) (A B : FVec Ideal ⟨2, ![N, C]⟩ φ) :
    mulf (rowBlk o h A) (rowBlk o h B) = rowBlk o h (mulf A B) := rfl

theorem maximumf_rowBlk {φ : FTy} (o : Nat) (h : o + R ≤ N) (A B : FVec Ideal ⟨2, ![N, C]⟩ φ) :
    maximumf (rowBlk o h A) (rowBlk o h B) = rowBlk o h (maximumf A B) := rfl

/-- A constant array is the block of the constant array. -/
theorem splat_rowBlk (o : Nat) (h : o + R ≤ N) (z : BitVec 32)
    (hZ : (⟨0, ![]⟩ : Shape).BroadcastsInDim ⟨2, ![N, C]⟩ ![]) :
    (broadcast ⟨2, ![R, C]⟩ (Scalar.ofBits (F := Ideal) .f32 z) : FVec Ideal ⟨2, ![R, C]⟩ .f32)
      = rowBlk o h (broadcastInDim ⟨2, ![N, C]⟩ ![] hZ (constant (F := Ideal) ⟨0, ![]⟩ .f32 z)) := by
  funext y
  rw [rowBlk_apply, hostSplat_apply]
  rfl

/-! ## The dense layer's pieces -/

/-- The product of a row block with a weight matrix is the row block of the product. -/
theorem matmul_rowBlk {φ₁ φ₂ : FTy} (o : Nat) (h : o + R ≤ N)
    (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (X : FVec Ideal ⟨2, ![N, K]⟩ φ₁) (W : FVec Ideal ⟨2, ![K, C]⟩ φ₂) :
    matmul d none (rowBlk o h X) W (constant ⟨2, ![R, C]⟩ .f32 0x00000000#32) = rowBlk o h (Host.dotGeneral D none X W) :=
  funext fun y => dot_block d hd D hD none none X W (rowBlk o h X) W (shiftRow o h) id (shiftRow o h)
    (fun _ => rfl) (fun _ => rfl) (fun y k => shiftRow_rowIdx o h y k) (fun y k => shiftRow_colIdx o h y k) y

/-- A bias vector laid out as one row and stretched down R rows is the row block of the vector broadcast along a new
    leading axis and then down N rows. -/
theorem biasRow_rowBlk {φ : FTy} (o : Nat) (h : o + R ≤ N) (v : FVec Ideal ⟨1, ![C]⟩ φ)
    (h2 : (⟨1, ![C]⟩ : Shape).ShapeCasts ⟨2, ![1, C]⟩) (hb : (⟨2, ![1, C]⟩ : Shape).Broadcasts ⟨2, ![R, C]⟩)
    (hb' : (⟨1, ![C]⟩ : Shape).BroadcastsInDim ⟨2, ![1, C]⟩ ![1])
    (hB : (⟨2, ![1, C]⟩ : Shape).BroadcastsInDim ⟨2, ![N, C]⟩ ![0, 1]) :
    broadcastTo ⟨2, ![R, C]⟩ (shapeCast ⟨2, ![1, C]⟩ v h2) hb
      = rowBlk o h (broadcastInDim ⟨2, ![N, C]⟩ ![0, 1] hB (broadcastInDim ⟨2, ![1, C]⟩ ![1] hb' v)) := by
  funext y
  rw [rowBlk_apply, stretchRow_apply, hostStretchRow_apply, reshapeRow_eq v h2 hb', shiftRow_rowZero o h y]

/-- Entry (p, 0) of a one-column matrix, for the row p of the entry `j`. -/
abbrev colZero {A : Nat} (j : (⟨2, ![A, C]⟩ : Shape).Idx) : (⟨2, ![A, 1]⟩ : Shape).Idx := fun a => match a with
  | ⟨0, _⟩ => ⟨(j 0).val, (j 0).isLt⟩
  | ⟨1, _⟩ => ⟨0, Nat.one_pos⟩

/-- A column stretched across C columns, on a block, is the block of the column stretched across C columns. -/
theorem colStretch_rowBlk {α : Type} (o : Nat) (h : o + R ≤ N) (M : (⟨2, ![N, 1]⟩ : Shape).Idx → α)
    (hb : (⟨2, ![R, 1]⟩ : Shape).Broadcasts ⟨2, ![R, C]⟩)
    (hB : (⟨2, ![N, 1]⟩ : Shape).BroadcastsInDim ⟨2, ![N, C]⟩ ![0, 1]) :
    broadcastTo ⟨2, ![R, C]⟩ (rowBlk (C := 1) o h M) hb = rowBlk o h (broadcastInDim ⟨2, ![N, C]⟩ ![0, 1] hB M) := by
  funext y
  have e1 : broadcastTo ⟨2, ![R, C]⟩ (rowBlk (C := 1) o h M) hb y = rowBlk (C := 1) o h M (colZero y) :=
    broadcastTo_apply _ hb y (colZero y) (fun a => by
      match a with
      | ⟨0, _⟩ =>
        show (y 0).val = if R = 1 then 0 else (y 0).val
        have hlt : (y 0).val < R := (y 0).isLt
        split_ifs with hR
        · omega
        · rfl
      | ⟨1, _⟩ => exact (if_pos rfl).symm)
  have e2 : broadcastInDim ⟨2, ![N, C]⟩ ![0, 1] hB M (shiftRow o h y) = M (colZero (shiftRow o h y)) :=
    broadcastInDim_apply ![0, 1] hB M (shiftRow o h y) (colZero (shiftRow o h y)) (fun a => by
      match a with
      | ⟨0, _⟩ =>
        show o + (y 0).val = if N = 1 then 0 else o + (y 0).val
        have hlt : (y 0).val < R := (y 0).isLt
        split_ifs with hN
        · omega
        · rfl
      | ⟨1, _⟩ => exact (if_pos rfl).symm)
  rw [e1, rowBlk_apply, rowBlk_apply, e2]
  exact congrArg M (funext fun a => Fin.ext (by match a with | ⟨0, _⟩ => rfl | ⟨1, _⟩ => rfl))

/-! ## The task mask -/

/-- The block's 0/1 flag "the row's task word is t" is the block of column t of the one-hot array of the tasks:
    a one-bit comparison widened to 32 bits and read as a signed number is the bit read as an unsigned number,
    and column t of the counting row 0, 1, 2, 3 stretched down the rows holds the word t. -/
theorem mask_rowBlk (o : Nat) (h : o + R ≤ N) (BT : IVec ⟨1, ![N]⟩ 32) (t : Nat) (ht : t < 4) (w : BitVec 32)
    (hw : w = BitVec.ofNat 32 t) (hlt : 1 < 32)
    (hs : (⟨1, ![N]⟩ : Shape).ShapeCasts ⟨2, ![N, 1]⟩)
    (h1 : (⟨1, ![N]⟩ : Shape).BroadcastsInDim ⟨2, ![N, 1]⟩ ![0])
    (h2 : (⟨2, ![N, 1]⟩ : Shape).BroadcastsInDim ⟨2, ![N, 4]⟩ ![0, 1])
    (h3 : (⟨2, ![1, 4]⟩ : Shape).BroadcastsInDim ⟨2, ![N, 4]⟩ ![0, 1])
    (hsl : (⟨2, ![N, 4]⟩ : Shape).Slices ![0, t] ⟨2, ![N, 1]⟩) :
    (sitofp .f32 (extui 32 (cmpi .eq (rowBlk (C := 1) o h (shapeCast ⟨2, ![N, 1]⟩ BT hs)) (broadcast ⟨2, ![R, 1]⟩ w)) hlt)
        : FVec Ideal ⟨2, ![R, 1]⟩ .f32)
      = rowBlk (C := 1) o h (extractStridedSlice ⟨2, ![N, 1]⟩ ![0, t]
          (uitofp (F := Ideal) .f32 (cmpi .eq (broadcastInDim ⟨2, ![N, 4]⟩ ![0, 1] h2 (broadcastInDim ⟨2, ![N, 1]⟩ ![0] h1 BT))
            (broadcastInDim ⟨2, ![N, 4]⟩ ![0, 1] h3 (iotaInDim ⟨2, ![1, 4]⟩ 32 1)))) hsl) := by
  rw [sitofp_extui_eq_uitofp]
  funext y
  rw [rowBlk_apply]
  have hlt : (y 0).val < R := (y 0).isLt
  have hy1 : (y 1).val < 1 := (y 1).isLt
  have hi : o + (y 0).val < N := by omega
  have eL : shapeCast ⟨2, ![N, 1]⟩ BT hs (shiftRow o h y) = BT (ix1 (⟨o + (y 0).val, hi⟩ : Fin N)) :=
    shapeCast_apply BT hs _ (ix1 (⟨o + (y 0).val, hi⟩ : Fin N)) (by
      rw [Shape.rowMajor_val_one, Shape.rowMajor_val_two]
      show o + (y 0).val = (o + (y 0).val) * 1 + (y 1).val
      omega)
  have eS : ∀ G : (⟨2, ![N, 4]⟩ : Shape).Idx → EReal,
      extractStridedSlice ⟨2, ![N, 1]⟩ ![0, t] G hsl (shiftRow o h y)
        = G (ix2 (⟨o + (y 0).val, hi⟩ : Fin N) (⟨t, ht⟩ : Fin 4)) := fun G =>
    extractStridedSlice_apply _ G hsl _ (ix2 (⟨o + (y 0).val, hi⟩ : Fin N) (⟨t, ht⟩ : Fin 4)) (fun a => by
      match a with
      | ⟨0, _⟩ => exact (Nat.zero_add _).symm
      | ⟨1, _⟩ =>
        show t = t + (y 1).val
        omega)
  have eP : broadcastInDim ⟨2, ![N, 4]⟩ ![0, 1] h2 (broadcastInDim ⟨2, ![N, 1]⟩ ![0] h1 BT)
      (ix2 (⟨o + (y 0).val, hi⟩ : Fin N) (⟨t, ht⟩ : Fin 4)) = BT (ix1 (⟨o + (y 0).val, hi⟩ : Fin N)) := by
    rw [broadcastInDim_apply ![0, 1] h2 _ _ (ix2 (⟨o + (y 0).val, hi⟩ : Fin N) (0 : Fin 1)) (fun a => by
        match a with
        | ⟨0, _⟩ =>
          show o + (y 0).val = if N = 1 then 0 else o + (y 0).val
          split_ifs with hN
          · omega
          · rfl
        | ⟨1, _⟩ => exact (if_pos rfl).symm),
      broadcastInDim_apply ![0] h1 BT _ (ix1 (⟨o + (y 0).val, hi⟩ : Fin N)) (fun a => by
        match a with
        | ⟨0, _⟩ =>
          show o + (y 0).val = if N = 1 then 0 else o + (y 0).val
          split_ifs with hN
          · omega
          · rfl)]
  have eQ : broadcastInDim ⟨2, ![N, 4]⟩ ![0, 1] h3 (iotaInDim ⟨2, ![1, 4]⟩ 32 1)
      (ix2 (⟨o + (y 0).val, hi⟩ : Fin N) (⟨t, ht⟩ : Fin 4)) = BitVec.ofNat 32 t := by
    rw [broadcastInDim_apply ![0, 1] h3 _ _ (ix2 (0 : Fin 1) (⟨t, ht⟩ : Fin 4)) (fun a => by
        match a with
        | ⟨0, _⟩ => exact (if_pos rfl).symm
        | ⟨1, _⟩ =>
          show t = if (4 : Nat) = 1 then 0 else t
          rw [if_neg (by decide)])]
    rfl
  rw [eS]
  show FloatOps.uitofp .f32 (IntOp.cmpi .eq (shapeCast ⟨2, ![N, 1]⟩ BT hs (shiftRow o h y)) w)
    = FloatOps.uitofp .f32 (IntOp.cmpi .eq
        (broadcastInDim ⟨2, ![N, 4]⟩ ![0, 1] h2 (broadcastInDim ⟨2, ![N, 1]⟩ ![0] h1 BT)
          (ix2 (⟨o + (y 0).val, hi⟩ : Fin N) (⟨t, ht⟩ : Fin 4)))
        (broadcastInDim ⟨2, ![N, 4]⟩ ![0, 1] h3 (iotaInDim ⟨2, ![1, 4]⟩ 32 1)
          (ix2 (⟨o + (y 0).val, hi⟩ : Fin N) (⟨t, ht⟩ : Fin 4))))
  rw [eL, eP, eQ, hw]

/-! ## The logistic function -/

/-- The bit pattern of 1.0 denotes the real number 1. -/
theorem ofBits_one_f32 : Ideal.ofBits .f32 0x3F800000#32 = 1 := by
  simp [Ideal.ofBits, Ideal.ieee, -EReal.coe_mul]; norm_num

/-- The logistic function of a block is the block of the quotient 1 / (1 + exp (−z)). -/
theorem logistic_rowBlk (o : Nat) (h : o + R ≤ N) (Z : FVec Ideal ⟨2, ![N, C]⟩ .f32)
    (h1 : (⟨0, ![]⟩ : Shape).BroadcastsInDim ⟨2, ![N, C]⟩ ![]) :
    logistic (rowBlk o h Z)
      = rowBlk o h (Host.divf (broadcastInDim ⟨2, ![N, C]⟩ ![] h1 (constant (F := Ideal) ⟨0, ![]⟩ .f32 0x3F800000#32))
          (addf (broadcastInDim ⟨2, ![N, C]⟩ ![] h1 (constant (F := Ideal) ⟨0, ![]⟩ .f32 0x3F800000#32)) (Host.exp (Host.negf Z)))) := by
  funext y
  rw [rowBlk_apply]
  have hsplat : ∀ i, broadcastInDim ⟨2, ![N, C]⟩ ![] h1 (constant (F := Ideal) ⟨0, ![]⟩ .f32 0x3F800000#32) i = 1 :=
    fun i => (hostSplat_apply _ h1 i).trans ofBits_one_f32
  show Ideal.logistic (Z (shiftRow o h y))
    = Ideal.div (broadcastInDim ⟨2, ![N, C]⟩ ![] h1 (constant (F := Ideal) ⟨0, ![]⟩ .f32 0x3F800000#32) (shiftRow o h y))
        (broadcastInDim ⟨2, ![N, C]⟩ ![] h1 (constant (F := Ideal) ⟨0, ![]⟩ .f32 0x3F800000#32) (shiftRow o h y)
          + Ideal.exp (-(Z (shiftRow o h y))))
  rw [hsplat]
  rfl

end Cert.Blocks

end
-- ==== Proof.LibChebRows.lean ====
/-
  Row blocks of a three-term polynomial graph-convolution layer, at the ideal values.

  A layer combines three [N, K] arrays T0, T1, T2 (the input and its first two polynomial propagations) with three
  [K, C] weight matrices and one bias row:  out = max (T0·Wa + T1·Wb + T2·Wc + bias [+ T0], z),  the bias row stretched
  down the rows, the optional residual term T0 added last, z a constant.  Every operation acts on each row by
  itself, so the layer computed on the block of rows o … o + R − 1 of the three arrays is that block of the layer
  computed on the whole arrays.  Extents R, N, K, C are symbolic; the sums are grouped as written, so no law of
  the extended reals beyond the definitions is used.
-/
import proofs.«108330_j58488864637084_1_alg».proof.Proof.LibBlockOfWhole

noncomputable section

namespace Cert.ChebRows

open Idealize.ShloMosaic Idealize.ShloMosaic.ValueIdx Cert.Lib.PlainDot Cert.Bridge Cert.Blocks

variable {R N K C : Nat}

/-- A one-row matrix stretched down R rows is the block, from any row o, of the row stretched down N rows. -/
theorem rowStretch_rowBlk {φ : FTy} (o : Nat) (h : o + R ≤ N) (B : FVec Ideal ⟨2, ![1, C]⟩ φ)
    (hb : (⟨2, ![1, C]⟩ : Shape).Broadcasts ⟨2, ![R, C]⟩)
    (hB : (⟨2, ![1, C]⟩ : Shape).BroadcastsInDim ⟨2, ![N, C]⟩ ![0, 1]) :
    broadcastTo ⟨2, ![R, C]⟩ B hb = rowBlk o h (broadcastInDim ⟨2, ![N, C]⟩ ![0, 1] hB B) := by
  funext y
  rw [rowBlk_apply, stretchRow_apply, hostStretchRow_apply, shiftRow_rowZero o h y]

/-- The product of a narrowed row block with a narrowed weight matrix, into zeros, is the row block of the host's
    product of the whole arrays: narrowing changes nothing on the extended reals. -/
theorem matmul_trunc_rowBlk {φ₁ φ₂ : FTy} (o : Nat) (h : o + R ≤ N)
    (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (hφ₁ : φ₁.bits < FTy.f32.bits) (hφ₂ : φ₂.bits < FTy.f32.bits)
    (X : FVec Ideal ⟨2, ![N, K]⟩ .f32) (W : FVec Ideal ⟨2, ![K, C]⟩ .f32) :
    matmul d none (truncf φ₁ (rowBlk o h X) hφ₁) (truncf φ₂ W hφ₂) (constant ⟨2, ![R, C]⟩ .f32 0x00000000#32)
      = rowBlk o h (Host.dotGeneral D none X W) :=
  funext fun y => dot_block d hd D hD none none X W (truncf φ₁ (rowBlk o h X) hφ₁) (truncf φ₂ W hφ₂)
    (shiftRow o h) id (shiftRow o h) (fun _ => rfl) (fun _ => rfl)
    (fun y k => shiftRow_rowIdx o h y k) (fun y k => shiftRow_colIdx o h y k) y

/-- The layer on whole arrays: three products summed left to right, the bias row stretched down the rows and
    added, the maximum with the constant z. -/
def layer (D : DotDims ⟨2, ![N, K]⟩ ⟨2, ![K, C]⟩ ⟨2, ![N, C]⟩)
    (hB : (⟨2, ![1, C]⟩ : Shape).BroadcastsInDim ⟨2, ![N, C]⟩ ![0, 1])
    (hZ : (⟨0, ![]⟩ : Shape).BroadcastsInDim ⟨2, ![N, C]⟩ ![]) (z : BitVec 32)
    (T0 T1 T2 : FVec Ideal ⟨2, ![N, K]⟩ .f32) (Wa Wb Wc : FVec Ideal ⟨2, ![K, C]⟩ .f32)
    (B : FVec Ideal ⟨2, ![1, C]⟩ .f32) : FVec Ideal ⟨2, ![N, C]⟩ .f32 :=
  maximumf
    (addf (addf (addf (Host.dotGeneral D none T0 Wa) (Host.dotGeneral D none T1 Wb)) (Host.dotGeneral D none T2 Wc))
      (broadcastInDim ⟨2, ![N, C]⟩ ![0, 1] hB B))
    (broadcastInDim ⟨2, ![N, C]⟩ ![] hZ (constant (F := Ideal) ⟨0, ![]⟩ .f32 z))

/-- The layer with the residual term: the first array added after the bias (K = C). -/
def layerSkip (D : DotDims ⟨2, ![N, C]⟩ ⟨2, ![C, C]⟩ ⟨2, ![N, C]⟩)
    (hB : (⟨2, ![1, C]⟩ : Shape).BroadcastsInDim ⟨2, ![N, C]⟩ ![0, 1])
    (hZ : (⟨0, ![]⟩ : Shape).BroadcastsInDim ⟨2, ![N, C]⟩ ![]) (z : BitVec 32)
    (T0 T1 T2 : FVec Ideal ⟨2, ![N, C]⟩ .f32) (Wa Wb Wc : FVec Ideal ⟨2, ![C, C]⟩ .f32)
    (B : FVec Ideal ⟨2, ![1, C]⟩ .f32) : FVec Ideal ⟨2, ![N, C]⟩ .f32 :=
  maximumf
    (addf (addf (addf (addf (Host.dotGeneral D none T0 Wa) (Host.dotGeneral D none T1 Wb)) (Host.dotGeneral D none T2 Wc))
      (broadcastInDim ⟨2, ![N, C]⟩ ![0, 1] hB B)) T0)
    (broadcastInDim ⟨2, ![N, C]⟩ ![] hZ (constant (F := Ideal) ⟨0, ![]⟩ .f32 z))

/-- THE LAYER ON A ROW BLOCK: products of the three row blocks (operands narrowed, which changes nothing on the
    extended reals) into zero accumulators, summed, the bias row stretched down the block, the maximum with a
    constant — is the row block of the layer on the whole arrays. -/
theorem layer_rowBlk {φ₁ φ₂ : FTy} (o : Nat) (h : o + R ≤ N)
    (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (hb : (⟨2, ![1, C]⟩ : Shape).Broadcasts ⟨2, ![R, C]⟩)
    (hB : (⟨2, ![1, C]⟩ : Shape).BroadcastsInDim ⟨2, ![N, C]⟩ ![0, 1])
    (hZ : (⟨0, ![]⟩ : Shape).BroadcastsInDim ⟨2, ![N, C]⟩ ![]) (z : BitVec 32)
    (hφ₁ : φ₁.bits < FTy.f32.bits) (hφ₂ : φ₂.bits < FTy.f32.bits)
    (T0 T1 T2 : FVec Ideal ⟨2, ![N, K]⟩ .f32) (Wa Wb Wc : FVec Ideal ⟨2, ![K, C]⟩ .f32)
    (B : FVec Ideal ⟨2, ![1, C]⟩ .f32) :
    maximumf
      (addf (addf (addf
          (matmul d none (truncf φ₁ (rowBlk o h T0) hφ₁) (truncf φ₂ Wa hφ₂) (constant ⟨2, ![R, C]⟩ .f32 0x00000000#32))
          (matmul d none (truncf φ₁ (rowBlk o h T1) hφ₁) (truncf φ₂ Wb hφ₂) (constant ⟨2, ![R, C]⟩ .f32 0x00000000#32)))
          (matmul d none (truncf φ₁ (rowBlk o h T2) hφ₁) (truncf φ₂ Wc hφ₂) (constant ⟨2, ![R, C]⟩ .f32 0x00000000#32)))
        (broadcastTo ⟨2, ![R, C]⟩ B hb))
      (broadcast ⟨2, ![R, C]⟩ (Scalar.ofBits (F := Ideal) .f32 z))
    = rowBlk o h (layer D hB hZ z T0 T1 T2 Wa Wb Wc B) := by
  unfold layer
  rw [matmul_trunc_rowBlk o h d hd D hD hφ₁ hφ₂ T0 Wa, matmul_trunc_rowBlk o h d hd D hD hφ₁ hφ₂ T1 Wb,
    matmul_trunc_rowBlk o h d hd D hD hφ₁ hφ₂ T2 Wc,
    rowStretch_rowBlk o h B hb hB, splat_rowBlk o h z hZ, addf_rowBlk, addf_rowBlk, addf_rowBlk, maximumf_rowBlk]

/-- THE LAYER WITH THE RESIDUAL TERM ON A ROW BLOCK. -/
theorem layerSkip_rowBlk {φ₁ φ₂ : FTy} (o : Nat) (h : o + R ≤ N)
    (d : DotDims ⟨2, ![R, C]⟩ ⟨2, ![C, C]⟩ ⟨2, ![R, C]⟩) (hd : d = DotDims.plain R C C)
    (D : DotDims ⟨2, ![N, C]⟩ ⟨2, ![C, C]⟩ ⟨2, ![N, C]⟩) (hD : D = DotDims.plain N C C)
    (hb : (⟨2, ![1, C]⟩ : Shape).Broadcasts ⟨2, ![R, C]⟩)
    (hB : (⟨2, ![1, C]⟩ : Shape).BroadcastsInDim ⟨2, ![N, C]⟩ ![0, 1])
    (hZ : (⟨0, ![]⟩ : Shape).BroadcastsInDim ⟨2, ![N, C]⟩ ![]) (z : BitVec 32)
    (hφ₁ : φ₁.bits < FTy.f32.bits) (hφ₂ : φ₂.bits < FTy.f32.bits)
    (T0 T1 T2 : FVec Ideal ⟨2, ![N, C]⟩ .f32) (Wa Wb Wc : FVec Ideal ⟨2, ![C, C]⟩ .f32)
    (B : FVec Ideal ⟨2, ![1, C]⟩ .f32) :
    maximumf
      (addf (addf (addf (addf
          (matmul d none (truncf φ₁ (rowBlk o h T0) hφ₁) (truncf φ₂ Wa hφ₂) (constant ⟨2, ![R, C]⟩ .f32 0x00000000#32))
          (matmul d none (truncf φ₁ (rowBlk o h T1) hφ₁) (truncf φ₂ Wb hφ₂) (constant ⟨2, ![R, C]⟩ .f32 0x00000000#32)))
          (matmul d none (truncf φ₁ (rowBlk o h T2) hφ₁) (truncf φ₂ Wc hφ₂) (constant ⟨2, ![R, C]⟩ .f32 0x00000000#32)))
        (broadcastTo ⟨2, ![R, C]⟩ B hb)) (rowBlk o h T0))
      (broadcast ⟨2, ![R, C]⟩ (Scalar.ofBits (F := Ideal) .f32 z))
    = rowBlk o h (layerSkip D hB hZ z T0 T1 T2 Wa Wb Wc B) := by
  unfold layerSkip
  rw [matmul_trunc_rowBlk o h d hd D hD hφ₁ hφ₂ T0 Wa, matmul_trunc_rowBlk o h d hd D hD hφ₁ hφ₂ T1 Wb,
    matmul_trunc_rowBlk o h d hd D hD hφ₁ hφ₂ T2 Wc,
    rowStretch_rowBlk o h B hb hB, splat_rowBlk o h z hZ, addf_rowBlk, addf_rowBlk, addf_rowBlk, addf_rowBlk,
    maximumf_rowBlk]

end Cert.ChebRows

end
-- ==== Proof.LibStackedLayers.lean ====
/-
  Layers cut out of stacked weights, read two ways.

  A load through a unit-stride rectangle of an array is the slice of the array at the rectangle's offsets.
  Task t's layer l of a stack [4, 2, K, C] can be taken in one step — the slice [1, 1, K, C] at (t, l) with the two unit
  axes dropped — or in two: the slab [1, 2, K, C] at t with its unit axis dropped, then the slice [1, K, C] at l of
  that with its unit axis dropped.  Both read entry (k, c) at entry (t, l, k, c) of the stack; the same for the bias
  stacks [4, 2, C].
-/
import Idealize.ShloMosaic.PureOps.Ideal
import Idealize.ShloMosaic.Lib.ValueIdx
import Idealize.ShloMosaic.Lib.Pipeline.Value

noncomputable section

namespace Cert.Layout

open Idealize.ShloMosaic Idealize.ShloMosaic.ValueIdx

/-- A load through a unit-stride rectangle reads the slice at its offsets. -/
theorem ld_unit {Val : EltTy → Type} {S : Shape} {e : EltTy} (X : S.Idx → Val e) (off size : Fin S.rank → Nat)
    (inb : ∀ a, off a + size a ≤ S.size a) (hs : S.Slices off ⟨S.rank, size⟩) :
    View.ld X (Rect.unit off size inb) = extractStridedSlice ⟨S.rank, size⟩ off X hs := by
  funext j
  unfold extractStridedSlice
  show X ((Rect.unit off size inb).idx j) = _
  refine congrArg X (funext fun a => Fin.ext ?_)
  rw [LoadRect.idx_apply]
  show off a + 1 * (j a).val = off a + (j a).val
  rw [Nat.one_mul]

variable {T L K C : Nat}

/-- The two-step reading of task t's layer l, at entry (k, c): entry (t, l, k, c) of the stack. -/
theorem taskW_twoStep_apply {α : Type} (W : (⟨4, ![T, L, K, C]⟩ : Shape).Idx → α) (t l : Nat) (ht : t < T) (hl : l < L)
    (h1 : (⟨4, ![T, L, K, C]⟩ : Shape).Slices ![t, 0, 0, 0] ⟨4, ![1, L, K, C]⟩)
    (h2 : (⟨4, ![1, L, K, C]⟩ : Shape).ShapeCasts ⟨3, ![L, K, C]⟩)
    (h3 : (⟨3, ![L, K, C]⟩ : Shape).Slices ![l, 0, 0] ⟨3, ![1, K, C]⟩)
    (h4 : (⟨3, ![1, K, C]⟩ : Shape).ShapeCasts ⟨2, ![K, C]⟩) (k : Fin K) (c : Fin C) :
    shapeCast ⟨2, ![K, C]⟩ (extractStridedSlice ⟨3, ![1, K, C]⟩ ![l, 0, 0]
      (shapeCast ⟨3, ![L, K, C]⟩ (extractStridedSlice ⟨4, ![1, L, K, C]⟩ ![t, 0, 0, 0] W h1) h2) h3) h4 (ix2 k c)
      = W (ix4 ⟨t, ht⟩ ⟨l, hl⟩ k c) := by
  rw [shapeCast_apply _ h4 (ix2 k c) (ix3 (0 : Fin 1) k c) (by
      rw [Shape.rowMajor_val_three, Shape.rowMajor_val_two]
      show (0 * K + k.val) * C + c.val = k.val * C + c.val
      simp only [Nat.zero_mul, Nat.zero_add, Nat.add_zero]),
    extractStridedSlice_apply _ _ h3 (ix3 (0 : Fin 1) k c) (ix3 (⟨l, hl⟩ : Fin L) k c) (fun a => by
      match a with
      | ⟨0, _⟩ => rfl
      | ⟨1, _⟩ => exact (Nat.zero_add _).symm
      | ⟨2, _⟩ => exact (Nat.zero_add _).symm),
    shapeCast_apply _ h2 (ix3 (⟨l, hl⟩ : Fin L) k c) (ix4 (0 : Fin 1) (⟨l, hl⟩ : Fin L) k c) (by
      rw [Shape.rowMajor_val_four, Shape.rowMajor_val_three]
      show ((0 * L + l) * K + k.val) * C + c.val = (l * K + k.val) * C + c.val
      simp only [Nat.zero_mul, Nat.zero_add, Nat.add_zero]),
    extractStridedSlice_apply _ _ h1 (ix4 (0 : Fin 1) (⟨l, hl⟩ : Fin L) k c) (ix4 (⟨t, ht⟩ : Fin T) (⟨l, hl⟩ : Fin L) k c) (fun a => by
      match a with
      | ⟨0, _⟩ => rfl
      | ⟨1, _⟩ => exact (Nat.zero_add _).symm
      | ⟨2, _⟩ => exact (Nat.zero_add _).symm
      | ⟨3, _⟩ => exact (Nat.zero_add _).symm)]

/-- The one-step reading of task t's layer l, at entry (k, c): entry (t, l, k, c) of the stack. -/
theorem taskW_oneStep_apply {α : Type} (W : (⟨4, ![T, L, K, C]⟩ : Shape).Idx → α) (t l : Nat) (ht : t < T) (hl : l < L)
    (h5 : (⟨4, ![T, L, K, C]⟩ : Shape).Slices ![t, l, 0, 0] ⟨4, ![1, 1, K, C]⟩)
    (h6 : (⟨4, ![1, 1, K, C]⟩ : Shape).ShapeCasts ⟨2, ![K, C]⟩) (k : Fin K) (c : Fin C) :
    shapeCast ⟨2, ![K, C]⟩ (extractStridedSlice ⟨4, ![1, 1, K, C]⟩ ![t, l, 0, 0] W h5) h6 (ix2 k c)
      = W (ix4 ⟨t, ht⟩ ⟨l, hl⟩ k c) := by
  rw [shapeCast_apply _ h6 (ix2 k c) (ix4 (0 : Fin 1) (0 : Fin 1) k c) (by
      rw [Shape.rowMajor_val_four, Shape.rowMajor_val_two]
      show ((0 * 1 + 0) * K + k.val) * C + c.val = k.val * C + c.val
      simp only [Nat.zero_mul, Nat.zero_add, Nat.add_zero]),
    extractStridedSlice_apply _ _ h5 (ix4 (0 : Fin 1) (0 : Fin 1) k c) (ix4 (⟨t, ht⟩ : Fin T) (⟨l, hl⟩ : Fin L) k c) (fun a => by
      match a with
      | ⟨0, _⟩ => rfl
      | ⟨1, _⟩ => rfl
      | ⟨2, _⟩ => exact (Nat.zero_add _).symm
      | ⟨3, _⟩ => exact (Nat.zero_add _).symm)]

/-- Task t's layer l of a stack of weight matrices, taken in two steps or in one, is one matrix. -/
theorem taskW_twoStep_eq {α : Type} (W : (⟨4, ![T, L, K, C]⟩ : Shape).Idx → α) (t l : Nat) (ht : t < T) (hl : l < L)
    (h1 : (⟨4, ![T, L, K, C]⟩ : Shape).Slices ![t, 0, 0, 0] ⟨4, ![1, L, K, C]⟩)
    (h2 : (⟨4, ![1, L, K, C]⟩ : Shape).ShapeCasts ⟨3, ![L, K, C]⟩)
    (h3 : (⟨3, ![L, K, C]⟩ : Shape).Slices ![l, 0, 0] ⟨3, ![1, K, C]⟩)
    (h4 : (⟨3, ![1, K, C]⟩ : Shape).ShapeCasts ⟨2, ![K, C]⟩)
    (h5 : (⟨4, ![T, L, K, C]⟩ : Shape).Slices ![t, l, 0, 0] ⟨4, ![1, 1, K, C]⟩)
    (h6 : (⟨4, ![1, 1, K, C]⟩ : Shape).ShapeCasts ⟨2, ![K, C]⟩) :
    shapeCast ⟨2, ![K, C]⟩ (extractStridedSlice ⟨3, ![1, K, C]⟩ ![l, 0, 0]
      (shapeCast ⟨3, ![L, K, C]⟩ (extractStridedSlice ⟨4, ![1, L, K, C]⟩ ![t, 0, 0, 0] W h1) h2) h3) h4
      = shapeCast ⟨2, ![K, C]⟩ (extractStridedSlice ⟨4, ![1, 1, K, C]⟩ ![t, l, 0, 0] W h5) h6 := by
  funext j
  obtain ⟨k, c, rfl⟩ : ∃ (k : Fin K) (c : Fin C), j = ix2 k c := ⟨j 0, j 1, eq_ix2 j⟩
  rw [taskW_twoStep_apply W t l ht hl h1 h2 h3 h4, taskW_oneStep_apply W t l ht hl h5 h6]

/-- The same for a stack [T, L, C] of bias vectors: entry c of task t's layer l is entry (t, l, c) of the stack. -/
theorem taskB_twoStep_eq {α : Type} (B : (⟨3, ![T, L, C]⟩ : Shape).Idx → α) (t l : Nat) (ht : t < T) (hl : l < L)
    (h1 : (⟨3, ![T, L, C]⟩ : Shape).Slices ![t, 0, 0] ⟨3, ![1, L, C]⟩)
    (h2 : (⟨3, ![1, L, C]⟩ : Shape).ShapeCasts ⟨2, ![L, C]⟩)
    (h3 : (⟨2, ![L, C]⟩ : Shape).Slices ![l, 0] ⟨2, ![1, C]⟩)
    (h4 : (⟨2, ![1, C]⟩ : Shape).ShapeCasts ⟨1, ![C]⟩)
    (h5 : (⟨3, ![T, L, C]⟩ : Shape).Slices ![t, l, 0] ⟨3, ![1, 1, C]⟩)
    (h6 : (⟨3, ![1, 1, C]⟩ : Shape).ShapeCasts ⟨1, ![C]⟩) :
    shapeCast ⟨1, ![C]⟩ (extractStridedSlice ⟨2, ![1, C]⟩ ![l, 0]
      (shapeCast ⟨2, ![L, C]⟩ (extractStridedSlice ⟨3, ![1, L, C]⟩ ![t, 0, 0] B h1) h2) h3) h4
      = shapeCast ⟨1, ![C]⟩ (extractStridedSlice ⟨3, ![1, 1, C]⟩ ![t, l, 0] B h5) h6 := by
  funext j
  obtain ⟨c, rfl⟩ : ∃ c : Fin C, j = ix1 c := ⟨j 0, eq_ix1 j⟩
  have e1 : shapeCast ⟨1, ![C]⟩ (extractStridedSlice ⟨2, ![1, C]⟩ ![l, 0]
      (shapeCast ⟨2, ![L, C]⟩ (extractStridedSlice ⟨3, ![1, L, C]⟩ ![t, 0, 0] B h1) h2) h3) h4 (ix1 c)
      = B (ix3 (⟨t, ht⟩ : Fin T) (⟨l, hl⟩ : Fin L) c) := by
    rw [shapeCast_apply _ h4 (ix1 c) (ix2 (0 : Fin 1) c) (by
        rw [Shape.rowMajor_val_two, Shape.rowMajor_val_one]
        show 0 * C + c.val = c.val
        simp only [Nat.zero_mul, Nat.zero_add, Nat.add_zero]),
      extractStridedSlice_apply _ _ h3 (ix2 (0 : Fin 1) c) (ix2 (⟨l, hl⟩ : Fin L) c) (fun a => by
        match a with
        | ⟨0, _⟩ => rfl
        | ⟨1, _⟩ => exact (Nat.zero_add _).symm),
      shapeCast_apply _ h2 (ix2 (⟨l, hl⟩ : Fin L) c) (ix3 (0 : Fin 1) (⟨l, hl⟩ : Fin L) c) (by
        rw [Shape.rowMajor_val_three, Shape.rowMajor_val_two]
        show (0 * L + l) * C + c.val = l * C + c.val
        simp only [Nat.zero_mul, Nat.zero_add, Nat.add_zero]),
      extractStridedSlice_apply _ _ h1 (ix3 (0 : Fin 1) (⟨l, hl⟩ : Fin L) c) (ix3 (⟨t, ht⟩ : Fin T) (⟨l, hl⟩ : Fin L) c) (fun a => by
        match a with
        | ⟨0, _⟩ => rfl
        | ⟨1, _⟩ => exact (Nat.zero_add _).symm
        | ⟨2, _⟩ => exact (Nat.zero_add _).symm)]
  have e2 : shapeCast ⟨1, ![C]⟩ (extractStridedSlice ⟨3, ![1, 1, C]⟩ ![t, l, 0] B h5) h6 (ix1 c)
      = B (ix3 (⟨t, ht⟩ : Fin T) (⟨l, hl⟩ : Fin L) c) := by
    rw [shapeCast_apply _ h6 (ix1 c) (ix3 (0 : Fin 1) (0 : Fin 1) c) (by
        rw [Shape.rowMajor_val_three, Shape.rowMajor_val_one]
        show (0 * 1 + 0) * C + c.val = c.val
        simp only [Nat.zero_mul, Nat.zero_add, Nat.add_zero]),
      extractStridedSlice_apply _ _ h5 (ix3 (0 : Fin 1) (0 : Fin 1) c) (ix3 (⟨t, ht⟩ : Fin T) (⟨l, hl⟩ : Fin L) c) (fun a => by
        match a with
        | ⟨0, _⟩ => rfl
        | ⟨1, _⟩ => rfl
        | ⟨2, _⟩ => exact (Nat.zero_add _).symm)]
  rw [e1, e2]

end Cert.Layout

end
-- ==== Proof.Region0.lean ====
/-
  What kernel region 0 leaves in its output array, as one whole-array function of its five input arrays.

  The region cuts the node axis into 50 blocks of 2000 rows.  At grid point t the body loads rows 2000·t … 2000·t + 1999
  of the three [100000, 64] input arrays, the whole [3, 64, 64] weight stack (cut into its three [64, 64] matrices inside the
  body) and the one bias row, and stores  max (T0·W0 + T1·W1 + T2·W2 + bias, 0)  on those rows.  Each row of the result
  depends on the same row of the inputs only, so the block written at point t is the block of rows of the layer
  computed on the whole arrays; the 50 blocks tile the array, so the array ends holding that whole-array layer.
-/
import proofs.«108330_j58488864637084_1_alg».proof.Proof.Gen.KernelIdeal.Frame
import proofs.«108330_j58488864637084_1_alg».proof.Proof.LibChebRows
import proofs.«108330_j58488864637084_1_alg».proof.Proof.LibStackedLayers

set_option maxRecDepth 16384

noncomputable section

namespace Cert.KernelIdeal.Cheb0

open Idealize.ShloMosaic Idealize.ShloMosaic.TcCoe Idealize.SL.Sem
open Idealize.ShloMosaic.Pipeline (Dat Cfg Window)
open Cert.KernelIdeal Cert.KernelIdeal.Gen Cert.Blocks Cert.ChebRows

/-! ## The whole-array layer -/

theorem sl0 : S3x64x64.Slices ![0, 0, 0] S1x64x64 := by decide
theorem sl1 : S3x64x64.Slices ![1, 0, 0] S1x64x64 := by decide
theorem sl2 : S3x64x64.Slices ![2, 0, 0] S1x64x64 := by decide
theorem sc : S1x64x64.ShapeCasts S64x64 := by decide
theorem hB : S1x64.BroadcastsInDim S100000x64 ![0, 1] := by decide
theorem hZ : S_.BroadcastsInDim S100000x64 ![] := by decide

/-- Weight matrix j of a [3, 64, 64] stack: the [1, 64, 64] slice at j with its unit axis dropped. -/
def wmat (j : Nat) (hs : S3x64x64.Slices ![j, 0, 0] S1x64x64) (W3 : FVec Ideal S3x64x64 .f32) : FVec Ideal S64x64 .f32 :=
  shapeCast S64x64 (extractStridedSlice S1x64x64 ![j, 0, 0] W3 hs) sc

/-- The layer on whole arrays: max (T0·W0 + T1·W1 + T2·W2 + bias row, 0). -/
def wholeLayer (T0 T1 T2 : FVec Ideal S100000x64 .f32) (W3 : FVec Ideal S3x64x64 .f32) (B : FVec Ideal S1x64 .f32) :
    FVec Ideal S100000x64 .f32 :=
  layer (DotDims.plain 100000 64 64) hB hZ 0x00000000#32 T0 T1 T2 (wmat 0 sl0 W3) (wmat 1 sl1 W3) (wmat 2 sl2 W3) B

/-! ## The body's store on a block of rows -/

theorem hz2 : (![0, 0] : Fin 2 → Nat) = fun _ => 0 := funext fun a => by fin_cases a <;> rfl

/-- The body's stored value, from row blocks of the three arrays, the three slices of the weight stack and the bias
    row, is the row block of the whole-array layer. -/
theorem pay_rowBlk (o : Nat) (h : o + 2000 ≤ 100000) (T0 T1 T2 : FVec Ideal S100000x64 .f32)
    (W3 : FVec Ideal S3x64x64 .f32) (B : FVec Ideal S1x64 .f32) :
    k0_pay1 (F := Ideal) (rowBlk o h T0) (rowBlk o h T1) (rowBlk o h T2)
        (extractStridedSlice S1x64x64 ![0, 0, 0] W3 sl0) (extractStridedSlice S1x64x64 ![1, 0, 0] W3 sl1)
        (extractStridedSlice S1x64x64 ![2, 0, 0] W3 sl2) B
      = rowBlk o h (wholeLayer T0 T1 T2 W3 B) := by
  unfold k0_pay1 wholeLayer wmat
  dsimp only
  simp only [shapeCast_self]
  exact layer_rowBlk o h _ rfl _ rfl _ hB hZ _ _ _ T0 T1 T2 _ _ _ B

/-! ## The blocks the body is given -/

variable (V : (c : Dev nD) → (b : Ref sig .tc) → Buf (Elt Ideal) ((c : Thread nD τ).loc b))

/-- The printed index maps over the grid: the row-blocked windows are at block (t, 0), the weight stack and the
    bias row at their only block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem blk_le (t : Fin cfg0.N) : 2000 * t.val + 2000 ≤ 100000 := by
  have h : t.val < 50 := lt_of_lt_of_eq t.isLt N_0
  omega

/-- Row-blocked input window 0 at point t is rows 2000·t … of its array. -/
theorem iblk_0 (c : Dev nD) (t : Fin cfg0.N) :
    iblk0 V c 0 t = rowBlk (2000 * t.val) (blk_le t) (V c main_arg0) := by
  obtain ⟨e0, e1, -⟩ := idx_facts t
  funext y
  show V c main_arg0 (((cfg0.win 0).blk t).view.emb y) = V c main_arg0 (shiftRow (2000 * t.val) (blk_le t) y)
  refine congrArg (V c main_arg0) (funext fun a => Fin.ext ?_)
  match a with
  | ⟨0, _⟩ => show win0_0.index t (0 : Fin 2) * 2000 + 1 * (y 0).val = 2000 * t.val + (y 0).val; omega
  | ⟨1, _⟩ => show win0_0.index t (1 : Fin 2) * 64 + 1 * (y 1).val = (y 1).val; omega

theorem iblk_1 (c : Dev nD) (t : Fin cfg0.N) :
    iblk0 V c 1 t = rowBlk (2000 * t.val) (blk_le t) (V c main_v42) := by
  obtain ⟨-, -, e0, e1, -⟩ := idx_facts t
  funext y
  show V c main_v42 (((cfg0.win 1).blk t).view.emb y) = V c main_v42 (shiftRow (2000 * t.val) (blk_le t) y)
  refine congrArg (V c main_v42) (funext fun a => Fin.ext ?_)
  match a with
  | ⟨0, _⟩ => show win0_1.index t (0 : Fin 2) * 2000 + 1 * (y 0).val = 2000 * t.val + (y 0).val; omega
  | ⟨1, _⟩ => show win0_1.index t (1 : Fin 2) * 64 + 1 * (y 1).val = (y 1).val; omega

theorem iblk_2 (c : Dev nD) (t : Fin cfg0.N) :
    iblk0 V c 2 t = rowBlk (2000 * t.val) (blk_le t) (V c main_v58) := by
  obtain ⟨-, -, -, -, e0, e1, -⟩ := idx_facts t
  funext y
  show V c main_v58 (((cfg0.win 2).blk t).view.emb y) = V c main_v58 (shiftRow (2000 * t.val) (blk_le t) y)
  refine congrArg (V c main_v58) (funext fun a => Fin.ext ?_)
  match a with
  | ⟨0, _⟩ => show win0_2.index t (0 : Fin 2) * 2000 + 1 * (y 0).val = 2000 * t.val + (y 0).val; omega
  | ⟨1, _⟩ => show win0_2.index t (1 : Fin 2) * 64 + 1 * (y 1).val = (y 1).val; omega

/-- The weight stack's window is its whole array at every point. -/
theorem iblk_3 (c : Dev nD) (t : Fin cfg0.N) : iblk0 V c 3 t = V c main_v60 := by
  obtain ⟨-, -, -, -, -, -, e0, e1, e2, -⟩ := idx_facts t
  funext y
  show V c main_v60 (((cfg0.win 3).blk t).view.emb y) = V c main_v60 y
  refine congrArg (V c main_v60) (funext fun a => Fin.ext ?_)
  match a with
  | ⟨0, _⟩ => show win0_3.index t (0 : Fin 3) * 3 + 1 * (y 0).val = (y 0).val; omega
  | ⟨1, _⟩ => show win0_3.index t (1 : Fin 3) * 64 + 1 * (y 1).val = (y 1).val; omega
  | ⟨2, _⟩ => show win0_3.index t (2 : Fin 3) * 64 + 1 * (y 2).val = (y 2).val; omega

/-- The bias row's window is its whole array at every point. -/
theorem iblk_4 (c : Dev nD) (t : Fin cfg0.N) : iblk0 V c 4 t = V c main_v63 := by
  obtain ⟨-, -, -, -, -, -, -, -, -, e0, e1, -⟩ := idx_facts t
  funext y
  show V c main_v63 (((cfg0.win 4).blk t).view.emb y) = V c main_v63 y
  refine congrArg (V c main_v63) (funext fun a => Fin.ext ?_)
  match a with
  | ⟨0, _⟩ => show win0_4.index t (0 : Fin 2) * 1 + 1 * (y 0).val = (y 0).val; omega
  | ⟨1, _⟩ => show win0_4.index t (1 : Fin 2) * 64 + 1 * (y 1).val = (y 1).val; omega

/-- The output window's block at point t, read out of an array G, is rows 2000·t … of G. -/
theorem read_out (G : FVec Ideal S100000x64 .f32) (t : Fin cfg0.N) :
    ((cfg0.win 5).blk t).view.read (Elt Ideal) G = rowBlk (2000 * t.val) (blk_le t) G := by
  obtain ⟨-, -, -, -, -, -, -, -, -, -, -, e0, e1⟩ := idx_facts t
  funext y
  show G (((cfg0.win 5).blk t).view.emb y) = G (shiftRow (2000 * t.val) (blk_le t) y)
  refine congrArg G (funext fun a => Fin.ext ?_)
  match a with
  | ⟨0, _⟩ => show win0_5.index t (0 : Fin 2) * 2000 + 1 * (y 0).val = 2000 * t.val + (y 0).val; omega
  | ⟨1, _⟩ => show win0_5.index t (1 : Fin 2) * 64 + 1 * (y 1).val = (y 1).val; omega

/-! ## From the blocks to the array -/

/-- The whole-array layer of the region's five input arrays as it finds them. -/
def result (c : Dev nD) : FVec Ideal S100000x64 .f32 :=
  wholeLayer (V c main_arg0) (V c main_v42) (V c main_v58) (V c main_v60) (V c main_v63)

/-- What point t writes back is block t of the whole-array layer. -/
theorem flushed_eq (c : Dev nD) (t : Fin cfg0.N) :
    (dat0 V c).flushed 5 t = ((cfg0.win 5).blk t).view.read (Elt Ideal) (result V c) := by
  show (cfg0.win 5).cut (grid0.coords t) ((dat0 V c).after 5 t) = _
  rw [after0_5, read_out]
  unfold out0_5
  rw [View.canon_unit_zero hz2]
  simp only [View.ld_unit_zero (S := S2000x64) hz2, View.ld_unit_zero (S := S1x64) hz2]
  rw [Cert.Layout.ld_unit (S := S3x64x64) _ ![0, 0, 0] S1x64x64.size inb_S3x64x64_S1x64x64_0_0_0 sl0,
    Cert.Layout.ld_unit (S := S3x64x64) _ ![1, 0, 0] S1x64x64.size inb_S3x64x64_S1x64x64_1_0_0 sl1,
    Cert.Layout.ld_unit (S := S3x64x64) _ ![2, 0, 0] S1x64x64.size inb_S3x64x64_S1x64x64_2_0_0 sl2,
    iblk_0, iblk_1, iblk_2, iblk_3, iblk_4]
  exact pay_rowBlk (2000 * t.val) (blk_le t) _ _ _ _ _

/-- An index of the array is in point t's block iff each coordinate is in the block's range on its axis. -/
theorem mem_blk (t : Fin cfg0.N) (i : S100000x64.Idx) :
    i ∈ ((cfg0.win 5).blk t).view.set ↔ ∀ a : Fin 2, win0_5.index t a * S2000x64.size a ≤ (i a).val ∧ (i a).val < win0_5.index t a * S2000x64.size a + S2000x64.size a := by
  show i ∈ ((View.whole main_v64).slice (win0_5.rect t)).set ↔ _
  rw [View.set_slice_whole, Rect.mem_set_unit]
  exact Iff.rfl

/-- Every row lies in the block of the point row / 2000. -/
theorem cover (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 50 := N_0
  let t : Fin cfg0.N := ⟨(i 0).val / 2000, by rw [hN]; omega⟩
  obtain ⟨-, -, -, -, -, -, -, -, -, -, -, e0, e1⟩ := idx_facts t
  have ht : t.val = (i 0).val / 2000 := rfl
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 64 ≤ (i 1).val ∧ (i 1).val < win0_5.index t (1 : Fin 2) * 64 + 64; omega

/-- THE OUTPUT ARRAY after the region: the whole-array layer of the five input arrays as the region found them. -/
theorem final (c : Dev nD) : (dat0 V c).arrAt 5 cfg0.N = result V c :=
  (dat0 V c).arrAt_eq_of_cover 5 (result V c) (fun t _ => flushed_eq V c t) (cover)

end Cert.KernelIdeal.Cheb0

end
-- ==== Proof.Region1.lean ====
/-
  What kernel region 1 leaves in its output array, as one whole-array function of its five input arrays.

  The region cuts the node axis into 50 blocks of 2000 rows.  At grid point t the body loads rows 2000·t … 2000·t + 1999
  of the three [100000, 64] input arrays, the whole [3, 64, 64] weight stack (cut into its three [64, 64] matrices inside the
  body) and the one bias row, and stores  max (T0·W0 + T1·W1 + T2·W2 + bias + T0, 0)  on those rows.  Each row of the result
  depends on the same row of the inputs only, so the block written at point t is the block of rows of the layer
  computed on the whole arrays; the 50 blocks tile the array, so the array ends holding that whole-array layer.
-/
import proofs.«108330_j58488864637084_1_alg».proof.Proof.Gen.KernelIdeal.Frame
import proofs.«108330_j58488864637084_1_alg».proof.Proof.LibChebRows
import proofs.«108330_j58488864637084_1_alg».proof.Proof.LibStackedLayers

set_option maxRecDepth 16384

noncomputable section

namespace Cert.KernelIdeal.Cheb1

open Idealize.ShloMosaic Idealize.ShloMosaic.TcCoe Idealize.SL.Sem
open Idealize.ShloMosaic.Pipeline (Dat Cfg Window)
open Cert.KernelIdeal Cert.KernelIdeal.Gen Cert.Blocks Cert.ChebRows

/-! ## The whole-array layer -/

theorem sl0 : S3x64x64.Slices ![0, 0, 0] S1x64x64 := by decide
theorem sl1 : S3x64x64.Slices ![1, 0, 0] S1x64x64 := by decide
theorem sl2 : S3x64x64.Slices ![2, 0, 0] S1x64x64 := by decide
theorem sc : S1x64x64.ShapeCasts S64x64 := by decide
theorem hB : S1x64.BroadcastsInDim S100000x64 ![0, 1] := by decide
theorem hZ : S_.BroadcastsInDim S100000x64 ![] := by decide

/-- Weight matrix j of a [3, 64, 64] stack: the [1, 64, 64] slice at j with its unit axis dropped. -/
def wmat (j : Nat) (hs : S3x64x64.Slices ![j, 0, 0] S1x64x64) (W3 : FVec Ideal S3x64x64 .f32) : FVec Ideal S64x64 .f32 :=
  shapeCast S64x64 (extractStridedSlice S1x64x64 ![j, 0, 0] W3 hs) sc

/-- The layer on whole arrays: max (T0·W0 + T1·W1 + T2·W2 + bias row + T0, 0). -/
def wholeLayer (T0 T1 T2 : FVec Ideal S100000x64 .f32) (W3 : FVec Ideal S3x64x64 .f32) (B : FVec Ideal S1x64 .f32) :
    FVec Ideal S100000x64 .f32 :=
  layerSkip (DotDims.plain 100000 64 64) hB hZ 0x00000000#32 T0 T1 T2 (wmat 0 sl0 W3) (wmat 1 sl1 W3) (wmat 2 sl2 W3) B

/-! ## The body's store on a block of rows -/

theorem hz2 : (![0, 0] : Fin 2 → Nat) = fun _ => 0 := funext fun a => by fin_cases a <;> rfl

/-- The body's stored value, from row blocks of the three arrays, the three slices of the weight stack and the bias
    row, is the row block of the whole-array layer. -/
theorem pay_rowBlk (o : Nat) (h : o + 2000 ≤ 100000) (T0 T1 T2 : FVec Ideal S100000x64 .f32)
    (W3 : FVec Ideal S3x64x64 .f32) (B : FVec Ideal S1x64 .f32) :
    k1_pay1 (F := Ideal) (rowBlk o h T0) (rowBlk o h T1) (rowBlk o h T2)
        (extractStridedSlice S1x64x64 ![0, 0, 0] W3 sl0) (extractStridedSlice S1x64x64 ![1, 0, 0] W3 sl1)
        (extractStridedSlice S1x64x64 ![2, 0, 0] W3 sl2) B
      = rowBlk o h (wholeLayer T0 T1 T2 W3 B) := by
  unfold k1_pay1 wholeLayer wmat
  dsimp only
  simp only [shapeCast_self]
  exact layerSkip_rowBlk o h _ rfl _ rfl _ hB hZ _ _ _ T0 T1 T2 _ _ _ B

/-! ## The blocks the body is given -/

variable (V : (c : Dev nD) → (b : Ref sig .tc) → Buf (Elt Ideal) ((c : Thread nD τ).loc b))

/-- The printed index maps over the grid: the row-blocked windows are at block (t, 0), the weight stack and the
    bias row at their only block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 3) = 0 ∧ win1_3.index t (1 : Fin 3) = 0 ∧ win1_3.index t (2 : Fin 3) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem blk_le (t : Fin cfg1.N) : 2000 * t.val + 2000 ≤ 100000 := by
  have h : t.val < 50 := lt_of_lt_of_eq t.isLt N_1
  omega

/-- Row-blocked input window 0 at point t is rows 2000·t … of its array. -/
theorem iblk_0 (c : Dev nD) (t : Fin cfg1.N) :
    iblk1 V c 0 t = rowBlk (2000 * t.val) (blk_le t) (V c main_v64) := by
  obtain ⟨e0, e1, -⟩ := idx_facts t
  funext y
  show V c main_v64 (((cfg1.win 0).blk t).view.emb y) = V c main_v64 (shiftRow (2000 * t.val) (blk_le t) y)
  refine congrArg (V c main_v64) (funext fun a => Fin.ext ?_)
  match a with
  | ⟨0, _⟩ => show win1_0.index t (0 : Fin 2) * 2000 + 1 * (y 0).val = 2000 * t.val + (y 0).val; omega
  | ⟨1, _⟩ => show win1_0.index t (1 : Fin 2) * 64 + 1 * (y 1).val = (y 1).val; omega

theorem iblk_1 (c : Dev nD) (t : Fin cfg1.N) :
    iblk1 V c 1 t = rowBlk (2000 * t.val) (blk_le t) (V c main_v77) := by
  obtain ⟨-, -, e0, e1, -⟩ := idx_facts t
  funext y
  show V c main_v77 (((cfg1.win 1).blk t).view.emb y) = V c main_v77 (shiftRow (2000 * t.val) (blk_le t) y)
  refine congrArg (V c main_v77) (funext fun a => Fin.ext ?_)
  match a with
  | ⟨0, _⟩ => show win1_1.index t (0 : Fin 2) * 2000 + 1 * (y 0).val = 2000 * t.val + (y 0).val; omega
  | ⟨1, _⟩ => show win1_1.index t (1 : Fin 2) * 64 + 1 * (y 1).val = (y 1).val; omega

theorem iblk_2 (c : Dev nD) (t : Fin cfg1.N) :
    iblk1 V c 2 t = rowBlk (2000 * t.val) (blk_le t) (V c main_v93) := by
  obtain ⟨-, -, -, -, e0, e1, -⟩ := idx_facts t
  funext y
  show V c main_v93 (((cfg1.win 2).blk t).view.emb y) = V c main_v93 (shiftRow (2000 * t.val) (blk_le t) y)
  refine congrArg (V c main_v93) (funext fun a => Fin.ext ?_)
  match a with
  | ⟨0, _⟩ => show win1_2.index t (0 : Fin 2) * 2000 + 1 * (y 0).val = 2000 * t.val + (y 0).val; omega
  | ⟨1, _⟩ => show win1_2.index t (1 : Fin 2) * 64 + 1 * (y 1).val = (y 1).val; omega

/-- The weight stack's window is its whole array at every point. -/
theorem iblk_3 (c : Dev nD) (t : Fin cfg1.N) : iblk1 V c 3 t = V c main_v95 := by
  obtain ⟨-, -, -, -, -, -, e0, e1, e2, -⟩ := idx_facts t
  funext y
  show V c main_v95 (((cfg1.win 3).blk t).view.emb y) = V c main_v95 y
  refine congrArg (V c main_v95) (funext fun a => Fin.ext ?_)
  match a with
  | ⟨0, _⟩ => show win1_3.index t (0 : Fin 3) * 3 + 1 * (y 0).val = (y 0).val; omega
  | ⟨1, _⟩ => show win1_3.index t (1 : Fin 3) * 64 + 1 * (y 1).val = (y 1).val; omega
  | ⟨2, _⟩ => show win1_3.index t (2 : Fin 3) * 64 + 1 * (y 2).val = (y 2).val; omega

/-- The bias row's window is its whole array at every point. -/
theorem iblk_4 (c : Dev nD) (t : Fin cfg1.N) : iblk1 V c 4 t = V c main_v98 := by
  obtain ⟨-, -, -, -, -, -, -, -, -, e0, e1, -⟩ := idx_facts t
  funext y
  show V c main_v98 (((cfg1.win 4).blk t).view.emb y) = V c main_v98 y
  refine congrArg (V c main_v98) (funext fun a => Fin.ext ?_)
  match a with
  | ⟨0, _⟩ => show win1_4.index t (0 : Fin 2) * 1 + 1 * (y 0).val = (y 0).val; omega
  | ⟨1, _⟩ => show win1_4.index t (1 : Fin 2) * 64 + 1 * (y 1).val = (y 1).val; omega

/-- The output window's block at point t, read out of an array G, is rows 2000·t … of G. -/
theorem read_out (G : FVec Ideal S100000x64 .f32) (t : Fin cfg1.N) :
    ((cfg1.win 5).blk t).view.read (Elt Ideal) G = rowBlk (2000 * t.val) (blk_le t) G := by
  obtain ⟨-, -, -, -, -, -, -, -, -, -, -, e0, e1⟩ := idx_facts t
  funext y
  show G (((cfg1.win 5).blk t).view.emb y) = G (shiftRow (2000 * t.val) (blk_le t) y)
  refine congrArg G (funext fun a => Fin.ext ?_)
  match a with
  | ⟨0, _⟩ => show win1_5.index t (0 : Fin 2) * 2000 + 1 * (y 0).val = 2000 * t.val + (y 0).val; omega
  | ⟨1, _⟩ => show win1_5.index t (1 : Fin 2) * 64 + 1 * (y 1).val = (y 1).val; omega

/-! ## From the blocks to the array -/

/-- The whole-array layer of the region's five input arrays as it finds them. -/
def result (c : Dev nD) : FVec Ideal S100000x64 .f32 :=
  wholeLayer (V c main_v64) (V c main_v77) (V c main_v93) (V c main_v95) (V c main_v98)

/-- What point t writes back is block t of the whole-array layer. -/
theorem flushed_eq (c : Dev nD) (t : Fin cfg1.N) :
    (dat1 V c).flushed 5 t = ((cfg1.win 5).blk t).view.read (Elt Ideal) (result V c) := by
  show (cfg1.win 5).cut (grid1.coords t) ((dat1 V c).after 5 t) = _
  rw [after1_5, read_out]
  unfold out1_5
  rw [View.canon_unit_zero hz2]
  simp only [View.ld_unit_zero (S := S2000x64) hz2, View.ld_unit_zero (S := S1x64) hz2]
  rw [Cert.Layout.ld_unit (S := S3x64x64) _ ![0, 0, 0] S1x64x64.size inb_S3x64x64_S1x64x64_0_0_0 sl0,
    Cert.Layout.ld_unit (S := S3x64x64) _ ![1, 0, 0] S1x64x64.size inb_S3x64x64_S1x64x64_1_0_0 sl1,
    Cert.Layout.ld_unit (S := S3x64x64) _ ![2, 0, 0] S1x64x64.size inb_S3x64x64_S1x64x64_2_0_0 sl2,
    iblk_0, iblk_1, iblk_2, iblk_3, iblk_4]
  exact pay_rowBlk (2000 * t.val) (blk_le t) _ _ _ _ _

/-- An index of the array is in point t's block iff each coordinate is in the block's range on its axis. -/
theorem mem_blk (t : Fin cfg1.N) (i : S100000x64.Idx) :
    i ∈ ((cfg1.win 5).blk t).view.set ↔ ∀ a : Fin 2, win1_5.index t a * S2000x64.size a ≤ (i a).val ∧ (i a).val < win1_5.index t a * S2000x64.size a + S2000x64.size a := by
  show i ∈ ((View.whole main_v99).slice (win1_5.rect t)).set ↔ _
  rw [View.set_slice_whole, Rect.mem_set_unit]
  exact Iff.rfl

/-- Every row lies in the block of the point row / 2000. -/
theorem cover (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 50 := N_1
  let t : Fin cfg1.N := ⟨(i 0).val / 2000, by rw [hN]; omega⟩
  obtain ⟨-, -, -, -, -, -, -, -, -, -, -, e0, e1⟩ := idx_facts t
  have ht : t.val = (i 0).val / 2000 := rfl
  refine ⟨t, flush1_5 t, ?_⟩
  rw [mem_blk]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 64 ≤ (i 1).val ∧ (i 1).val < win1_5.index t (1 : Fin 2) * 64 + 64; omega

/-- THE OUTPUT ARRAY after the region: the whole-array layer of the five input arrays as the region found them. -/
theorem final (c : Dev nD) : (dat1 V c).arrAt 5 cfg1.N = result V c :=
  (dat1 V c).arrAt_eq_of_cover 5 (result V c) (fun t _ => flushed_eq V c t) (cover)

end Cert.KernelIdeal.Cheb1

end
-- ==== Proof.Region2.lean ====
/-
  What kernel region 2 leaves in its output array, as one whole-array function of its five input arrays.

  The region cuts the node axis into 50 blocks of 2000 rows.  At grid point t the body loads rows 2000·t … 2000·t + 1999
  of the three [100000, 64] input arrays, the whole [3, 64, 64] weight stack (cut into its three [64, 64] matrices inside the
  body) and the one bias row, and stores  max (T0·W0 + T1·W1 + T2·W2 + bias + T0, 0)  on those rows.  Each row of the result
  depends on the same row of the inputs only, so the block written at point t is the block of rows of the layer
  computed on the whole arrays; the 50 blocks tile the array, so the array ends holding that whole-array layer.
-/
import proofs.«108330_j58488864637084_1_alg».proof.Proof.Gen.KernelIdeal.Frame
import proofs.«108330_j58488864637084_1_alg».proof.Proof.LibChebRows
import proofs.«108330_j58488864637084_1_alg».proof.Proof.LibStackedLayers

set_option maxRecDepth 16384

noncomputable section

namespace Cert.KernelIdeal.Cheb2

open Idealize.ShloMosaic Idealize.ShloMosaic.TcCoe Idealize.SL.Sem
open Idealize.ShloMosaic.Pipeline (Dat Cfg Window)
open Cert.KernelIdeal Cert.KernelIdeal.Gen Cert.Blocks Cert.ChebRows

/-! ## The whole-array layer -/

theorem sl0 : S3x64x64.Slices ![0, 0, 0] S1x64x64 := by decide
theorem sl1 : S3x64x64.Slices ![1, 0, 0] S1x64x64 := by decide
theorem sl2 : S3x64x64.Slices ![2, 0, 0] S1x64x64 := by decide
theorem sc : S1x64x64.ShapeCasts S64x64 := by decide
theorem hB : S1x64.BroadcastsInDim S100000x64 ![0, 1] := by decide
theorem hZ : S_.BroadcastsInDim S100000x64 ![] := by decide

/-- Weight matrix j of a [3, 64, 64] stack: the [1, 64, 64] slice at j with its unit axis dropped. -/
def wmat (j : Nat) (hs : S3x64x64.Slices ![j, 0, 0] S1x64x64) (W3 : FVec Ideal S3x64x64 .f32) : FVec Ideal S64x64 .f32 :=
  shapeCast S64x64 (extractStridedSlice S1x64x64 ![j, 0, 0] W3 hs) sc

/-- The layer on whole arrays: max (T0·W0 + T1·W1 + T2·W2 + bias row + T0, 0). -/
def wholeLayer (T0 T1 T2 : FVec Ideal S100000x64 .f32) (W3 : FVec Ideal S3x64x64 .f32) (B : FVec Ideal S1x64 .f32) :
    FVec Ideal S100000x64 .f32 :=
  layerSkip (DotDims.plain 100000 64 64) hB hZ 0x00000000#32 T0 T1 T2 (wmat 0 sl0 W3) (wmat 1 sl1 W3) (wmat 2 sl2 W3) B

/-! ## The body's store on a block of rows -/

theorem hz2 : (![0, 0] : Fin 2 → Nat) = fun _ => 0 := funext fun a => by fin_cases a <;> rfl

/-- The body's stored value, from row blocks of the three arrays, the three slices of the weight stack and the bias
    row, is the row block of the whole-array layer. -/
theorem pay_rowBlk (o : Nat) (h : o + 2000 ≤ 100000) (T0 T1 T2 : FVec Ideal S100000x64 .f32)
    (W3 : FVec Ideal S3x64x64 .f32) (B : FVec Ideal S1x64 .f32) :
    k2_pay1 (F := Ideal) (rowBlk o h T0) (rowBlk o h T1) (rowBlk o h T2)
        (extractStridedSlice S1x64x64 ![0, 0, 0] W3 sl0) (extractStridedSlice S1x64x64 ![1, 0, 0] W3 sl1)
        (extractStridedSlice S1x64x64 ![2, 0, 0] W3 sl2) B
      = rowBlk o h (wholeLayer T0 T1 T2 W3 B) := by
  unfold k2_pay1 wholeLayer wmat
  dsimp only
  simp only [shapeCast_self]
  exact layerSkip_rowBlk o h _ rfl _ rfl _ hB hZ _ _ _ T0 T1 T2 _ _ _ B

/-! ## The blocks the body is given -/

variable (V : (c : Dev nD) → (b : Ref sig .tc) → Buf (Elt Ideal) ((c : Thread nD τ).loc b))

/-- The printed index maps over the grid: the row-blocked windows are at block (t, 0), the weight stack and the
    bias row at their only block. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 3) = 0 ∧ win2_3.index t (1 : Fin 3) = 0 ∧ win2_3.index t (2 : Fin 3) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem blk_le (t : Fin cfg2.N) : 2000 * t.val + 2000 ≤ 100000 := by
  have h : t.val < 50 := lt_of_lt_of_eq t.isLt N_2
  omega

/-- Row-blocked input window 0 at point t is rows 2000·t … of its array. -/
theorem iblk_0 (c : Dev nD) (t : Fin cfg2.N) :
    iblk2 V c 0 t = rowBlk (2000 * t.val) (blk_le t) (V c main_v99) := by
  obtain ⟨e0, e1, -⟩ := idx_facts t
  funext y
  show V c main_v99 (((cfg2.win 0).blk t).view.emb y) = V c main_v99 (shiftRow (2000 * t.val) (blk_le t) y)
  refine congrArg (V c main_v99) (funext fun a => Fin.ext ?_)
  match a with
  | ⟨0, _⟩ => show win2_0.index t (0 : Fin 2) * 2000 + 1 * (y 0).val = 2000 * t.val + (y 0).val; omega
  | ⟨1, _⟩ => show win2_0.index t (1 : Fin 2) * 64 + 1 * (y 1).val = (y 1).val; omega

theorem iblk_1 (c : Dev nD) (t : Fin cfg2.N) :
    iblk2 V c 1 t = rowBlk (2000 * t.val) (blk_le t) (V c main_v112) := by
  obtain ⟨-, -, e0, e1, -⟩ := idx_facts t
  funext y
  show V c main_v112 (((cfg2.win 1).blk t).view.emb y) = V c main_v112 (shiftRow (2000 * t.val) (blk_le t) y)
  refine congrArg (V c main_v112) (funext fun a => Fin.ext ?_)
  match a with
  | ⟨0, _⟩ => show win2_1.index t (0 : Fin 2) * 2000 + 1 * (y 0).val = 2000 * t.val + (y 0).val; omega
  | ⟨1, _⟩ => show win2_1.index t (1 : Fin 2) * 64 + 1 * (y 1).val = (y 1).val; omega

theorem iblk_2 (c : Dev nD) (t : Fin cfg2.N) :
    iblk2 V c 2 t = rowBlk (2000 * t.val) (blk_le t) (V c main_v128) := by
  obtain ⟨-, -, -, -, e0, e1, -⟩ := idx_facts t
  funext y
  show V c main_v128 (((cfg2.win 2).blk t).view.emb y) = V c main_v128 (shiftRow (2000 * t.val) (blk_le t) y)
  refine congrArg (V c main_v128) (funext fun a => Fin.ext ?_)
  match a with
  | ⟨0, _⟩ => show win2_2.index t (0 : Fin 2) * 2000 + 1 * (y 0).val = 2000 * t.val + (y 0).val; omega
  | ⟨1, _⟩ => show win2_2.index t (1 : Fin 2) * 64 + 1 * (y 1).val = (y 1).val; omega

/-- The weight stack's window is its whole array at every point. -/
theorem iblk_3 (c : Dev nD) (t : Fin cfg2.N) : iblk2 V c 3 t = V c main_v130 := by
  obtain ⟨-, -, -, -, -, -, e0, e1, e2, -⟩ := idx_facts t
  funext y
  show V c main_v130 (((cfg2.win 3).blk t).view.emb y) = V c main_v130 y
  refine congrArg (V c main_v130) (funext fun a => Fin.ext ?_)
  match a with
  | ⟨0, _⟩ => show win2_3.index t (0 : Fin 3) * 3 + 1 * (y 0).val = (y 0).val; omega
  | ⟨1, _⟩ => show win2_3.index t (1 : Fin 3) * 64 + 1 * (y 1).val = (y 1).val; omega
  | ⟨2, _⟩ => show win2_3.index t (2 : Fin 3) * 64 + 1 * (y 2).val = (y 2).val; omega

/-- The bias row's window is its whole array at every point. -/
theorem iblk_4 (c : Dev nD) (t : Fin cfg2.N) : iblk2 V c 4 t = V c main_v133 := by
  obtain ⟨-, -, -, -, -, -, -, -, -, e0, e1, -⟩ := idx_facts t
  funext y
  show V c main_v133 (((cfg2.win 4).blk t).view.emb y) = V c main_v133 y
  refine congrArg (V c main_v133) (funext fun a => Fin.ext ?_)
  match a with
  | ⟨0, _⟩ => show win2_4.index t (0 : Fin 2) * 1 + 1 * (y 0).val = (y 0).val; omega
  | ⟨1, _⟩ => show win2_4.index t (1 : Fin 2) * 64 + 1 * (y 1).val = (y 1).val; omega

/-- The output window's block at point t, read out of an array G, is rows 2000·t … of G. -/
theorem read_out (G : FVec Ideal S100000x64 .f32) (t : Fin cfg2.N) :
    ((cfg2.win 5).blk t).view.read (Elt Ideal) G = rowBlk (2000 * t.val) (blk_le t) G := by
  obtain ⟨-, -, -, -, -, -, -, -, -, -, -, e0, e1⟩ := idx_facts t
  funext y
  show G (((cfg2.win 5).blk t).view.emb y) = G (shiftRow (2000 * t.val) (blk_le t) y)
  refine congrArg G (funext fun a => Fin.ext ?_)
  match a with
  | ⟨0, _⟩ => show win2_5.index t (0 : Fin 2) * 2000 + 1 * (y 0).val = 2000 * t.val + (y 0).val; omega
  | ⟨1, _⟩ => show win2_5.index t (1 : Fin 2) * 64 + 1 * (y 1).val = (y 1).val; omega

/-! ## From the blocks to the array -/

/-- The whole-array layer of the region's five input arrays as it finds them. -/
def result (c : Dev nD) : FVec Ideal S100000x64 .f32 :=
  wholeLayer (V c main_v99) (V c main_v112) (V c main_v128) (V c main_v130) (V c main_v133)

/-- What point t writes back is block t of the whole-array layer. -/
theorem flushed_eq (c : Dev nD) (t : Fin cfg2.N) :
    (dat2 V c).flushed 5 t = ((cfg2.win 5).blk t).view.read (Elt Ideal) (result V c) := by
  show (cfg2.win 5).cut (grid2.coords t) ((dat2 V c).after 5 t) = _
  rw [after2_5, read_out]
  unfold out2_5
  rw [View.canon_unit_zero hz2]
  simp only [View.ld_unit_zero (S := S2000x64) hz2, View.ld_unit_zero (S := S1x64) hz2]
  rw [Cert.Layout.ld_unit (S := S3x64x64) _ ![0, 0, 0] S1x64x64.size inb_S3x64x64_S1x64x64_0_0_0 sl0,
    Cert.Layout.ld_unit (S := S3x64x64) _ ![1, 0, 0] S1x64x64.size inb_S3x64x64_S1x64x64_1_0_0 sl1,
    Cert.Layout.ld_unit (S := S3x64x64) _ ![2, 0, 0] S1x64x64.size inb_S3x64x64_S1x64x64_2_0_0 sl2,
    iblk_0, iblk_1, iblk_2, iblk_3, iblk_4]
  exact pay_rowBlk (2000 * t.val) (blk_le t) _ _ _ _ _

/-- An index of the array is in point t's block iff each coordinate is in the block's range on its axis. -/
theorem mem_blk (t : Fin cfg2.N) (i : S100000x64.Idx) :
    i ∈ ((cfg2.win 5).blk t).view.set ↔ ∀ a : Fin 2, win2_5.index t a * S2000x64.size a ≤ (i a).val ∧ (i a).val < win2_5.index t a * S2000x64.size a + S2000x64.size a := by
  show i ∈ ((View.whole main_v134).slice (win2_5.rect t)).set ↔ _
  rw [View.set_slice_whole, Rect.mem_set_unit]
  exact Iff.rfl

/-- Every row lies in the block of the point row / 2000. -/
theorem cover (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  have hN : cfg2.N = 50 := N_2
  let t : Fin cfg2.N := ⟨(i 0).val / 2000, by rw [hN]; omega⟩
  obtain ⟨-, -, -, -, -, -, -, -, -, -, -, e0, e1⟩ := idx_facts t
  have ht : t.val = (i 0).val / 2000 := rfl
  refine ⟨t, flush2_5 t, ?_⟩
  rw [mem_blk]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 64 ≤ (i 1).val ∧ (i 1).val < win2_5.index t (1 : Fin 2) * 64 + 64; omega

/-- THE OUTPUT ARRAY after the region: the whole-array layer of the five input arrays as the region found them. -/
theorem final (c : Dev nD) : (dat2 V c).arrAt 5 cfg2.N = result V c :=
  (dat2 V c).arrAt_eq_of_cover 5 (result V c) (fun t _ => flushed_eq V c t) (cover)

end Cert.KernelIdeal.Cheb2

end
-- ==== Proof.LayerBridge.lean ====
/-
  The kernel's layer on whole arrays is the specification's layer, at the ideal values.

  The kernel regions' whole-array layer takes the bias as a [1, 64] row — the bias vector recast as a row — and
  stretches it down the rows; the specification lays the bias vector out as a row by a broadcast along a new leading
  axis, then stretches it.  A recast of a vector as a one-row matrix and that broadcast are the same array, so the
  two layers are the same function: the same three products, summed in the same order, the same bias on every row,
  the same residual term, the same maximum with zero.
-/
import proofs.«108330_j58488864637084_1_alg».proof.Proof.Region0
import proofs.«108330_j58488864637084_1_alg».proof.Proof.Region1
import proofs.«108330_j58488864637084_1_alg».proof.Proof.Region2
import proofs.«108330_j58488864637084_1_alg».proof.Proof.ChebSpec

set_option maxRecDepth 16384

noncomputable section

namespace Cert.LayerBridge

open Idealize.ShloMosaic Cert.ReferenceIdeal.Cheb

theorem hsc : (⟨1, ![64]⟩ : Shape).ShapeCasts ⟨2, ![1, 64]⟩ := by decide
theorem hbc : (⟨1, ![64]⟩ : Shape).BroadcastsInDim ⟨2, ![1, 64]⟩ ![1] := by decide

/-- The first layer (no residual term). -/
theorem layer0_eq (T0 T1 T2 : FVec Ideal ⟨2, ![100000, 64]⟩ .f32) (W3 : FVec Ideal ⟨3, ![3, 64, 64]⟩ .f32)
    (bv : FVec Ideal ⟨1, ![64]⟩ .f32) (h : (⟨1, ![64]⟩ : Shape).ShapeCasts ⟨2, ![1, 64]⟩) :
    Cert.KernelIdeal.Cheb0.wholeLayer T0 T1 T2 W3 (shapeCast ⟨2, ![1, 64]⟩ bv h) = relu (F := Ideal) (affine T0 T1 T2 W3 bv) := by
  unfold Cert.KernelIdeal.Cheb0.wholeLayer Cert.ChebRows.layer Cert.KernelIdeal.Cheb0.wmat relu affine
  rw [Cert.Bridge.reshapeRow_eq bv h hbc]
  rfl

/-- The second layer (with the residual term). -/
theorem layer1_eq (T0 T1 T2 : FVec Ideal ⟨2, ![100000, 64]⟩ .f32) (W3 : FVec Ideal ⟨3, ![3, 64, 64]⟩ .f32)
    (bv : FVec Ideal ⟨1, ![64]⟩ .f32) (h : (⟨1, ![64]⟩ : Shape).ShapeCasts ⟨2, ![1, 64]⟩) :
    Cert.KernelIdeal.Cheb1.wholeLayer T0 T1 T2 W3 (shapeCast ⟨2, ![1, 64]⟩ bv h) = relu (F := Ideal) (addf (affine T0 T1 T2 W3 bv) T0) := by
  unfold Cert.KernelIdeal.Cheb1.wholeLayer Cert.ChebRows.layerSkip Cert.KernelIdeal.Cheb1.wmat relu affine
  rw [Cert.Bridge.reshapeRow_eq bv h hbc]
  rfl

/-- The third layer (with the residual term). -/
theorem layer2_eq (T0 T1 T2 : FVec Ideal ⟨2, ![100000, 64]⟩ .f32) (W3 : FVec Ideal ⟨3, ![3, 64, 64]⟩ .f32)
    (bv : FVec Ideal ⟨1, ![64]⟩ .f32) (h : (⟨1, ![64]⟩ : Shape).ShapeCasts ⟨2, ![1, 64]⟩) :
    Cert.KernelIdeal.Cheb2.wholeLayer T0 T1 T2 W3 (shapeCast ⟨2, ![1, 64]⟩ bv h) = relu (F := Ideal) (addf (affine T0 T1 T2 W3 bv) T0) := by
  unfold Cert.KernelIdeal.Cheb2.wholeLayer Cert.ChebRows.layerSkip Cert.KernelIdeal.Cheb2.wmat relu affine
  rw [Cert.Bridge.reshapeRow_eq bv h hbc]
  rfl

end Cert.LayerBridge

end
-- ==== Proof.KernelValue.lean ====
/-
  The idealized kernel's result buffer at the last segment boundary is the third layer of the specification.

  Walking the fold of buffer contents through @main's segments.  After the first stretch the first region's five input
  arrays hold the input, its two polynomial propagations, the first weight stack and the first bias row, and the
  index rows and the edges' weights sit in their buffers.  A region replaces its output array by the whole-array
  layer of its inputs — the specification's layer — and keeps every buffer that is not one of its arrays; a stretch
  keeps the index rows, the weights and the arguments and computes the next region's inputs from the previous
  region's output.  Three times over, the last region's output is the specification's third layer of the arguments.
-/
import proofs.«108330_j58488864637084_1_alg».proof.Proof.HostStretches
import proofs.«108330_j58488864637084_1_alg».proof.Proof.LayerBridge

set_option maxRecDepth 16384

noncomputable section

namespace Cert.KernelIdeal.Fold

open Cert.KernelIdeal Cert.KernelIdeal.Gen Cert.ReferenceIdeal.Cheb
open Idealize.ShloMosaic Idealize.ShloMosaic.TcCoe Idealize.SL.Sem Idealize.ShloMosaic.StableHlo

variable (m : (ℓ : Loc nD τ sig) → Buf (Elt Ideal) ℓ) (ρ : Dev nD → PrngReg)

/-- The four argument arrays as launched, on core c. -/
abbrev a0 (c : Dev nD) := m ((c : Thread nD τ).loc main_arg0)
abbrev a1 (c : Dev nD) := m ((c : Thread nD τ).loc main_arg1)
abbrev a2 (c : Dev nD) := m ((c : Thread nD τ).loc main_arg2)
abbrev a3 (c : Dev nD) := m ((c : Thread nD τ).loc main_arg3)

/-! ## At the first region's entry -/

theorem e3_t0 (c : Dev nD) : W3 m ρ c (Proc.devRef .tc main_arg0) = a0 m c := Stretch.A_arg0 (W0 m ρ c)
theorem e3_arg2 (c : Dev nD) : W3 m ρ c (Proc.devRef .tc main_arg2) = a2 m c := Stretch.A_arg2 (W0 m ρ c)
theorem e3_arg3 (c : Dev nD) : W3 m ρ c (Proc.devRef .tc main_arg3) = a3 m c := Stretch.A_arg3 (W0 m ρ c)
theorem e3_src (c : Dev nD) : W3 m ρ c (Proc.devRef .tc main_v1) = src (a1 m c) := Stretch.A_src (W0 m ρ c)
theorem e3_dst (c : Dev nD) : W3 m ρ c (Proc.devRef .tc main_v3) = dst (a1 m c) := Stretch.A_dst (W0 m ρ c)
theorem e3_nrm (c : Dev nD) : W3 m ρ c (Proc.devRef .tc main_v29) = nrm (a1 m c) := Stretch.A_nrm (W0 m ρ c)
theorem e3_t1 (c : Dev nD) : W3 m ρ c (Proc.devRef .tc main_v42) = prop (nrm (a1 m c)) (src (a1 m c)) (dst (a1 m c)) (a0 m c) :=
  Stretch.A_t1 (W0 m ρ c)
theorem e3_t2 (c : Dev nD) : W3 m ρ c (Proc.devRef .tc main_v58)
    = cheb2 (nrm (a1 m c)) (src (a1 m c)) (dst (a1 m c)) (prop (nrm (a1 m c)) (src (a1 m c)) (dst (a1 m c)) (a0 m c)) (a0 m c) :=
  Stretch.A_t2 (W0 m ρ c)
theorem e3_w (c : Dev nD) : W3 m ρ c (Proc.devRef .tc main_v60) = w0 (a2 m c) := Stretch.A_w (W0 m ρ c)
theorem e3_b (c : Dev nD) : W3 m ρ c (Proc.devRef .tc main_v63) = shapeCast S1x64 (b0 (a3 m c)) shapeCasts_S64_S1x64 :=
  Stretch.A_b (W0 m ρ c)

/-! ## After the first region -/

/-- The first region's output is the specification's first layer. -/
theorem e4_h (c : Dev nD) : W4 m ρ c (Proc.devRef .tc main_v64) = h1 (a0 m c) (a1 m c) (a2 m c) (a3 m c) := by
  refine (W4_arr m ρ c 5).trans ((Cheb0.final (V3 m ρ) c).trans ?_)
  unfold Cheb0.result
  rw [show V3 m ρ c main_arg0 = _ from e3_t0 m ρ c, show V3 m ρ c main_v42 = _ from e3_t1 m ρ c,
    show V3 m ρ c main_v58 = _ from e3_t2 m ρ c, show V3 m ρ c main_v60 = _ from e3_w m ρ c,
    show V3 m ρ c main_v63 = _ from e3_b m ρ c]
  exact Cert.LayerBridge.layer0_eq _ _ _ _ _ _
theorem e4_src (c : Dev nD) : W4 m ρ c (Proc.devRef .tc main_v1) = src (a1 m c) := (W4_of_ne m ρ c main_v1 (by decide)).trans (e3_src m ρ c)
theorem e4_dst (c : Dev nD) : W4 m ρ c (Proc.devRef .tc main_v3) = dst (a1 m c) := (W4_of_ne m ρ c main_v3 (by decide)).trans (e3_dst m ρ c)
theorem e4_nrm (c : Dev nD) : W4 m ρ c (Proc.devRef .tc main_v29) = nrm (a1 m c) := (W4_of_ne m ρ c main_v29 (by decide)).trans (e3_nrm m ρ c)
theorem e4_arg2 (c : Dev nD) : W4 m ρ c (Proc.devRef .tc main_arg2) = a2 m c := (W4_of_ne m ρ c main_arg2 (by decide)).trans (e3_arg2 m ρ c)
theorem e4_arg3 (c : Dev nD) : W4 m ρ c (Proc.devRef .tc main_arg3) = a3 m c := (W4_of_ne m ρ c main_arg3 (by decide)).trans (e3_arg3 m ρ c)

/-! ## At the second region's entry -/

theorem e5_h (c : Dev nD) : W5 m ρ c (Proc.devRef .tc main_v64) = h1 (a0 m c) (a1 m c) (a2 m c) (a3 m c) :=
  (Stretch.B_h (W4 m ρ c)).trans (e4_h m ρ c)
theorem e5_src (c : Dev nD) : W5 m ρ c (Proc.devRef .tc main_v1) = src (a1 m c) := (Stretch.B_src (W4 m ρ c)).trans (e4_src m ρ c)
theorem e5_dst (c : Dev nD) : W5 m ρ c (Proc.devRef .tc main_v3) = dst (a1 m c) := (Stretch.B_dst (W4 m ρ c)).trans (e4_dst m ρ c)
theorem e5_nrm (c : Dev nD) : W5 m ρ c (Proc.devRef .tc main_v29) = nrm (a1 m c) := (Stretch.B_nrm (W4 m ρ c)).trans (e4_nrm m ρ c)
theorem e5_arg2 (c : Dev nD) : W5 m ρ c (Proc.devRef .tc main_arg2) = a2 m c := (Stretch.B_arg2 (W4 m ρ c)).trans (e4_arg2 m ρ c)
theorem e5_arg3 (c : Dev nD) : W5 m ρ c (Proc.devRef .tc main_arg3) = a3 m c := (Stretch.B_arg3 (W4 m ρ c)).trans (e4_arg3 m ρ c)
theorem e5_t1 (c : Dev nD) : W5 m ρ c (Proc.devRef .tc main_v77)
    = prop (nrm (a1 m c)) (src (a1 m c)) (dst (a1 m c)) (h1 (a0 m c) (a1 m c) (a2 m c) (a3 m c)) := by
  refine (Stretch.B_t1 (W4 m ρ c)).trans ?_
  rw [e4_nrm, e4_src, e4_dst, e4_h]
theorem e5_t2 (c : Dev nD) : W5 m ρ c (Proc.devRef .tc main_v93)
    = cheb2 (nrm (a1 m c)) (src (a1 m c)) (dst (a1 m c))
        (prop (nrm (a1 m c)) (src (a1 m c)) (dst (a1 m c)) (h1 (a0 m c) (a1 m c) (a2 m c) (a3 m c))) (h1 (a0 m c) (a1 m c) (a2 m c) (a3 m c)) := by
  refine (Stretch.B_t2 (W4 m ρ c)).trans ?_
  rw [e4_nrm, e4_src, e4_dst, e4_h]
theorem e5_w (c : Dev nD) : W5 m ρ c (Proc.devRef .tc main_v95) = w1 (a2 m c) := by
  refine (Stretch.B_w (W4 m ρ c)).trans ?_
  rw [e4_arg2]
theorem e5_b (c : Dev nD) : W5 m ρ c (Proc.devRef .tc main_v98) = shapeCast S1x64 (b1 (a3 m c)) shapeCasts_S64_S1x64 := by
  refine (Stretch.B_b (W4 m ρ c)).trans ?_
  rw [e4_arg3]

/-! ## After the second region -/

/-- The second region's output is the specification's second layer. -/
theorem e6_h (c : Dev nD) : W6 m ρ c (Proc.devRef .tc main_v99) = h2 (a0 m c) (a1 m c) (a2 m c) (a3 m c) := by
  refine (W6_arr m ρ c 5).trans ((Cheb1.final (V5 m ρ) c).trans ?_)
  unfold Cheb1.result
  rw [show V5 m ρ c main_v64 = _ from e5_h m ρ c, show V5 m ρ c main_v77 = _ from e5_t1 m ρ c,
    show V5 m ρ c main_v93 = _ from e5_t2 m ρ c, show V5 m ρ c main_v95 = _ from e5_w m ρ c,
    show V5 m ρ c main_v98 = _ from e5_b m ρ c]
  exact Cert.LayerBridge.layer1_eq _ _ _ _ _ _
theorem e6_src (c : Dev nD) : W6 m ρ c (Proc.devRef .tc main_v1) = src (a1 m c) := (W6_of_ne m ρ c main_v1 (by decide)).trans (e5_src m ρ c)
theorem e6_dst (c : Dev nD) : W6 m ρ c (Proc.devRef .tc main_v3) = dst (a1 m c) := (W6_of_ne m ρ c main_v3 (by decide)).trans (e5_dst m ρ c)
theorem e6_nrm (c : Dev nD) : W6 m ρ c (Proc.devRef .tc main_v29) = nrm (a1 m c) := (W6_of_ne m ρ c main_v29 (by decide)).trans (e5_nrm m ρ c)
theorem e6_arg2 (c : Dev nD) : W6 m ρ c (Proc.devRef .tc main_arg2) = a2 m c := (W6_of_ne m ρ c main_arg2 (by decide)).trans (e5_arg2 m ρ c)
theorem e6_arg3 (c : Dev nD) : W6 m ρ c (Proc.devRef .tc main_arg3) = a3 m c := (W6_of_ne m ρ c main_arg3 (by decide)).trans (e5_arg3 m ρ c)

/-! ## At the third region's entry -/

theorem e7_h (c : Dev nD) : W7 m ρ c (Proc.devRef .tc main_v99) = h2 (a0 m c) (a1 m c) (a2 m c) (a3 m c) :=
  (Stretch.C_h (W6 m ρ c)).trans (e6_h m ρ c)
theorem e7_t1 (c : Dev nD) : W7 m ρ c (Proc.devRef .tc main_v112)
    = prop (nrm (a1 m c)) (src (a1 m c)) (dst (a1 m c)) (h2 (a0 m c) (a1 m c) (a2 m c) (a3 m c)) := by
  refine (Stretch.C_t1 (W6 m ρ c)).trans ?_
  rw [e6_nrm, e6_src, e6_dst, e6_h]
theorem e7_t2 (c : Dev nD) : W7 m ρ c (Proc.devRef .tc main_v128)
    = cheb2 (nrm (a1 m c)) (src (a1 m c)) (dst (a1 m c))
        (prop (nrm (a1 m c)) (src (a1 m c)) (dst (a1 m c)) (h2 (a0 m c) (a1 m c) (a2 m c) (a3 m c))) (h2 (a0 m c) (a1 m c) (a2 m c) (a3 m c)) := by
  refine (Stretch.C_t2 (W6 m ρ c)).trans ?_
  rw [e6_nrm, e6_src, e6_dst, e6_h]
theorem e7_w (c : Dev nD) : W7 m ρ c (Proc.devRef .tc main_v130) = w2 (a2 m c) := by
  refine (Stretch.C_w (W6 m ρ c)).trans ?_
  rw [e6_arg2]
theorem e7_b (c : Dev nD) : W7 m ρ c (Proc.devRef .tc main_v133) = shapeCast S1x64 (b2 (a3 m c)) shapeCasts_S64_S1x64 := by
  refine (Stretch.C_b (W6 m ρ c)).trans ?_
  rw [e6_arg3]

/-! ## After the third region -/

/-- THE RESULT: the last boundary's contents of the result buffer are the specification's third layer. -/
theorem result_eq (c : Dev nD) : W8 m ρ c (Proc.devRef .tc main_v134) = h3 (a0 m c) (a1 m c) (a2 m c) (a3 m c) := by
  refine (W8_arr m ρ c 5).trans ((Cheb2.final (V7 m ρ) c).trans ?_)
  unfold Cheb2.result
  rw [show V7 m ρ c main_v99 = _ from e7_h m ρ c, show V7 m ρ c main_v112 = _ from e7_t1 m ρ c,
    show V7 m ρ c main_v128 = _ from e7_t2 m ρ c, show V7 m ρ c main_v130 = _ from e7_w m ρ c,
    show V7 m ρ c main_v133 = _ from e7_b m ρ c]
  exact Cert.LayerBridge.layer2_eq _ _ _ _ _ _

end Cert.KernelIdeal.Fold

end
-- ==== Proof.RefRun.lean ====
/-
  The reference program's run, read in four parts.

  @main is one straight line of host operations: first the index rows and the edges' weights, then three layers.  Its
  operations are listed in order, in four consecutive parts; every weakly fair execution terminates with each
  buffer at the fold of the operations' results over the launch contents.  From ANY buffer contents W, the first part
  leaves the index rows and the weights of the specification in their buffers, and each later part leaves its layer's
  output — the specification's layer of what the part read — and keeps the buffers the later parts read.  Chained,
  the result buffer ends at the specification's third layer of the arguments, and the arguments end unchanged.
-/
import proofs.«108330_j58488864637084_1_alg».proof.Proof.Gen.ReferenceIdeal
import proofs.«108330_j58488864637084_1_alg».proof.Proof.ChebSpec
import Idealize.ShloMosaic.Lib.StableHlo.Run

set_option maxRecDepth 16384
set_option maxHeartbeats 4000000

noncomputable section

namespace Cert.ReferenceIdeal.RefRun

open Cert.ReferenceIdeal Cert.ReferenceIdeal.Gen Cert.ReferenceIdeal.Cheb
open Idealize.ShloMosaic Idealize.ShloMosaic.TcCoe Idealize.SL.Sem Idealize.ShloMosaic.StableHlo

variable {F : FTy → Type} [FloatOps F]

/-! ## @main's operations, in order, in four parts (a called function's operations stand in its call's place) -/

/-- The index rows and the edges' weights. -/
abbrev opsN : List (HloOp τ sig (Elt F)) :=
  [ unary main_arg1 main_v0 ((extractStridedSlice S1x1200000 ![0, 0] · slices_S2x1200000_S1x1200000_0_0) : (⟨S2x1200000, .i32⟩ : BufTy).Contents (Elt F) → (⟨S1x1200000, .i32⟩ : BufTy).Contents (Elt F)),
    reshape main_v0 main_v1 rfl shapeCasts_S1x1200000_S1200000,
    unary main_arg1 main_v2 ((extractStridedSlice S1x1200000 ![1, 0] · slices_S2x1200000_S1x1200000_1_0) : (⟨S2x1200000, .i32⟩ : BufTy).Contents (Elt F) → (⟨S1x1200000, .i32⟩ : BufTy).Contents (Elt F)),
    reshape main_v2 main_v3 rfl shapeCasts_S1x1200000_S1200000,
    unary main_arg1 main_v4 ((extractStridedSlice S1x1200000 ![0, 0] · slices_S2x1200000_S1x1200000_0_0) : (⟨S2x1200000, .i32⟩ : BufTy).Contents (Elt F) → (⟨S1x1200000, .i32⟩ : BufTy).Contents (Elt F)),
    reshape main_v4 main_v5 rfl shapeCasts_S1x1200000_S1200000,
    unary main_arg1 main_v6 ((extractStridedSlice S1x1200000 ![1, 0] · slices_S2x1200000_S1x1200000_1_0) : (⟨S2x1200000, .i32⟩ : BufTy).Contents (Elt F) → (⟨S1x1200000, .i32⟩ : BufTy).Contents (Elt F)),
    reshape main_v6 main_v7 rfl shapeCasts_S1x1200000_S1200000,
    nullary main_cst (constant S_ .f32 0x3F800000#32),
    unary main_cst main_v8 (broadcastInDim S1200000 ![] bcast_S_S1200000 : (⟨S_, .f32⟩ : BufTy).Contents (Elt F) → (⟨S1200000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v5 main_v10 (broadcastInDim S1200000x1 ![0] bcast_S1200000_S1200000x1_0 : (⟨S1200000, .i32⟩ : BufTy).Contents (Elt F) → (⟨S1200000x1, .i32⟩ : BufTy).Contents (Elt F)),
    ternary main_v9 main_v10 main_v8 main_v11 ((fun x i u => Host.scatterAdd scatter_S100000_S1200000x1_S1200000_n_0_0_1 x i u) : (⟨S100000, .f32⟩ : BufTy).Contents (Elt F) → (⟨S1200000x1, .i32⟩ : BufTy).Contents (Elt F) → (⟨S1200000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x3F800000#32),
    unary main_cst_2 main_v14 (broadcastInDim S100000 ![] bcast_S_S100000 : (⟨S_, .f32⟩ : BufTy).Contents (Elt F) → (⟨S100000, .f32⟩ : BufTy).Contents (Elt F)),
    binary main_v11 main_v14 main_v15 (maximumf : (⟨S100000, .f32⟩ : BufTy).Contents (Elt F) → (⟨S100000, .f32⟩ : BufTy).Contents (Elt F) → (⟨S100000, .f32⟩ : BufTy).Contents (Elt F)),
    unary main_v15 main_v16 (Host.rsqrt : (⟨S100000, .f32⟩ : BufTy).Contents (Elt F) → (⟨S100000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v16) (TRef.of (T := ⟨S100000, .f32⟩) main_call0_v1) (TRef.of (T := ⟨S100000, .f32⟩) main_v17) select,
    nullary main_c (constantI S_ 32 0#32),
    unary main_c main_v18 (broadcastInDim S1200000 ![] bcast_S_S1200000 : (⟨S_, .i32⟩ : BufTy).Contents (Elt F) → (⟨S1200000, .i32⟩ : BufTy).Contents (Elt F)),
    binary main_v5 main_v18 main_v19 (cmpi .slt : (⟨S1200000, .i32⟩ : BufTy).Contents (Elt F) → (⟨S1200000, .i32⟩ : BufTy).Contents (Elt F) → (⟨S1200000, .i1⟩ : BufTy).Contents (Elt F)),
    nullary main_c_4 (constantI S_ 32 100000#32),
    unary main_c_4 main_v20 (broadcastInDim S1200000 ![] bcast_S_S1200000 : (⟨S_, .i32⟩ : BufTy).Contents (Elt F) → (⟨S1200000, .i32⟩ : BufTy).Contents (Elt F)),
    binary main_v5 main_v20 main_v21 (addi : (⟨S1200000, .i32⟩ : BufTy).Contents (Elt F) → (⟨S1200000, .i32⟩ : BufTy).Contents (Elt F) → (⟨S1200000, .i32⟩ : BufTy).Contents (Elt F)),
    ternary main_v19 main_v21 main_v5 main_v22 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v22 main_v23 (broadcastInDim S1200000x1 ![0] bcast_S1200000_S1200000x1_0 : (⟨S1200000, .i32⟩ : BufTy).Contents (Elt F) → (⟨S1200000x1, .i32⟩ : BufTy).Contents (Elt F)),
    binary main_v17 main_v23 main_v24 ((fun x i => Host.gather gather_S100000_S1200000x1_S1200000_n_0_n_n_0_1_1 x i) : (⟨S100000, .f32⟩ : BufTy).Contents (Elt F) → (⟨S1200000x1, .i32⟩ : BufTy).Contents (Elt F) → (⟨S1200000, .f32⟩ : BufTy).Contents (Elt F)),
    unary main_v24 main_v25 (Host.negf : (⟨S1200000, .f32⟩ : BufTy).Contents (Elt F) → (⟨S1200000, .f32⟩ : BufTy).Contents (Elt F)),
    nullary main_c_5 (constantI S_ 32 0#32),
    unary main_c_5 main_v26 (broadcastInDim S1200000 ![] bcast_S_S1200000 : (⟨S_, .i32⟩ : BufTy).Contents (Elt F) → (⟨S1200000, .i32⟩ : BufTy).Contents (Elt F)),
    binary main_v7 main_v26 main_v27 (cmpi .slt : (⟨S1200000, .i32⟩ : BufTy).Contents (Elt F) → (⟨S1200000, .i32⟩ : BufTy).Contents (Elt F) → (⟨S1200000, .i1⟩ : BufTy).Contents (Elt F)),
    nullary main_c_6 (constantI S_ 32 100000#32),
    unary main_c_6 main_v28 (broadcastInDim S1200000 ![] bcast_S_S1200000 : (⟨S_, .i32⟩ : BufTy).Contents (Elt F) → (⟨S1200000, .i32⟩ : BufTy).Contents (Elt F)),
    binary main_v7 main_v28 main_v29 (addi : (⟨S1200000, .i32⟩ : BufTy).Contents (Elt F) → (⟨S1200000, .i32⟩ : BufTy).Contents (Elt F) → (⟨S1200000, .i32⟩ : BufTy).Contents (Elt F)),
    ternary main_v27 main_v29 main_v7 main_v30 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v30 main_v31 (broadcastInDim S1200000x1 ![0] bcast_S1200000_S1200000x1_0 : (⟨S1200000, .i32⟩ : BufTy).Contents (Elt F) → (⟨S1200000x1, .i32⟩ : BufTy).Contents (Elt F)),
    binary main_v17 main_v31 main_v32 ((fun x i => Host.gather gather_S100000_S1200000x1_S1200000_n_0_n_n_0_1_1 x i) : (⟨S100000, .f32⟩ : BufTy).Contents (Elt F) → (⟨S1200000x1, .i32⟩ : BufTy).Contents (Elt F) → (⟨S1200000, .f32⟩ : BufTy).Contents (Elt F)),
    binary main_v25 main_v32 main_v33 (mulf : (⟨S1200000, .f32⟩ : BufTy).Contents (Elt F) → (⟨S1200000, .f32⟩ : BufTy).Contents (Elt F) → (⟨S1200000, .f32⟩ : BufTy).Contents (Elt F)) ]

/-- The first layer. -/
abbrev opsL1 : List (HloOp τ sig (Elt F)) :=
  [ unary main_arg2 main_v34 ((extractStridedSlice S1x3x64x64 ![0, 0, 0, 0] · slices_S3x3x64x64_S1x3x64x64_0_0_0_0) : (⟨S3x3x64x64, .f32⟩ : BufTy).Contents (Elt F) → (⟨S1x3x64x64, .f32⟩ : BufTy).Contents (Elt F)),
    reshape main_v34 main_v35 rfl shapeCasts_S1x3x64x64_S3x64x64,
    unary main_arg3 main_v36 ((extractStridedSlice S1x64 ![0, 0] · slices_S3x64_S1x64_0_0) : (⟨S3x64, .f32⟩ : BufTy).Contents (Elt F) → (⟨S1x64, .f32⟩ : BufTy).Contents (Elt F)),
    reshape main_v36 main_v37 rfl shapeCasts_S1x64_S64,
    unary main_v35 main_v38 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v38 main_v39 rfl shapeCasts_S1x64x64_S64x64,
    binary main_arg0 main_v39 main_v40 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_v33 main_v41 (broadcastInDim S1200000x1 ![0] bcast_S1200000_S1200000x1_0 : (⟨S1200000, .f32⟩ : BufTy).Contents (Elt F) → (⟨S1200000x1, .f32⟩ : BufTy).Contents (Elt F)),
    nullary main_c_7 (constantI S_ 32 0#32),
    unary main_c_7 main_v42 (broadcastInDim S1200000 ![] bcast_S_S1200000 : (⟨S_, .i32⟩ : BufTy).Contents (Elt F) → (⟨S1200000, .i32⟩ : BufTy).Contents (Elt F)),
    binary main_v1 main_v42 main_v43 (cmpi .slt : (⟨S1200000, .i32⟩ : BufTy).Contents (Elt F) → (⟨S1200000, .i32⟩ : BufTy).Contents (Elt F) → (⟨S1200000, .i1⟩ : BufTy).Contents (Elt F)),
    nullary main_c_8 (constantI S_ 32 100000#32),
    unary main_c_8 main_v44 (broadcastInDim S1200000 ![] bcast_S_S1200000 : (⟨S_, .i32⟩ : BufTy).Contents (Elt F) → (⟨S1200000, .i32⟩ : BufTy).Contents (Elt F)),
    binary main_v1 main_v44 main_v45 (addi : (⟨S1200000, .i32⟩ : BufTy).Contents (Elt F) → (⟨S1200000, .i32⟩ : BufTy).Contents (Elt F) → (⟨S1200000, .i32⟩ : BufTy).Contents (Elt F)),
    ternary main_v43 main_v45 main_v1 main_v46 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v46 main_v47 (broadcastInDim S1200000x1 ![0] bcast_S1200000_S1200000x1_0 : (⟨S1200000, .i32⟩ : BufTy).Contents (Elt F) → (⟨S1200000x1, .i32⟩ : BufTy).Contents (Elt F)),
    binary main_arg0 main_v47 main_v48 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    unary main_v41 main_v49 (broadcastInDim S1200000x64 ![0, 1] bcast_S1200000x1_S1200000x64_0_1 : (⟨S1200000x1, .f32⟩ : BufTy).Contents (Elt F) → (⟨S1200000x64, .f32⟩ : BufTy).Contents (Elt F)),
    binary main_v49 main_v48 main_v50 (mulf : (⟨S1200000x64, .f32⟩ : BufTy).Contents (Elt F) → (⟨S1200000x64, .f32⟩ : BufTy).Contents (Elt F) → (⟨S1200000x64, .f32⟩ : BufTy).Contents (Elt F)),
    nullary main_cst_9 (constant S_ .f32 0x00000000#32),
    unary main_cst_9 main_v51 (broadcastInDim S100000x64 ![] bcast_S_S100000x64 : (⟨S_, .f32⟩ : BufTy).Contents (Elt F) → (⟨S100000x64, .f32⟩ : BufTy).Contents (Elt F)),
    unary main_v3 main_v52 (broadcastInDim S1200000x1 ![0] bcast_S1200000_S1200000x1_0 : (⟨S1200000, .i32⟩ : BufTy).Contents (Elt F) → (⟨S1200000x1, .i32⟩ : BufTy).Contents (Elt F)),
    ternary main_v51 main_v52 main_v50 main_v53 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    unary main_v35 main_v54 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v54 main_v55 rfl shapeCasts_S1x64x64_S64x64,
    binary main_v53 main_v55 main_v56 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v40 main_v56 main_v57 (addf : (⟨S100000x64, .f32⟩ : BufTy).Contents (Elt F) → (⟨S100000x64, .f32⟩ : BufTy).Contents (Elt F) → (⟨S100000x64, .f32⟩ : BufTy).Contents (Elt F)),
    unary main_v33 main_v58 (broadcastInDim S1200000x1 ![0] bcast_S1200000_S1200000x1_0 : (⟨S1200000, .f32⟩ : BufTy).Contents (Elt F) → (⟨S1200000x1, .f32⟩ : BufTy).Contents (Elt F)),
    nullary main_c_10 (constantI S_ 32 0#32),
    unary main_c_10 main_v59 (broadcastInDim S1200000 ![] bcast_S_S1200000 : (⟨S_, .i32⟩ : BufTy).Contents (Elt F) → (⟨S1200000, .i32⟩ : BufTy).Contents (Elt F)),
    binary main_v1 main_v59 main_v60 (cmpi .slt : (⟨S1200000, .i32⟩ : BufTy).Contents (Elt F) → (⟨S1200000, .i32⟩ : BufTy).Contents (Elt F) → (⟨S1200000, .i1⟩ : BufTy).Contents (Elt F)),
    nullary main_c_11 (constantI S_ 32 100000#32),
    unary main_c_11 main_v61 (broadcastInDim S1200000 ![] bcast_S_S1200000 : (⟨S_, .i32⟩ : BufTy).Contents (Elt F) → (⟨S1200000, .i32⟩ : BufTy).Contents (Elt F)),
    binary main_v1 main_v61 main_v62 (addi : (⟨S1200000, .i32⟩ : BufTy).Contents (Elt F) → (⟨S1200000, .i32⟩ : BufTy).Contents (Elt F) → (⟨S1200000, .i32⟩ : BufTy).Contents (Elt F)),
    ternary main_v60 main_v62 main_v1 main_v63 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v63 main_v64 (broadcastInDim S1200000x1 ![0] bcast_S1200000_S1200000x1_0 : (⟨S1200000, .i32⟩ : BufTy).Contents (Elt F) → (⟨S1200000x1, .i32⟩ : BufTy).Contents (Elt F)),
    binary main_v53 main_v64 main_v65 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    unary main_v58 main_v66 (broadcastInDim S1200000x64 ![0, 1] bcast_S1200000x1_S1200000x64_0_1 : (⟨S1200000x1, .f32⟩ : BufTy).Contents (Elt F) → (⟨S1200000x64, .f32⟩ : BufTy).Contents (Elt F)),
    binary main_v66 main_v65 main_v67 (mulf : (⟨S1200000x64, .f32⟩ : BufTy).Contents (Elt F) → (⟨S1200000x64, .f32⟩ : BufTy).Contents (Elt F) → (⟨S1200000x64, .f32⟩ : BufTy).Contents (Elt F)),
    nullary main_cst_12 (constant S_ .f32 0x00000000#32),
    unary main_cst_12 main_v68 (broadcastInDim S100000x64 ![] bcast_S_S100000x64 : (⟨S_, .f32⟩ : BufTy).Contents (Elt F) → (⟨S100000x64, .f32⟩ : BufTy).Contents (Elt F)),
    unary main_v3 main_v69 (broadcastInDim S1200000x1 ![0] bcast_S1200000_S1200000x1_0 : (⟨S1200000, .i32⟩ : BufTy).Contents (Elt F) → (⟨S1200000x1, .i32⟩ : BufTy).Contents (Elt F)),
    ternary main_v68 main_v69 main_v67 main_v70 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    nullary main_cst_13 (constant S_ .f32 0x40000000#32),
    unary main_cst_13 main_v71 (broadcastInDim S100000x64 ![] bcast_S_S100000x64 : (⟨S_, .f32⟩ : BufTy).Contents (Elt F) → (⟨S100000x64, .f32⟩ : BufTy).Contents (Elt F)),
    binary main_v71 main_v70 main_v72 (mulf : (⟨S100000x64, .f32⟩ : BufTy).Contents (Elt F) → (⟨S100000x64, .f32⟩ : BufTy).Contents (Elt F) → (⟨S100000x64, .f32⟩ : BufTy).Contents (Elt F)),
    binary main_v72 main_arg0 main_v73 (subf : (⟨S100000x64, .f32⟩ : BufTy).Contents (Elt F) → (⟨S100000x64, .f32⟩ : BufTy).Contents (Elt F) → (⟨S100000x64, .f32⟩ : BufTy).Contents (Elt F)),
    unary main_v35 main_v74 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v74 main_v75 rfl shapeCasts_S1x64x64_S64x64,
    binary main_v73 main_v75 main_v76 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v57 main_v76 main_v77 (addf : (⟨S100000x64, .f32⟩ : BufTy).Contents (Elt F) → (⟨S100000x64, .f32⟩ : BufTy).Contents (Elt F) → (⟨S100000x64, .f32⟩ : BufTy).Contents (Elt F)),
    unary main_v37 main_v78 (broadcastInDim S1x64 ![1] bcast_S64_S1x64_1 : (⟨S64, .f32⟩ : BufTy).Contents (Elt F) → (⟨S1x64, .f32⟩ : BufTy).Contents (Elt F)),
    unary main_v78 main_v79 (broadcastInDim S100000x64 ![0, 1] bcast_S1x64_S100000x64_0_1 : (⟨S1x64, .f32⟩ : BufTy).Contents (Elt F) → (⟨S100000x64, .f32⟩ : BufTy).Contents (Elt F)),
    binary main_v77 main_v79 main_v80 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v80) (TRef.of (T := ⟨S100000x64, .f32⟩) main_call1_v0) (TRef.of (T := ⟨S100000x64, .f32⟩) main_v81) maximumf ]

/-- The second layer. -/
abbrev opsL2 : List (HloOp τ sig (Elt F)) :=
  [ unary main_arg2 main_v82 ((extractStridedSlice S1x3x64x64 ![1, 0, 0, 0] · slices_S3x3x64x64_S1x3x64x64_1_0_0_0) : (⟨S3x3x64x64, .f32⟩ : BufTy).Contents (Elt F) → (⟨S1x3x64x64, .f32⟩ : BufTy).Contents (Elt F)),
    reshape main_v82 main_v83 rfl shapeCasts_S1x3x64x64_S3x64x64,
    unary main_arg3 main_v84 ((extractStridedSlice S1x64 ![1, 0] · slices_S3x64_S1x64_1_0) : (⟨S3x64, .f32⟩ : BufTy).Contents (Elt F) → (⟨S1x64, .f32⟩ : BufTy).Contents (Elt F)),
    reshape main_v84 main_v85 rfl shapeCasts_S1x64_S64,
    unary main_v83 main_v86 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v86 main_v87 rfl shapeCasts_S1x64x64_S64x64,
    binary main_v81 main_v87 main_v88 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_v33 main_v89 (broadcastInDim S1200000x1 ![0] bcast_S1200000_S1200000x1_0 : (⟨S1200000, .f32⟩ : BufTy).Contents (Elt F) → (⟨S1200000x1, .f32⟩ : BufTy).Contents (Elt F)),
    nullary main_c_14 (constantI S_ 32 0#32),
    unary main_c_14 main_v90 (broadcastInDim S1200000 ![] bcast_S_S1200000 : (⟨S_, .i32⟩ : BufTy).Contents (Elt F) → (⟨S1200000, .i32⟩ : BufTy).Contents (Elt F)),
    binary main_v1 main_v90 main_v91 (cmpi .slt : (⟨S1200000, .i32⟩ : BufTy).Contents (Elt F) → (⟨S1200000, .i32⟩ : BufTy).Contents (Elt F) → (⟨S1200000, .i1⟩ : BufTy).Contents (Elt F)),
    nullary main_c_15 (constantI S_ 32 100000#32),
    unary main_c_15 main_v92 (broadcastInDim S1200000 ![] bcast_S_S1200000 : (⟨S_, .i32⟩ : BufTy).Contents (Elt F) → (⟨S1200000, .i32⟩ : BufTy).Contents (Elt F)),
    binary main_v1 main_v92 main_v93 (addi : (⟨S1200000, .i32⟩ : BufTy).Contents (Elt F) → (⟨S1200000, .i32⟩ : BufTy).Contents (Elt F) → (⟨S1200000, .i32⟩ : BufTy).Contents (Elt F)),
    ternary main_v91 main_v93 main_v1 main_v94 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v94 main_v95 (broadcastInDim S1200000x1 ![0] bcast_S1200000_S1200000x1_0 : (⟨S1200000, .i32⟩ : BufTy).Contents (Elt F) → (⟨S1200000x1, .i32⟩ : BufTy).Contents (Elt F)),
    binary main_v81 main_v95 main_v96 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    unary main_v89 main_v97 (broadcastInDim S1200000x64 ![0, 1] bcast_S1200000x1_S1200000x64_0_1 : (⟨S1200000x1, .f32⟩ : BufTy).Contents (Elt F) → (⟨S1200000x64, .f32⟩ : BufTy).Contents (Elt F)),
    binary main_v97 main_v96 main_v98 (mulf : (⟨S1200000x64, .f32⟩ : BufTy).Contents (Elt F) → (⟨S1200000x64, .f32⟩ : BufTy).Contents (Elt F) → (⟨S1200000x64, .f32⟩ : BufTy).Contents (Elt F)),
    nullary main_cst_16 (constant S_ .f32 0x00000000#32),
    unary main_cst_16 main_v99 (broadcastInDim S100000x64 ![] bcast_S_S100000x64 : (⟨S_, .f32⟩ : BufTy).Contents (Elt F) → (⟨S100000x64, .f32⟩ : BufTy).Contents (Elt F)),
    unary main_v3 main_v100 (broadcastInDim S1200000x1 ![0] bcast_S1200000_S1200000x1_0 : (⟨S1200000, .i32⟩ : BufTy).Contents (Elt F) → (⟨S1200000x1, .i32⟩ : BufTy).Contents (Elt F)),
    ternary main_v99 main_v100 main_v98 main_v101 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    unary main_v83 main_v102 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v102 main_v103 rfl shapeCasts_S1x64x64_S64x64,
    binary main_v101 main_v103 main_v104 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v88 main_v104 main_v105 (addf : (⟨S100000x64, .f32⟩ : BufTy).Contents (Elt F) → (⟨S100000x64, .f32⟩ : BufTy).Contents (Elt F) → (⟨S100000x64, .f32⟩ : BufTy).Contents (Elt F)),
    unary main_v33 main_v106 (broadcastInDim S1200000x1 ![0] bcast_S1200000_S1200000x1_0 : (⟨S1200000, .f32⟩ : BufTy).Contents (Elt F) → (⟨S1200000x1, .f32⟩ : BufTy).Contents (Elt F)),
    nullary main_c_17 (constantI S_ 32 0#32),
    unary main_c_17 main_v107 (broadcastInDim S1200000 ![] bcast_S_S1200000 : (⟨S_, .i32⟩ : BufTy).Contents (Elt F) → (⟨S1200000, .i32⟩ : BufTy).Contents (Elt F)),
    binary main_v1 main_v107 main_v108 (cmpi .slt : (⟨S1200000, .i32⟩ : BufTy).Contents (Elt F) → (⟨S1200000, .i32⟩ : BufTy).Contents (Elt F) → (⟨S1200000, .i1⟩ : BufTy).Contents (Elt F)),
    nullary main_c_18 (constantI S_ 32 100000#32),
    unary main_c_18 main_v109 (broadcastInDim S1200000 ![] bcast_S_S1200000 : (⟨S_, .i32⟩ : BufTy).Contents (Elt F) → (⟨S1200000, .i32⟩ : BufTy).Contents (Elt F)),
    binary main_v1 main_v109 main_v110 (addi : (⟨S1200000, .i32⟩ : BufTy).Contents (Elt F) → (⟨S1200000, .i32⟩ : BufTy).Contents (Elt F) → (⟨S1200000, .i32⟩ : BufTy).Contents (Elt F)),
    ternary main_v108 main_v110 main_v1 main_v111 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v111 main_v112 (broadcastInDim S1200000x1 ![0] bcast_S1200000_S1200000x1_0 : (⟨S1200000, .i32⟩ : BufTy).Contents (Elt F) → (⟨S1200000x1, .i32⟩ : BufTy).Contents (Elt F)),
    binary main_v101 main_v112 main_v113 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    unary main_v106 main_v114 (broadcastInDim S1200000x64 ![0, 1] bcast_S1200000x1_S1200000x64_0_1 : (⟨S1200000x1, .f32⟩ : BufTy).Contents (Elt F) → (⟨S1200000x64, .f32⟩ : BufTy).Contents (Elt F)),
    binary main_v114 main_v113 main_v115 (mulf : (⟨S1200000x64, .f32⟩ : BufTy).Contents (Elt F) → (⟨S1200000x64, .f32⟩ : BufTy).Contents (Elt F) → (⟨S1200000x64, .f32⟩ : BufTy).Contents (Elt F)),
    nullary main_cst_19 (constant S_ .f32 0x00000000#32),
    unary main_cst_19 main_v116 (broadcastInDim S100000x64 ![] bcast_S_S100000x64 : (⟨S_, .f32⟩ : BufTy).Contents (Elt F) → (⟨S100000x64, .f32⟩ : BufTy).Contents (Elt F)),
    unary main_v3 main_v117 (broadcastInDim S1200000x1 ![0] bcast_S1200000_S1200000x1_0 : (⟨S1200000, .i32⟩ : BufTy).Contents (Elt F) → (⟨S1200000x1, .i32⟩ : BufTy).Contents (Elt F)),
    ternary main_v116 main_v117 main_v115 main_v118 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    nullary main_cst_20 (constant S_ .f32 0x40000000#32),
    unary main_cst_20 main_v119 (broadcastInDim S100000x64 ![] bcast_S_S100000x64 : (⟨S_, .f32⟩ : BufTy).Contents (Elt F) → (⟨S100000x64, .f32⟩ : BufTy).Contents (Elt F)),
    binary main_v119 main_v118 main_v120 (mulf : (⟨S100000x64, .f32⟩ : BufTy).Contents (Elt F) → (⟨S100000x64, .f32⟩ : BufTy).Contents (Elt F) → (⟨S100000x64, .f32⟩ : BufTy).Contents (Elt F)),
    binary main_v120 main_v81 main_v121 (subf : (⟨S100000x64, .f32⟩ : BufTy).Contents (Elt F) → (⟨S100000x64, .f32⟩ : BufTy).Contents (Elt F) → (⟨S100000x64, .f32⟩ : BufTy).Contents (Elt F)),
    unary main_v83 main_v122 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v122 main_v123 rfl shapeCasts_S1x64x64_S64x64,
    binary main_v121 main_v123 main_v124 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v105 main_v124 main_v125 (addf : (⟨S100000x64, .f32⟩ : BufTy).Contents (Elt F) → (⟨S100000x64, .f32⟩ : BufTy).Contents (Elt F) → (⟨S100000x64, .f32⟩ : BufTy).Contents (Elt F)),
    unary main_v85 main_v126 (broadcastInDim S1x64 ![1] bcast_S64_S1x64_1 : (⟨S64, .f32⟩ : BufTy).Contents (Elt F) → (⟨S1x64, .f32⟩ : BufTy).Contents (Elt F)),
    unary main_v126 main_v127 (broadcastInDim S100000x64 ![0, 1] bcast_S1x64_S100000x64_0_1 : (⟨S1x64, .f32⟩ : BufTy).Contents (Elt F) → (⟨S100000x64, .f32⟩ : BufTy).Contents (Elt F)),
    binary main_v125 main_v127 main_v128 (addf : (⟨S100000x64, .f32⟩ : BufTy).Contents (Elt F) → (⟨S100000x64, .f32⟩ : BufTy).Contents (Elt F) → (⟨S100000x64, .f32⟩ : BufTy).Contents (Elt F)),
    binary main_v128 main_v81 main_v129 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v129) (TRef.of (T := ⟨S100000x64, .f32⟩) main_call2_v0) (TRef.of (T := ⟨S100000x64, .f32⟩) main_v130) maximumf ]

/-- The third layer. -/
abbrev opsL3 : List (HloOp τ sig (Elt F)) :=
  [ unary main_arg2 main_v131 ((extractStridedSlice S1x3x64x64 ![2, 0, 0, 0] · slices_S3x3x64x64_S1x3x64x64_2_0_0_0) : (⟨S3x3x64x64, .f32⟩ : BufTy).Contents (Elt F) → (⟨S1x3x64x64, .f32⟩ : BufTy).Contents (Elt F)),
    reshape main_v131 main_v132 rfl shapeCasts_S1x3x64x64_S3x64x64,
    unary main_arg3 main_v133 ((extractStridedSlice S1x64 ![2, 0] · slices_S3x64_S1x64_2_0) : (⟨S3x64, .f32⟩ : BufTy).Contents (Elt F) → (⟨S1x64, .f32⟩ : BufTy).Contents (Elt F)),
    reshape main_v133 main_v134 rfl shapeCasts_S1x64_S64,
    unary main_v132 main_v135 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v135 main_v136 rfl shapeCasts_S1x64x64_S64x64,
    binary main_v130 main_v136 main_v137 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_v33 main_v138 (broadcastInDim S1200000x1 ![0] bcast_S1200000_S1200000x1_0 : (⟨S1200000, .f32⟩ : BufTy).Contents (Elt F) → (⟨S1200000x1, .f32⟩ : BufTy).Contents (Elt F)),
    nullary main_c_21 (constantI S_ 32 0#32),
    unary main_c_21 main_v139 (broadcastInDim S1200000 ![] bcast_S_S1200000 : (⟨S_, .i32⟩ : BufTy).Contents (Elt F) → (⟨S1200000, .i32⟩ : BufTy).Contents (Elt F)),
    binary main_v1 main_v139 main_v140 (cmpi .slt : (⟨S1200000, .i32⟩ : BufTy).Contents (Elt F) → (⟨S1200000, .i32⟩ : BufTy).Contents (Elt F) → (⟨S1200000, .i1⟩ : BufTy).Contents (Elt F)),
    nullary main_c_22 (constantI S_ 32 100000#32),
    unary main_c_22 main_v141 (broadcastInDim S1200000 ![] bcast_S_S1200000 : (⟨S_, .i32⟩ : BufTy).Contents (Elt F) → (⟨S1200000, .i32⟩ : BufTy).Contents (Elt F)),
    binary main_v1 main_v141 main_v142 (addi : (⟨S1200000, .i32⟩ : BufTy).Contents (Elt F) → (⟨S1200000, .i32⟩ : BufTy).Contents (Elt F) → (⟨S1200000, .i32⟩ : BufTy).Contents (Elt F)),
    ternary main_v140 main_v142 main_v1 main_v143 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v143 main_v144 (broadcastInDim S1200000x1 ![0] bcast_S1200000_S1200000x1_0 : (⟨S1200000, .i32⟩ : BufTy).Contents (Elt F) → (⟨S1200000x1, .i32⟩ : BufTy).Contents (Elt F)),
    binary main_v130 main_v144 main_v145 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    unary main_v138 main_v146 (broadcastInDim S1200000x64 ![0, 1] bcast_S1200000x1_S1200000x64_0_1 : (⟨S1200000x1, .f32⟩ : BufTy).Contents (Elt F) → (⟨S1200000x64, .f32⟩ : BufTy).Contents (Elt F)),
    binary main_v146 main_v145 main_v147 (mulf : (⟨S1200000x64, .f32⟩ : BufTy).Contents (Elt F) → (⟨S1200000x64, .f32⟩ : BufTy).Contents (Elt F) → (⟨S1200000x64, .f32⟩ : BufTy).Contents (Elt F)),
    nullary main_cst_23 (constant S_ .f32 0x00000000#32),
    unary main_cst_23 main_v148 (broadcastInDim S100000x64 ![] bcast_S_S100000x64 : (⟨S_, .f32⟩ : BufTy).Contents (Elt F) → (⟨S100000x64, .f32⟩ : BufTy).Contents (Elt F)),
    unary main_v3 main_v149 (broadcastInDim S1200000x1 ![0] bcast_S1200000_S1200000x1_0 : (⟨S1200000, .i32⟩ : BufTy).Contents (Elt F) → (⟨S1200000x1, .i32⟩ : BufTy).Contents (Elt F)),
    ternary main_v148 main_v149 main_v147 main_v150 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    unary main_v132 main_v151 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v151 main_v152 rfl shapeCasts_S1x64x64_S64x64,
    binary main_v150 main_v152 main_v153 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v137 main_v153 main_v154 (addf : (⟨S100000x64, .f32⟩ : BufTy).Contents (Elt F) → (⟨S100000x64, .f32⟩ : BufTy).Contents (Elt F) → (⟨S100000x64, .f32⟩ : BufTy).Contents (Elt F)),
    unary main_v33 main_v155 (broadcastInDim S1200000x1 ![0] bcast_S1200000_S1200000x1_0 : (⟨S1200000, .f32⟩ : BufTy).Contents (Elt F) → (⟨S1200000x1, .f32⟩ : BufTy).Contents (Elt F)),
    nullary main_c_24 (constantI S_ 32 0#32),
    unary main_c_24 main_v156 (broadcastInDim S1200000 ![] bcast_S_S1200000 : (⟨S_, .i32⟩ : BufTy).Contents (Elt F) → (⟨S1200000, .i32⟩ : BufTy).Contents (Elt F)),
    binary main_v1 main_v156 main_v157 (cmpi .slt : (⟨S1200000, .i32⟩ : BufTy).Contents (Elt F) → (⟨S1200000, .i32⟩ : BufTy).Contents (Elt F) → (⟨S1200000, .i1⟩ : BufTy).Contents (Elt F)),
    nullary main_c_25 (constantI S_ 32 100000#32),
    unary main_c_25 main_v158 (broadcastInDim S1200000 ![] bcast_S_S1200000 : (⟨S_, .i32⟩ : BufTy).Contents (Elt F) → (⟨S1200000, .i32⟩ : BufTy).Contents (Elt F)),
    binary main_v1 main_v158 main_v159 (addi : (⟨S1200000, .i32⟩ : BufTy).Contents (Elt F) → (⟨S1200000, .i32⟩ : BufTy).Contents (Elt F) → (⟨S1200000, .i32⟩ : BufTy).Contents (Elt F)),
    ternary main_v157 main_v159 main_v1 main_v160 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v160 main_v161 (broadcastInDim S1200000x1 ![0] bcast_S1200000_S1200000x1_0 : (⟨S1200000, .i32⟩ : BufTy).Contents (Elt F) → (⟨S1200000x1, .i32⟩ : BufTy).Contents (Elt F)),
    binary main_v150 main_v161 main_v162 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    unary main_v155 main_v163 (broadcastInDim S1200000x64 ![0, 1] bcast_S1200000x1_S1200000x64_0_1 : (⟨S1200000x1, .f32⟩ : BufTy).Contents (Elt F) → (⟨S1200000x64, .f32⟩ : BufTy).Contents (Elt F)),
    binary main_v163 main_v162 main_v164 (mulf : (⟨S1200000x64, .f32⟩ : BufTy).Contents (Elt F) → (⟨S1200000x64, .f32⟩ : BufTy).Contents (Elt F) → (⟨S1200000x64, .f32⟩ : BufTy).Contents (Elt F)),
    nullary main_cst_26 (constant S_ .f32 0x00000000#32),
    unary main_cst_26 main_v165 (broadcastInDim S100000x64 ![] bcast_S_S100000x64 : (⟨S_, .f32⟩ : BufTy).Contents (Elt F) → (⟨S100000x64, .f32⟩ : BufTy).Contents (Elt F)),
    unary main_v3 main_v166 (broadcastInDim S1200000x1 ![0] bcast_S1200000_S1200000x1_0 : (⟨S1200000, .i32⟩ : BufTy).Contents (Elt F) → (⟨S1200000x1, .i32⟩ : BufTy).Contents (Elt F)),
    ternary main_v165 main_v166 main_v164 main_v167 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    nullary main_cst_27 (constant S_ .f32 0x40000000#32),
    unary main_cst_27 main_v168 (broadcastInDim S100000x64 ![] bcast_S_S100000x64 : (⟨S_, .f32⟩ : BufTy).Contents (Elt F) → (⟨S100000x64, .f32⟩ : BufTy).Contents (Elt F)),
    binary main_v168 main_v167 main_v169 (mulf : (⟨S100000x64, .f32⟩ : BufTy).Contents (Elt F) → (⟨S100000x64, .f32⟩ : BufTy).Contents (Elt F) → (⟨S100000x64, .f32⟩ : BufTy).Contents (Elt F)),
    binary main_v169 main_v130 main_v170 (subf : (⟨S100000x64, .f32⟩ : BufTy).Contents (Elt F) → (⟨S100000x64, .f32⟩ : BufTy).Contents (Elt F) → (⟨S100000x64, .f32⟩ : BufTy).Contents (Elt F)),
    unary main_v132 main_v171 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v171 main_v172 rfl shapeCasts_S1x64x64_S64x64,
    binary main_v170 main_v172 main_v173 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v154 main_v173 main_v174 (addf : (⟨S100000x64, .f32⟩ : BufTy).Contents (Elt F) → (⟨S100000x64, .f32⟩ : BufTy).Contents (Elt F) → (⟨S100000x64, .f32⟩ : BufTy).Contents (Elt F)),
    unary main_v134 main_v175 (broadcastInDim S1x64 ![1] bcast_S64_S1x64_1 : (⟨S64, .f32⟩ : BufTy).Contents (Elt F) → (⟨S1x64, .f32⟩ : BufTy).Contents (Elt F)),
    unary main_v175 main_v176 (broadcastInDim S100000x64 ![0, 1] bcast_S1x64_S100000x64_0_1 : (⟨S1x64, .f32⟩ : BufTy).Contents (Elt F) → (⟨S100000x64, .f32⟩ : BufTy).Contents (Elt F)),
    binary main_v174 main_v176 main_v177 (addf : (⟨S100000x64, .f32⟩ : BufTy).Contents (Elt F) → (⟨S100000x64, .f32⟩ : BufTy).Contents (Elt F) → (⟨S100000x64, .f32⟩ : BufTy).Contents (Elt F)),
    binary main_v177 main_v130 main_v178 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x64, .f32⟩) main_call3_v0) (broadcastInDim S100000x64 ![] bcast_S_S100000x64),
    TRef.binary (TRef.of (T := ⟨S100000x64, .f32⟩) main_v178) (TRef.of (T := ⟨S100000x64, .f32⟩) main_call3_v0) (TRef.of (T := ⟨S100000x64, .f32⟩) main_v179) maximumf ]

/-- All of @main. -/
abbrev ops : List (HloOp τ sig (Elt F)) := opsN ++ (opsL1 ++ (opsL2 ++ opsL3))

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem opsN_sub : (opsN : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
theorem opsL1_sub : (opsL1 : List (HloOp τ sig (Elt F))).Forall fun op => op.bufs ⊆ tcRefs τ sig :=
  ⟨unary_bufs_sub .., reshape_bufs_sub .., unary_bufs_sub .., reshape_bufs_sub .., unary_bufs_sub .., reshape_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., reshape_bufs_sub .., binary_bufs_sub .., binary_bufs_sub .., unary_bufs_sub .., unary_bufs_sub .., binary_bufs_sub .., nullary_bufs_sub .., unary_bufs_sub .., binary_bufs_sub ..⟩
theorem opsL2_sub : (opsL2 : List (HloOp τ sig (Elt F))).Forall fun op => op.bufs ⊆ tcRefs τ sig :=
  ⟨unary_bufs_sub .., reshape_bufs_sub .., unary_bufs_sub .., reshape_bufs_sub .., unary_bufs_sub .., reshape_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., reshape_bufs_sub .., binary_bufs_sub .., binary_bufs_sub .., unary_bufs_sub .., unary_bufs_sub .., binary_bufs_sub .., binary_bufs_sub .., nullary_bufs_sub .., unary_bufs_sub .., binary_bufs_sub ..⟩
theorem opsL3_sub : (opsL3 : List (HloOp τ sig (Elt F))).Forall fun op => op.bufs ⊆ tcRefs τ sig :=
  ⟨unary_bufs_sub .., reshape_bufs_sub .., unary_bufs_sub .., reshape_bufs_sub .., unary_bufs_sub .., reshape_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., reshape_bufs_sub .., binary_bufs_sub .., binary_bufs_sub .., unary_bufs_sub .., unary_bufs_sub .., binary_bufs_sub .., binary_bufs_sub .., nullary_bufs_sub .., unary_bufs_sub .., binary_bufs_sub ..⟩
theorem ops_sub : (ops : List (HloOp τ sig (Elt F))).Forall fun op => op.bufs ⊆ tcRefs τ sig :=
  List.forall_append.mpr ⟨opsN_sub, List.forall_append.mpr ⟨opsL1_sub, List.forall_append.mpr ⟨opsL2_sub, opsL3_sub⟩⟩⟩

/-- The fold over two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

-- the scatters and gathers stay folded: the two sides agree on them operand by operand
attribute [local irreducible] Host.scatterAdd Host.gather

/-! ## The first part: the index rows and the edges' weights -/

theorem N_src (W : Valuation τ sig (Elt F)) :
    after (opsN (F := F)) W (Proc.devRef .tc main_v1) = src (W (Proc.devRef .tc main_arg1)) := by
  unfold src
  dsimp only [opsN]
  after_results_simp
  rfl

theorem N_dst (W : Valuation τ sig (Elt F)) :
    after (opsN (F := F)) W (Proc.devRef .tc main_v3) = dst (W (Proc.devRef .tc main_arg1)) := by
  unfold dst
  dsimp only [opsN]
  after_results_simp
  rfl

theorem N_nrm (W : Valuation τ sig (Elt F)) :
    after (opsN (F := F)) W (Proc.devRef .tc main_v33) = nrm (W (Proc.devRef .tc main_arg1)) := by
  unfold nrm dis deg wrapCol src dst
  dsimp only [opsN]
  after_results_simp
  rfl

theorem N_arg0 (W : Valuation τ sig (Elt F)) :
    after (opsN (F := F)) W (Proc.devRef .tc main_arg0) = (W (Proc.devRef .tc main_arg0)) := by
  dsimp only [opsN]
  after_results_simp

theorem N_arg1 (W : Valuation τ sig (Elt F)) :
    after (opsN (F := F)) W (Proc.devRef .tc main_arg1) = (W (Proc.devRef .tc main_arg1)) := by
  dsimp only [opsN]
  after_results_simp

theorem N_arg2 (W : Valuation τ sig (Elt F)) :
    after (opsN (F := F)) W (Proc.devRef .tc main_arg2) = (W (Proc.devRef .tc main_arg2)) := by
  dsimp only [opsN]
  after_results_simp

theorem N_arg3 (W : Valuation τ sig (Elt F)) :
    after (opsN (F := F)) W (Proc.devRef .tc main_arg3) = (W (Proc.devRef .tc main_arg3)) := by
  dsimp only [opsN]
  after_results_simp

/-! ## The layers -/

theorem L1_h (W : Valuation τ sig (Elt F)) :
    after (opsL1 (F := F)) W (Proc.devRef .tc main_v81) = layer0 (W (Proc.devRef .tc main_v33)) (W (Proc.devRef .tc main_v1)) (W (Proc.devRef .tc main_v3)) (W (Proc.devRef .tc main_arg0)) (w0 (W (Proc.devRef .tc main_arg2))) (b0 (W (Proc.devRef .tc main_arg3))) := by
  unfold layer0 w0 b0 relu affine cheb2 prop wrapCol wstack bvec
  dsimp only [opsL1]
  after_results_simp
  rfl

theorem L1_src (W : Valuation τ sig (Elt F)) :
    after (opsL1 (F := F)) W (Proc.devRef .tc main_v1) = (W (Proc.devRef .tc main_v1)) := by
  dsimp only [opsL1]
  after_results_simp

theorem L1_dst (W : Valuation τ sig (Elt F)) :
    after (opsL1 (F := F)) W (Proc.devRef .tc main_v3) = (W (Proc.devRef .tc main_v3)) := by
  dsimp only [opsL1]
  after_results_simp

theorem L1_nrm (W : Valuation τ sig (Elt F)) :
    after (opsL1 (F := F)) W (Proc.devRef .tc main_v33) = (W (Proc.devRef .tc main_v33)) := by
  dsimp only [opsL1]
  after_results_simp

theorem L1_arg0 (W : Valuation τ sig (Elt F)) :
    after (opsL1 (F := F)) W (Proc.devRef .tc main_arg0) = (W (Proc.devRef .tc main_arg0)) := by
  dsimp only [opsL1]
  after_results_simp

theorem L1_arg1 (W : Valuation τ sig (Elt F)) :
    after (opsL1 (F := F)) W (Proc.devRef .tc main_arg1) = (W (Proc.devRef .tc main_arg1)) := by
  dsimp only [opsL1]
  after_results_simp

theorem L1_arg2 (W : Valuation τ sig (Elt F)) :
    after (opsL1 (F := F)) W (Proc.devRef .tc main_arg2) = (W (Proc.devRef .tc main_arg2)) := by
  dsimp only [opsL1]
  after_results_simp

theorem L1_arg3 (W : Valuation τ sig (Elt F)) :
    after (opsL1 (F := F)) W (Proc.devRef .tc main_arg3) = (W (Proc.devRef .tc main_arg3)) := by
  dsimp only [opsL1]
  after_results_simp

theorem L2_h (W : Valuation τ sig (Elt F)) :
    after (opsL2 (F := F)) W (Proc.devRef .tc main_v130) = layerS (W (Proc.devRef .tc main_v33)) (W (Proc.devRef .tc main_v1)) (W (Proc.devRef .tc main_v3)) (W (Proc.devRef .tc main_v81)) (w1 (W (Proc.devRef .tc main_arg2))) (b1 (W (Proc.devRef .tc main_arg3))) := by
  unfold layerS w1 b1 relu affine cheb2 prop wrapCol wstack bvec
  dsimp only [opsL2]
  after_results_simp
  rfl

theorem L2_src (W : Valuation τ sig (Elt F)) :
    after (opsL2 (F := F)) W (Proc.devRef .tc main_v1) = (W (Proc.devRef .tc main_v1)) := by
  dsimp only [opsL2]
  after_results_simp

theorem L2_dst (W : Valuation τ sig (Elt F)) :
    after (opsL2 (F := F)) W (Proc.devRef .tc main_v3) = (W (Proc.devRef .tc main_v3)) := by
  dsimp only [opsL2]
  after_results_simp

theorem L2_nrm (W : Valuation τ sig (Elt F)) :
    after (opsL2 (F := F)) W (Proc.devRef .tc main_v33) = (W (Proc.devRef .tc main_v33)) := by
  dsimp only [opsL2]
  after_results_simp

theorem L2_arg0 (W : Valuation τ sig (Elt F)) :
    after (opsL2 (F := F)) W (Proc.devRef .tc main_arg0) = (W (Proc.devRef .tc main_arg0)) := by
  dsimp only [opsL2]
  after_results_simp

theorem L2_arg1 (W : Valuation τ sig (Elt F)) :
    after (opsL2 (F := F)) W (Proc.devRef .tc main_arg1) = (W (Proc.devRef .tc main_arg1)) := by
  dsimp only [opsL2]
  after_results_simp

theorem L2_arg2 (W : Valuation τ sig (Elt F)) :
    after (opsL2 (F := F)) W (Proc.devRef .tc main_arg2) = (W (Proc.devRef .tc main_arg2)) := by
  dsimp only [opsL2]
  after_results_simp

theorem L2_arg3 (W : Valuation τ sig (Elt F)) :
    after (opsL2 (F := F)) W (Proc.devRef .tc main_arg3) = (W (Proc.devRef .tc main_arg3)) := by
  dsimp only [opsL2]
  after_results_simp

theorem L3_h (W : Valuation τ sig (Elt F)) :
    after (opsL3 (F := F)) W (Proc.devRef .tc main_v179) = layerS (W (Proc.devRef .tc main_v33)) (W (Proc.devRef .tc main_v1)) (W (Proc.devRef .tc main_v3)) (W (Proc.devRef .tc main_v130)) (w2 (W (Proc.devRef .tc main_arg2))) (b2 (W (Proc.devRef .tc main_arg3))) := by
  unfold layerS w2 b2 relu affine cheb2 prop wrapCol wstack bvec
  dsimp only [opsL3]
  after_results_simp
  rfl

theorem L3_arg0 (W : Valuation τ sig (Elt F)) :
    after (opsL3 (F := F)) W (Proc.devRef .tc main_arg0) = (W (Proc.devRef .tc main_arg0)) := by
  dsimp only [opsL3]
  after_results_simp

theorem L3_arg1 (W : Valuation τ sig (Elt F)) :
    after (opsL3 (F := F)) W (Proc.devRef .tc main_arg1) = (W (Proc.devRef .tc main_arg1)) := by
  dsimp only [opsL3]
  after_results_simp

theorem L3_arg2 (W : Valuation τ sig (Elt F)) :
    after (opsL3 (F := F)) W (Proc.devRef .tc main_arg2) = (W (Proc.devRef .tc main_arg2)) := by
  dsimp only [opsL3]
  after_results_simp

theorem L3_arg3 (W : Valuation τ sig (Elt F)) :
    after (opsL3 (F := F)) W (Proc.devRef .tc main_arg3) = (W (Proc.devRef .tc main_arg3)) := by
  dsimp only [opsL3]
  after_results_simp

/-! ## Chained -/

theorem after_ops (W : Valuation τ sig (Elt F)) :
    after (ops (F := F)) W = after opsL3 (after opsL2 (after opsL1 (after opsN W))) := by
  show after (opsN ++ (opsL1 ++ (opsL2 ++ opsL3))) W = _
  rw [after_append, after_append, after_append]

/-- The result buffer after all of @main, from any contents: the specification's third layer of the arguments. -/
theorem result_eq (W : Valuation τ sig (Elt F)) :
    after (ops (F := F)) W (Proc.devRef .tc main_v179) = h3 (W (Proc.devRef .tc main_arg0)) (W (Proc.devRef .tc main_arg1)) (W (Proc.devRef .tc main_arg2)) (W (Proc.devRef .tc main_arg3)) := by
  rw [after_ops, L3_h, L2_h, L2_nrm, L2_src, L2_dst, L2_arg2, L2_arg3,
    L1_h, L1_nrm, L1_src, L1_dst, L1_arg2, L1_arg3, N_nrm, N_src, N_dst, N_arg0, N_arg2, N_arg3]
  rfl

theorem kept_arg0 (W : Valuation τ sig (Elt F)) : after (ops (F := F)) W (Proc.devRef .tc main_arg0) = (W (Proc.devRef .tc main_arg0)) := by
  rw [after_ops, L3_arg0, L2_arg0, L1_arg0, N_arg0]
theorem kept_arg1 (W : Valuation τ sig (Elt F)) : after (ops (F := F)) W (Proc.devRef .tc main_arg1) = (W (Proc.devRef .tc main_arg1)) := by
  rw [after_ops, L3_arg1, L2_arg1, L1_arg1, N_arg1]
theorem kept_arg2 (W : Valuation τ sig (Elt F)) : after (ops (F := F)) W (Proc.devRef .tc main_arg2) = (W (Proc.devRef .tc main_arg2)) := by
  rw [after_ops, L3_arg2, L2_arg2, L1_arg2, N_arg2]
theorem kept_arg3 (W : Valuation τ sig (Elt F)) : after (ops (F := F)) W (Proc.devRef .tc main_arg3) = (W (Proc.devRef .tc main_arg3)) := by
  rw [after_ops, L3_arg3, L2_arg3, L1_arg3, N_arg3]

/-! ## The run -/

/-- On every device, for any float values, from any memory with zero counters: every weakly fair execution of @main
    terminates with the result at the specification's third layer of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v179)
        = h3 (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v179).trans (result_eq (launchContents m c)),
      (h c main_arg0).trans (kept_arg0 (launchContents m c)),
      (h c main_arg1).trans (kept_arg1 (launchContents m c)),
      (h c main_arg2).trans (kept_arg2 (launchContents m c)),
      (h c main_arg3).trans (kept_arg3 (launchContents m c))⟩)
    (run_seq scopedRefs_eq scopedSems_eq defs main (fun _ => ops) main_eq (fun _ => ops_sub) m ρ)

end Cert.ReferenceIdeal.RefRun

end
-- ==== Proof.lean ====
/-
  The certificate of the stacked polynomial graph convolution: three layers, each max (T0·W0 + T1·W1 + T2·W2 + bias [+ T0], 0)
  over the input T0 and its two propagations T1, T2 along the normalised edges of a graph.

  The kernel program computes the propagations on the host and the layer's dense part in a kernel region per layer,
  on blocks of 2000 rows; the reference computes everything on the host.  At the ideal values both end with the same
  whole-array function of the four arguments — the specification's third layer (ChebSpec.lean):

  * each region's output array is the whole-array layer of its five input arrays (Region0/1/2.lean: every row of the
    layer depends on the same row of the inputs only, the blocks tile the array; LibChebRows.lean);
  * that whole-array layer is the specification's (LayerBridge.lean: a bias vector recast as a row is the vector
    broadcast along a new leading axis);
  * the host stretches between the regions compute the specification's propagations and cut the layers' weights and
    biases out of the arguments (HostStretches.lean), so the fold of buffer contents through @main's eight segments
    ends with the specification's third layer in the result buffer (KernelRun.lean, KernelValue.lean);
  * the reference's operations, read in four parts, compute the same functions (RefRun.lean).

  The sums are grouped the same way on both sides, so no law of the extended reals is used and the precondition
  (finite inputs) is never opened.  The idealization rewrote nothing, so it preserves trivially.
-/
import proofs.«108330_j58488864637084_1_alg».proof.Defs
import proofs.«108330_j58488864637084_1_alg».proof.Proof.Gen.Kernel
import proofs.«108330_j58488864637084_1_alg».proof.Proof.Gen.Kernel.Frame
import proofs.«108330_j58488864637084_1_alg».proof.Proof.Gen.KernelIdeal
import proofs.«108330_j58488864637084_1_alg».proof.Proof.Gen.KernelIdeal.Frame
import proofs.«108330_j58488864637084_1_alg».proof.Proof.Gen.ReferenceIdeal
import proofs.«108330_j58488864637084_1_alg».proof.Proof.Gen.Pre_finite_inputs
import proofs.«108330_j58488864637084_1_alg».proof.Proof.KernelRun
import proofs.«108330_j58488864637084_1_alg».proof.Proof.KernelValue
import proofs.«108330_j58488864637084_1_alg».proof.Proof.RefRun
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and keeps its arguments. -/
theorem frame_k : Cert.frame_Kernel := fun m ρ _ => Cert.Kernel.Gen.frame m ρ
/-- The idealized kernel program runs and keeps its arguments. -/
theorem frame_ki : Cert.frame_KernelIdeal := fun m ρ _ => Cert.KernelIdeal.Gen.frame m ρ
/-- The idealized reference runs and keeps its arguments: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- At the ideal values both programs end with the specification's third layer of the arguments in their result
    buffers, and the arguments agree. -/
theorem algebraic : Cert.algebraic_KernelIdeal_ReferenceIdeal := by
  intro m ρ m' ρ' _ hagree
  have hk : θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v134)
          = Cert.ReferenceIdeal.Cheb.h3 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :=
    (θ_run Cert.KernelIdeal.defs _ _).mono (fun _ h c => ⟨(h c).1.trans (Cert.KernelIdeal.Fold.result_eq m ρ c), (h c).2⟩)
      (Cert.KernelIdeal.RunValue.run_result (F := Ideal) m ρ)
  refine ⟨_, hk, ?_⟩
  refine (θ_run Cert.ReferenceIdeal.defs _ _).mono (fun _ h c => ⟨(h c).1.trans ?_, (h c).2⟩) (Cert.ReferenceIdeal.RefRun.run (F := Ideal) m' ρ')
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
